-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1536 : Shape := ⟨2, ![64, 1536]⟩
abbrev S50000x1536 : Shape := ⟨2, ![50000, 1536]⟩
abbrev S2x200000 : Shape := ⟨2, ![2, 200000]⟩
abbrev S50000 : Shape := ⟨1, ![50000]⟩
abbrev S1536x1024 : Shape := ⟨2, ![1536, 1024]⟩
abbrev S1024 : Shape := ⟨1, ![1024]⟩
abbrev S1024x1024 : Shape := ⟨2, ![1024, 1024]⟩
abbrev S2560x1024 : Shape := ⟨2, ![2560, 1024]⟩
abbrev S1024x80 : Shape := ⟨2, ![1024, 80]⟩
abbrev S80 : Shape := ⟨1, ![80]⟩
abbrev S_ : Shape := ⟨0, ![]⟩

class Facts : Prop where
  bcast_S_S64x1536 : S_.BroadcastsInDim S64x1536 (![] : Fin 0 → Fin S64x1536.rank)
  reducesTo_S64x1536_S_d0_1 : S64x1536.ReducesTo [0, 1] S_
  h_S_ : 0 < S_.numel
  bcast_S_S50000x1536 : S_.BroadcastsInDim S50000x1536 (![] : Fin 0 → Fin S50000x1536.rank)
  reducesTo_S50000x1536_S_d0_1 : S50000x1536.ReducesTo [0, 1] S_
  bcast_S_S1536x1024 : S_.BroadcastsInDim S1536x1024 (![] : Fin 0 → Fin S1536x1024.rank)
  reducesTo_S1536x1024_S_d0_1 : S1536x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S2560x1024 : S_.BroadcastsInDim S2560x1024 (![] : Fin 0 → Fin S2560x1024.rank)
  reducesTo_S2560x1024_S_d0_1 : S2560x1024.ReducesTo [0, 1] S_
  bcast_S_S1024x80 : S_.BroadcastsInDim S1024x80 (![] : Fin 0 → Fin S1024x80.rank)
  reducesTo_S1024x80_S_d0_1 : S1024x80.ReducesTo [0, 1] S_
  bcast_S_S80 : S_.BroadcastsInDim S80 (![] : Fin 0 → Fin S80.rank)
  reducesTo_S80_S_d0 : S80.ReducesTo [0] S_

variable [Facts]

def fn_part2 {F : FTy → Type} [FloatOps F] (main_arg9 : FVec F S1024 .f32) (main_arg10 : FVec F S1024x80 .f32) (main_arg11 : FVec F S80 .f32) (main_v33 : IVec S_ 1) : IVec S_ 1 :=
  let main_v34 : FVec F S1024 .f32 := Host.absf main_arg9
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x80 .f32 := Host.absf main_arg10
  let main_cst_14 : FVec F S_ .f32 := constant S_ .f32 0x7F800000#32
  let main_v40 : FVec F S1024x80 .f32 := broadcastInDim S1024x80 ![] bcast_S_S1024x80 main_cst_14
  let main_v41 : IVec S1024x80 1 := cmpf .olt main_v39 main_v40
  let main_c_15 : IVec S_ 1 := constantI S_ 1 1#1
  let main_v42 : IVec S_ 1 := (fun x v => Host.reduce IntOp.andi x v reducesTo_S1024x80_S_d0_1 h_S_) main_v41 main_c_15
  let main_v43 : IVec S_ 1 := andi main_v38 main_v42
  let main_v44 : FVec F S80 .f32 := Host.absf main_arg11
  let main_cst_16 : FVec F S_ .f32 := constant S_ .f32 0x7F800000#32
  let main_v45 : FVec F S80 .f32 := broadcastInDim S80 ![] bcast_S_S80 main_cst_16
  let main_v46 : IVec S80 1 := cmpf .olt main_v44 main_v45
  let main_c_17 : IVec S_ 1 := constantI S_ 1 1#1
  let main_v47 : IVec S_ 1 := (fun x v => Host.reduce IntOp.andi x v reducesTo_S80_S_d0 h_S_) main_v46 main_c_17
  let main_v48 : IVec S_ 1 := andi main_v43 main_v47
  main_v48

def fn_part1 {F : FTy → Type} [FloatOps F] (main_arg6 : FVec F S1024x1024 .f32) (main_arg7 : FVec F S1024 .f32) (main_arg8 : FVec F S2560x1024 .f32) (main_arg9 : FVec F S1024 .f32) (main_arg10 : FVec F S1024x80 .f32) (main_arg11 : FVec F S80 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg6
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg7
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S2560x1024 .f32 := Host.absf main_arg8
  let main_cst_10 : FVec F S_ .f32 := constant S_ .f32 0x7F800000#32
  let main_v30 : FVec F S2560x1024 .f32 := broadcastInDim S2560x1024 ![] bcast_S_S2560x1024 main_cst_10
  let main_v31 : IVec S2560x1024 1 := cmpf .olt main_v29 main_v30
  let main_c_11 : IVec S_ 1 := constantI S_ 1 1#1
  let main_v32 : IVec S_ 1 := (fun x v => Host.reduce IntOp.andi x v reducesTo_S2560x1024_S_d0_1 h_S_) main_v31 main_c_11
  let main_v33 : IVec S_ 1 := andi main_v28 main_v32
  fn_part2 (F := F) main_arg9 main_arg10 main_arg11 main_v33

def fn {F : FTy → Type} [FloatOps F] (main_arg0 : FVec F S64x1536 .f32) (main_arg1 : FVec F S50000x1536 .f32) (main_arg2 : IVec S2x200000 32) (main_arg3 : IVec S50000 32) (main_arg4 : FVec F S1536x1024 .f32) (main_arg5 : FVec F S1024 .f32) (main_arg6 : FVec F S1024x1024 .f32) (main_arg7 : FVec F S1024 .f32) (main_arg8 : FVec F S2560x1024 .f32) (main_arg9 : FVec F S1024 .f32) (main_arg10 : FVec F S1024x80 .f32) (main_arg11 : FVec F S80 .f32) : IVec S_ 1 :=
  let main_v0 : FVec F S64x1536 .f32 := Host.absf main_arg0
  let main_cst : FVec F S_ .f32 := constant S_ .f32 0x7F800000#32
  let main_v1 : FVec F S64x1536 .f32 := broadcastInDim S64x1536 ![] bcast_S_S64x1536 main_cst
  let main_v2 : IVec S64x1536 1 := cmpf .olt main_v0 main_v1
  let main_c : IVec S_ 1 := constantI S_ 1 1#1
  let main_v3 : IVec S_ 1 := (fun x v => Host.reduce IntOp.andi x v reducesTo_S64x1536_S_d0_1 h_S_) main_v2 main_c
  let main_v4 : FVec F S50000x1536 .f32 := Host.absf main_arg1
  let main_cst_0 : FVec F S_ .f32 := constant S_ .f32 0x7F800000#32
  let main_v5 : FVec F S50000x1536 .f32 := broadcastInDim S50000x1536 ![] bcast_S_S50000x1536 main_cst_0
  let main_v6 : IVec S50000x1536 1 := cmpf .olt main_v4 main_v5
  let main_c_1 : IVec S_ 1 := constantI S_ 1 1#1
  let main_v7 : IVec S_ 1 := (fun x v => Host.reduce IntOp.andi x v reducesTo_S50000x1536_S_d0_1 h_S_) main_v6 main_c_1
  let main_v8 : IVec S_ 1 := andi main_v3 main_v7
  let main_v9 : FVec F S1536x1024 .f32 := Host.absf main_arg4
  let main_cst_2 : FVec F S_ .f32 := constant S_ .f32 0x7F800000#32
  let main_v10 : FVec F S1536x1024 .f32 := broadcastInDim S1536x1024 ![] bcast_S_S1536x1024 main_cst_2
  let main_v11 : IVec S1536x1024 1 := cmpf .olt main_v9 main_v10
  let main_c_3 : IVec S_ 1 := constantI S_ 1 1#1
  let main_v12 : IVec S_ 1 := (fun x v => Host.reduce IntOp.andi x v reducesTo_S1536x1024_S_d0_1 h_S_) main_v11 main_c_3
  let main_v13 : IVec S_ 1 := andi main_v8 main_v12
  let main_v14 : FVec F S1024 .f32 := Host.absf main_arg5
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg6 main_arg7 main_arg8 main_arg9 main_arg10 main_arg11 main_v13 main_v16
-- ==== Kernel.lean ====
abbrev S64x1536 : Shape := ⟨2, ![64, 1536]⟩
abbrev S50000x1536 : Shape := ⟨2, ![50000, 1536]⟩
abbrev S2x200000 : Shape := ⟨2, ![2, 200000]⟩
abbrev S50000 : Shape := ⟨1, ![50000]⟩
abbrev S1536x1024 : Shape := ⟨2, ![1536, 1024]⟩
abbrev S1024 : Shape := ⟨1, ![1024]⟩
abbrev S1024x1024 : Shape := ⟨2, ![1024, 1024]⟩
abbrev S2560x1024 : Shape := ⟨2, ![2560, 1024]⟩
abbrev S1024x80 : Shape := ⟨2, ![1024, 80]⟩
abbrev S80 : Shape := ⟨1, ![80]⟩
abbrev S1x200000 : Shape := ⟨2, ![1, 200000]⟩
abbrev S200000 : Shape := ⟨1, ![200000]⟩
abbrev S_ : Shape := ⟨0, ![]⟩
abbrev S200000x1 : Shape := ⟨2, ![200000, 1]⟩
abbrev S50000x1 : Shape := ⟨2, ![50000, 1]⟩
abbrev S50000x1024 : Shape := ⟨2, ![50000, 1024]⟩
abbrev S1000x1536 : Shape := ⟨2, ![1000, 1536]⟩
abbrev S1000x1 : Shape := ⟨2, ![1000, 1]⟩
abbrev S1000x1024 : Shape := ⟨2, ![1000, 1024]⟩
abbrev S200000x1024 : Shape := ⟨2, ![200000, 1024]⟩
abbrev S1x1024 : Shape := ⟨2, ![1, 1024]⟩
abbrev S64 : Shape := ⟨1, ![64]⟩
abbrev S64x1024 : Shape := ⟨2, ![64, 1024]⟩
abbrev S64x1 : Shape := ⟨2, ![64, 1]⟩
abbrev S64x2560 : Shape := ⟨2, ![64, 2560]⟩
abbrev S1x80 : Shape := ⟨2, ![1, 80]⟩
abbrev S64x80 : Shape := ⟨2, ![64, 80]⟩

abbrev nBuf : Space → Nat
  | .hbm => 97
  | .vmem => 20
  | .smem => 0
  | _ => 0

abbrev bufTy : (tb : Table) → Fin (tcTables nBuf tb) → BufTy
  | .hbm, ⟨0, _⟩ => ⟨S64x1536, .f32⟩
  | .hbm, ⟨1, _⟩ => ⟨S50000x1536, .f32⟩
  | .hbm, ⟨2, _⟩ => ⟨S2x200000, .i32⟩
  | .hbm, ⟨3, _⟩ => ⟨S50000, .i32⟩
  | .hbm, ⟨4, _⟩ => ⟨S1536x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S2560x1024, .f32⟩
  | .hbm, ⟨9, _⟩ => ⟨S1024, .f32⟩
  | .hbm, ⟨10, _⟩ => ⟨S1024x80, .f32⟩
  | .hbm, ⟨11, _⟩ => ⟨S80, .f32⟩
  | .hbm, ⟨12, _⟩ => ⟨S1x200000, .i32⟩
  | .hbm, ⟨13, _⟩ => ⟨S200000, .i32⟩
  | .hbm, ⟨14, _⟩ => ⟨S1x200000, .i32⟩
  | .hbm, ⟨15, _⟩ => ⟨S200000, .i32⟩
  | .hbm, ⟨16, _⟩ => ⟨S_, .f32⟩
  | .hbm, ⟨17, _⟩ => ⟨S200000, .f32⟩
  | .hbm, ⟨18, _⟩ => ⟨S_, .f32⟩
  | .hbm, ⟨19, _⟩ => ⟨S50000, .f32⟩
  | .hbm, ⟨20, _⟩ => ⟨S200000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S1536x1024, .bf16⟩
  | .hbm, ⟨28, _⟩ => ⟨S1024x1024, .bf16⟩
  | .hbm, ⟨29, _⟩ => ⟨S2560x1024, .bf16⟩
  | .hbm, ⟨30, _⟩ => ⟨S1024x80, .bf16⟩
  | .hbm, ⟨31, _⟩ => ⟨S50000x1024, .f32⟩
  | .hbm, ⟨32, _⟩ => ⟨S_, .i32⟩
  | .hbm, ⟨33, _⟩ => ⟨S200000, .i32⟩
  | .hbm, ⟨34, _⟩ => ⟨S200000, .i1⟩
  | .hbm, ⟨35, _⟩ => ⟨S_, .i32⟩
  | .hbm, ⟨36, _⟩ => ⟨S200000, .i32⟩
  | .hbm, ⟨37, _⟩ => ⟨S200000, .i32⟩
  | .hbm, ⟨38, _⟩ => ⟨S200000, .i32⟩
  | .hbm, ⟨39, _⟩ => ⟨S200000x1, .i32⟩
  | .hbm, ⟨40, _⟩ => ⟨S200000x1024, .f32⟩
  | .hbm, ⟨41, _⟩ => ⟨S_, .f32⟩
  | .hbm, ⟨42, _⟩ => ⟨S50000x1024, .f32⟩
  | .hbm, ⟨43, _⟩ => ⟨S200000x1, .i32⟩
  | .hbm, ⟨44, _⟩ => ⟨S50000x1024, .f32⟩
  | .hbm, ⟨45, _⟩ => ⟨S50000x1024, .f32⟩
  | .hbm, ⟨46, _⟩ => ⟨S50000x1024, .f32⟩
  | .hbm, ⟨47, _⟩ => ⟨S50000x1024, .f32⟩
  | .hbm, ⟨48, _⟩ => ⟨S1x1024, .f32⟩
  | .hbm, ⟨49, _⟩ => ⟨S50000x1024, .f32⟩
  | .hbm, ⟨50, _⟩ => ⟨S50000x1024, .f32⟩
  | .hbm, ⟨51, _⟩ => ⟨S_, .f32⟩
  | .hbm, ⟨52, _⟩ => ⟨S50000x1024, .f32⟩
  | .hbm, ⟨53, _⟩ => ⟨S50000x1024, .f32⟩
  | .hbm, ⟨54, _⟩ => ⟨S50000x1024, .f32⟩
  | .hbm, ⟨55, _⟩ => ⟨S_, .i32⟩
  | .hbm, ⟨56, _⟩ => ⟨S200000, .i32⟩
  | .hbm, ⟨57, _⟩ => ⟨S200000, .i1⟩
  | .hbm, ⟨58, _⟩ => ⟨S_, .i32⟩
  | .hbm, ⟨59, _⟩ => ⟨S200000, .i32⟩
  | .hbm, ⟨60, _⟩ => ⟨S200000, .i32⟩
  | .hbm, ⟨61, _⟩ => ⟨S200000, .i32⟩
  | .hbm, ⟨62, _⟩ => ⟨S200000x1, .i32⟩
  | .hbm, ⟨63, _⟩ => ⟨S200000x1024, .f32⟩
  | .hbm, ⟨64, _⟩ => ⟨S_, .f32⟩
  | .hbm, ⟨65, _⟩ => ⟨S50000x1024, .f32⟩
  | .hbm, ⟨66, _⟩ => ⟨S200000x1, .i32⟩
  | .hbm, ⟨67, _⟩ => ⟨S50000x1024, .f32⟩
  | .hbm, ⟨68, _⟩ => ⟨S50000x1024, .f32⟩
  | .hbm, ⟨69, _⟩ => ⟨S50000x1024, .f32⟩
  | .hbm, ⟨70, _⟩ => ⟨S50000x1024, .f32⟩
  | .hbm, ⟨71, _⟩ => ⟨S1x1024, .f32⟩
  | .hbm, ⟨72, _⟩ => ⟨S50000x1024, .f32⟩
  | .hbm, ⟨73, _⟩ => ⟨S50000x1024, .f32⟩
  | .hbm, ⟨74, _⟩ => ⟨S_, .f32⟩
  | .hbm, ⟨75, _⟩ => ⟨S50000x1024, .f32⟩
  | .hbm, ⟨76, _⟩ => ⟨S50000x1024, .f32⟩
  | .hbm, ⟨77, _⟩ => ⟨S_, .f32⟩
  | .hbm, ⟨78, _⟩ => ⟨S50000, .f32⟩
  | .hbm, ⟨79, _⟩ => ⟨S_, .f32⟩
  | .hbm, ⟨80, _⟩ => ⟨S64, .f32⟩
  | .hbm, ⟨81, _⟩ => ⟨S50000x1, .i32⟩
  | .hbm, ⟨82, _⟩ => ⟨S64, .f32⟩
  | .hbm, ⟨83, _⟩ => ⟨S_, .f32⟩
  | .hbm, ⟨84, _⟩ => ⟨S64x1024, .f32⟩
  | .hbm, ⟨85, _⟩ => ⟨S50000x1, .i32⟩
  | .hbm, ⟨86, _⟩ => ⟨S64x1024, .f32⟩
  | .hbm, ⟨87, _⟩ => ⟨S_, .f32⟩
  | .hbm, ⟨88, _⟩ => ⟨S64, .f32⟩
  | .hbm, ⟨89, _⟩ => ⟨S64, .f32⟩
  | .hbm, ⟨90, _⟩ => ⟨S64x1, .f32⟩
  | .hbm, ⟨91, _⟩ => ⟨S64x1024, .f32⟩
  | .hbm, ⟨92, _⟩ => ⟨S64x1024, .f32⟩
  | .hbm, ⟨93, _⟩ => ⟨S64x2560, .f32⟩
  | .hbm, ⟨94, _⟩ => ⟨S1x1024, .f32⟩
  | .hbm, ⟨95, _⟩ => ⟨S1x80, .f32⟩
  | .hbm, ⟨96, _⟩ => ⟨S64x80, .f32⟩
  | .local _ .vmem, ⟨0, _⟩ => ⟨S1000x1536, .f32⟩
  | .local _ .vmem, ⟨1, _⟩ => ⟨S1000x1536, .f32⟩
  | .local _ .vmem, ⟨2, _⟩ => ⟨S1536x1024, .bf16⟩
  | .local _ .vmem, ⟨3, _⟩ => ⟨S1000x1, .f32⟩
  | .local _ .vmem, ⟨4, _⟩ => ⟨S1000x1, .f32⟩
  | .local _ .vmem, ⟨5, _⟩ => ⟨S1000x1024, .f32⟩
  | .local _ .vmem, ⟨6, _⟩ => ⟨S1000x1024, .f32⟩
  | .local _ .vmem, ⟨7, _⟩ => ⟨S1000x1024, .f32⟩
  | .local _ .vmem, ⟨8, _⟩ => ⟨S1000x1024, .f32⟩
  | .local _ .vmem, ⟨9, _⟩ => ⟨S1024x1024, .bf16⟩
  | .local _ .vmem, ⟨10, _⟩ => ⟨S1000x1, .f32⟩
  | .local _ .vmem, ⟨11, _⟩ => ⟨S1000x1, .f32⟩
  | .local _ .vmem, ⟨12, _⟩ => ⟨S1000x1024, .f32⟩
  | .local _ .vmem, ⟨13, _⟩ => ⟨S1000x1024, .f32⟩
  | .local _ .vmem, ⟨14, _⟩ => ⟨S64x2560, .f32⟩
  | .local _ .vmem, ⟨15, _⟩ => ⟨S2560x1024, .bf16⟩
  | .local _ .vmem, ⟨16, _⟩ => ⟨S1x1024, .f32⟩
  | .local _ .vmem, ⟨17, _⟩ => ⟨S1024x80, .bf16⟩
  | .local _ .vmem, ⟨18, _⟩ => ⟨S1x80, .f32⟩
  | .local _ .vmem, ⟨19, _⟩ => ⟨S64x80, .f32⟩
  | _, _ => ⟨S64x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_call0_cst : Ref sig .tc := ⟨.hbm, 51, rfl⟩
abbrev main_call0_v0 : Ref sig .tc := ⟨.hbm, 52, rfl⟩
abbrev main_v33 : Ref sig .tc := ⟨.hbm, 53, rfl⟩
abbrev main_v34 : Ref sig .tc := ⟨.hbm, 54, rfl⟩
abbrev main_c_4 : Ref sig .tc := ⟨.hbm, 55, rfl⟩
abbrev main_v35 : Ref sig .tc := ⟨.hbm, 56, rfl⟩
abbrev main_v36 : Ref sig .tc := ⟨.hbm, 57, rfl⟩
abbrev main_c_5 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_6 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_call1_cst : Ref sig .tc := ⟨.hbm, 74, rfl⟩
abbrev main_call1_v0 : Ref sig .tc := ⟨.hbm, 75, rfl⟩
abbrev main_v51 : Ref sig .tc := ⟨.hbm, 76, rfl⟩
abbrev main_cst_7 : Ref sig .tc := ⟨.hbm, 77, rfl⟩
abbrev main_v52 : Ref sig .tc := ⟨.hbm, 78, rfl⟩
abbrev main_cst_8 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_9 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_10 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1000x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S64x2560 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S2560x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1024x80 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x80 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x80 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

class Facts₀ : Prop where
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S_S50000 : S_.BroadcastsInDim S50000 (![] : Fin 0 → Fin S50000.rank)
  bcast_S200000_S200000x1_0 : S200000.BroadcastsInDim S200000x1 (![0] : Fin 1 → Fin S200000x1.rank)
  shapeCasts_S50000_S50000x1 : S50000.ShapeCasts S50000x1
  bitsLt_bf16_f32 : FTy.bits .bf16 < FTy.bits .f32
  inb_S1000x1536_S1000x1536_0_0 : ∀ a, (![0, 0] : Fin 2 → Nat) a + S1000x1536.size a ≤ S1000x1536.size a
  h_S1000x1536 : 0 < S1000x1536.numel
  inb_S1536x1024_S1536x1024_0_0 : ∀ a, (![0, 0] : Fin 2 → Nat) a + S1536x1024.size a ≤ S1536x1024.size a
  h_S1536x1024 : 0 < S1536x1024.numel
  shapeCasts_S1536x1024_S1536x1024 : S1536x1024.ShapeCasts S1536x1024
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x1024 : S1000x1.Broadcasts S1000x1024
  inb_S1000x1024_S1000x1024_0_0 : ∀ a, (![0, 0] : Fin 2 → Nat) a + S1000x1024.size a ≤ S1000x1024.size a
  h_S1000x1024 : 0 < S1000x1024.numel
  bcast_S_S50000x1024 : S_.BroadcastsInDim S50000x1024 (![] : Fin 0 → Fin S50000x1024.rank)
  bcast_S50000x1_S50000x1024_0_1 : S50000x1.BroadcastsInDim S50000x1024 (![0, 1] : Fin 2 → Fin S50000x1024.rank)
  bcast_S1024_S1x1024_1 : S1024.BroadcastsInDim S1x1024 (![1] : Fin 1 → Fin S1x1024.rank)
  bcast_S1x1024_S50000x1024_0_1 : S1x1024.BroadcastsInDim S50000x1024 (![0, 1] : Fin 2 → Fin S50000x1024.rank)
  shapeCasts_S1000x1024_S1000x1024 : S1000x1024.ShapeCasts S1000x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bcast_S_S64 : S_.BroadcastsInDim S64 (![] : Fin 0 → Fin S64.rank)
  bcast_S50000_S50000x1_0 : S50000.BroadcastsInDim S50000x1 (![0] : Fin 1 → Fin S50000x1.rank)
  bcast_S_S64x1024 : S_.BroadcastsInDim S64x1024 (![] : Fin 0 → Fin S64x1024.rank)
  bcast_S64_S64x1_0 : S64.BroadcastsInDim S64x1 (![0] : Fin 1 → Fin S64x1.rank)
  bcast_S64x1_S64x1024_0_1 : S64x1.BroadcastsInDim S64x1024 (![0, 1] : Fin 2 → Fin S64x1024.rank)
  concatenates_S64x1536_S64x1024_S64x2560_d1 : Shape.Concatenates [S64x1536, S64x1024] S64x2560 1
  shapeCasts_S1024_S1x1024 : S1024.ShapeCasts S1x1024
  shapeCasts_S80_S1x80 : S80.ShapeCasts S1x80
  inb_S64x2560_S64x2560_0_0 : ∀ a, (![0, 0] : Fin 2 → Nat) a + S64x2560.size a ≤ S64x2560.size a
  h_S64x2560 : 0 < S64x2560.numel
  shapeCasts_S64x2560_S64x2560 : S64x2560.ShapeCasts S64x2560
  inb_S2560x1024_S2560x1024_0_0 : ∀ a, (![0, 0] : Fin 2 → Nat) a + S2560x1024.size a ≤ S2560x1024.size a
  h_S2560x1024 : 0 < S2560x1024.numel
  shapeCasts_S2560x1024_S2560x1024 : S2560x1024.ShapeCasts S2560x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S64x1024 : S1x1024.Broadcasts S64x1024
  inb_S1024x80_S1024x80_0_0 : ∀ a, (![0, 0] : Fin 2 → Nat) a + S1024x80.size a ≤ S1024x80.size a
  h_S1024x80 : 0 < S1024x80.numel
  shapeCasts_S1024x80_S1024x80 : S1024x80.ShapeCasts S1024x80
  inb_S1x80_S1x80_0_0 : ∀ a, (![0, 0] : Fin 2 → Nat) a + S1x80.size a ≤ S1x80.size a
  h_S1x80 : 0 < S1x80.numel
  shapeCasts_S1x80_S1x80 : S1x80.ShapeCasts S1x80
  broadcasts_S1x80_S64x80 : S1x80.Broadcasts S64x80
  inb_S64x80_S64x80_0_0 : ∀ a, (![0, 0] : Fin 2 → Nat) a + S64x80.size a ≤ S64x80.size a
  h_S64x80 : 0 < S64x80.numel
  scatter_S50000_S200000x1_S200000_n_0_0_1_wf : ScatterDims.WF S50000 S200000x1 S200000 [] [0] [0] 1
  dot_S1000x1536_S1536x1024_S1000x1024_1_0_0_1_n_n_wf : DotDims.WF S1000x1536 S1536x1024 S1000x1024 [1] [0] [0] [1] [] []
  gather_S50000x1024_S200000x1_S200000x1024_1_0_n_n_0_1_11024_wf : GatherDims.WF S50000x1024 S200000x1 S200000x1024 [1] [0] [] [0] [] 1 ![1, 1024]
  scatter_S50000x1024_S200000x1_S200000x1024_1_0_0_1_wf : ScatterDims.WF S50000x1024 S200000x1 S200000x1024 [1] [0] [0] 1
  dot_S1000x1024_S1024x1024_S1000x1024_1_0_0_1_n_n_wf : DotDims.WF S1000x1024 S1024x1024 S1000x1024 [1] [0] [0] [1] [] []
  scatter_S64_S50000x1_S50000_n_0_0_1_wf : ScatterDims.WF S64 S50000x1 S50000 [] [0] [0] 1
  scatter_S64x1024_S50000x1_S50000x1024_1_0_0_1_wf : ScatterDims.WF S64x1024 S50000x1 S50000x1024 [1] [0] [0] 1
  dot_S64x2560_S2560x1024_S64x1024_1_0_0_1_n_n_wf : DotDims.WF S64x2560 S2560x1024 S64x1024 [1] [0] [0] [1] [] []
  dot_S64x1024_S1024x80_S64x80_1_0_0_1_n_n_wf : DotDims.WF S64x1024 S1024x80 S64x80 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1536.size a ≤ S50000x1536.size a
  hwx0_0 : ∀ i : grid0.Coords, EltTy.bits .f32 = 32 ∨ (Rect.block (s := S50000x1536) S1000x1536.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1536x1024.size a ≤ S1536x1024.size a
  hwx0_1 : ∀ i : grid0.Coords, EltTy.bits .bf16 = 32 ∨ (Rect.block (s := S1536x1024) S1536x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x1.size a ≤ S50000x1.size a
  hwx0_2 : ∀ i : grid0.Coords, EltTy.bits .f32 = 32 ∨ (Rect.block (s := S50000x1) S1000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x1024.size a ≤ S50000x1024.size a
  hwx0_3 : ∀ i : grid0.Coords, EltTy.bits .f32 = 32 ∨ (Rect.block (s := S50000x1024) S1000x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x1024.size a ≤ S50000x1024.size a
  hwx1_0 : ∀ i : grid1.Coords, EltTy.bits .f32 = 32 ∨ (Rect.block (s := S50000x1024) S1000x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x1.size a ≤ S50000x1.size a
  hwx1_2 : ∀ i : grid1.Coords, EltTy.bits .f32 = 32 ∨ (Rect.block (s := S50000x1) S1000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x1024.size a ≤ S50000x1024.size a
  hwx1_3 : ∀ i : grid1.Coords, EltTy.bits .f32 = 32 ∨ (Rect.block (s := S50000x1024) S1000x1024.size (cc1_transform_3 i) (hinb1_3 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S64x2560.size a ≤ S64x2560.size a
  hwx2_0 : ∀ i : grid2.Coords, EltTy.bits .f32 = 32 ∨ (Rect.block (s := S64x2560) S64x2560.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2560x1024.size a ≤ S2560x1024.size a
  hwx2_1 : ∀ i : grid2.Coords, EltTy.bits .bf16 = 32 ∨ (Rect.block (s := S2560x1024) S2560x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1024x80.size a ≤ S1024x80.size a
  hwx2_3 : ∀ i : grid2.Coords, EltTy.bits .bf16 = 32 ∨ (Rect.block (s := S1024x80) S1024x80.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x80.size a ≤ S1x80.size a
  hwx2_4 : ∀ i : grid2.Coords, EltTy.bits .f32 = 32 ∨ (Rect.block (s := S1x80) S1x80.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x80.size a ≤ S64x80.size a
  hwx2_5 : ∀ i : grid2.Coords, EltTy.bits .f32 = 32 ∨ (Rect.block (s := S64x80) S64x80.size (cc2_transform_5 i) (hinb2_5 i)).WholeWords (EltTy.packing .f32)

variable [Facts₀]

def scatter_S50000_S200000x1_S200000_n_0_0_1 : ScatterDims S50000 S200000x1 S200000 where
  updateWindowDims := []
  insertedWindowDims := [0]
  scatterDimsToOperandDims := [0]
  indexVectorDim := 1
  wf := scatter_S50000_S200000x1_S200000_n_0_0_1_wf
def dot_S1000x1536_S1536x1024_S1000x1024_1_0_0_1_n_n : DotDims S1000x1536 S1536x1024 S1000x1024 where
  lhsContracting := [1]
  rhsContracting := [0]
  lhsNonContracting := [0]
  rhsNonContracting := [1]
  lhsBatch := []
  rhsBatch := []
  wf := dot_S1000x1536_S1536x1024_S1000x1024_1_0_0_1_n_n_wf
def gather_S50000x1024_S200000x1_S200000x1024_1_0_n_n_0_1_11024 : GatherDims S50000x1024 S200000x1 S200000x1024 where
  offsetDims := [1]
  collapsedSliceDims := [0]
  operandBatchingDims := []
  startIndicesBatchingDims := []
  startIndexMap := [0]
  indexVectorDim := 1
  sliceSizes := ![1, 1024]
  wf := gather_S50000x1024_S200000x1_S200000x1024_1_0_n_n_0_1_11024_wf
def scatter_S50000x1024_S200000x1_S200000x1024_1_0_0_1 : ScatterDims S50000x1024 S200000x1 S200000x1024 where
  updateWindowDims := [1]
  insertedWindowDims := [0]
  scatterDimsToOperandDims := [0]
  indexVectorDim := 1
  wf := scatter_S50000x1024_S200000x1_S200000x1024_1_0_0_1_wf
def dot_S1000x1024_S1024x1024_S1000x1024_1_0_0_1_n_n : DotDims S1000x1024 S1024x1024 S1000x1024 where
  lhsContracting := [1]
  rhsContracting := [0]
  lhsNonContracting := [0]
  rhsNonContracting := [1]
  lhsBatch := []
  rhsBatch := []
  wf := dot_S1000x1024_S1024x1024_S1000x1024_1_0_0_1_n_n_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x1024_S50000x1_S50000x1024_1_0_0_1 : ScatterDims S64x1024 S50000x1 S50000x1024 where
  updateWindowDims := [1]
  insertedWindowDims := [0]
  scatterDimsToOperandDims := [0]
  indexVectorDim := 1
  wf := scatter_S64x1024_S50000x1_S50000x1024_1_0_0_1_wf
def dot_S64x2560_S2560x1024_S64x1024_1_0_0_1_n_n : DotDims S64x2560 S2560x1024 S64x1024 where
  lhsContracting := [1]
  rhsContracting := [0]
  lhsNonContracting := [0]
  rhsNonContracting := [1]
  lhsBatch := []
  rhsBatch := []
  wf := dot_S64x2560_S2560x1024_S64x1024_1_0_0_1_n_n_wf
def dot_S64x1024_S1024x80_S64x80_1_0_0_1_n_n : DotDims S64x1024 S1024x80 S64x80 where
  lhsContracting := [1]
  rhsContracting := [0]
  lhsNonContracting := [0]
  rhsNonContracting := [1]
  lhsBatch := []
  rhsBatch := []
  wf := dot_S64x1024_S1024x80_S64x80_1_0_0_1_n_n_wf

abbrev win0_0 : Pipeline.Window sig grid0 :=
  Pipeline.Window.ofSpec (Memref.whole main_arg1) S1000x1536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1536x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1000x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v33) S1000x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v34) S1000x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v64) S64x2560.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v14) S2560x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v65) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v15) S1024x80.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v66) S1x80.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v67) S64x80.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S64x1536 : Shape := ⟨2, ![64, 1536]⟩
abbrev S50000x1536 : Shape := ⟨2, ![50000, 1536]⟩
abbrev S2x200000 : Shape := ⟨2, ![2, 200000]⟩
abbrev S50000 : Shape := ⟨1, ![50000]⟩
abbrev S1536x1024 : Shape := ⟨2, ![1536, 1024]⟩
abbrev S1024 : Shape := ⟨1, ![1024]⟩
abbrev S1024x1024 : Shape := ⟨2, ![1024, 1024]⟩
abbrev S2560x1024 : Shape := ⟨2, ![2560, 1024]⟩
abbrev S1024x80 : Shape := ⟨2, ![1024, 80]⟩
abbrev S80 : Shape := ⟨1, ![80]⟩
abbrev S1x200000 : Shape := ⟨2, ![1, 200000]⟩
abbrev S200000 : Shape := ⟨1, ![200000]⟩
abbrev S250000 : Shape := ⟨1, ![250000]⟩
abbrev S_ : Shape := ⟨0, ![]⟩
abbrev S250000x1 : Shape := ⟨2, ![250000, 1]⟩
abbrev S50000x1024 : Shape := ⟨2, ![50000, 1024]⟩
abbrev S250000x1024 : Shape := ⟨2, ![250000, 1024]⟩
abbrev S1x1024 : Shape := ⟨2, ![1, 1024]⟩
abbrev S64 : Shape := ⟨1, ![64]⟩
abbrev S50000x1 : Shape := ⟨2, ![50000, 1]⟩
abbrev S64x1024 : Shape := ⟨2, ![64, 1024]⟩
abbrev S64x1 : Shape := ⟨2, ![64, 1]⟩
abbrev S64x2560 : Shape := ⟨2, ![64, 2560]⟩
abbrev S64x80 : Shape := ⟨2, ![64, 80]⟩
abbrev S1x80 : Shape := ⟨2, ![1, 80]⟩

abbrev nBuf : Space → Nat
  | .hbm => 129
  | .vmem => 0
  | .smem => 0
  | _ => 0

abbrev hbmTy0_0 (i : Nat) : BufTy := match i % 128 with
  | 0 => ⟨S64x1536, .f32⟩
  | 1 => ⟨S50000x1536, .f32⟩
  | 2 => ⟨S2x200000, .i32⟩
  | 3 => ⟨S50000, .i32⟩
  | 4 => ⟨S1536x1024, .f32⟩
  | 5 => ⟨S1024, .f32⟩
  | 6 => ⟨S1024x1024, .f32⟩
  | 7 => ⟨S1024, .f32⟩
  | 8 => ⟨S2560x1024, .f32⟩
  | 9 => ⟨S1024, .f32⟩
  | 10 => ⟨S1024x80, .f32⟩
  | 11 => ⟨S80, .f32⟩
  | 12 => ⟨S50000, .i32⟩
  | 13 => ⟨S1x200000, .i32⟩
  | 14 => ⟨S200000, .i32⟩
  | 15 => ⟨S250000, .i32⟩
  | 16 => ⟨S1x200000, .i32⟩
  | 17 => ⟨S200000, .i32⟩
  | 18 => ⟨S250000, .i32⟩
  | 19 => ⟨S_, .f32⟩
  | 20 => ⟨S250000, .f32⟩
  | 21 => ⟨S_, .f32⟩
  | 22 => ⟨S50000, .f32⟩
  | 23 => ⟨S250000x1, .i32⟩
  | 24 => ⟨S50000, .f32⟩
  | 25 => ⟨S_, .f32⟩
  | 26 => ⟨S50000, .f32⟩
  | 27 => ⟨S50000, .i1⟩
  | 28 => ⟨S_, .f32⟩
  | 29 => ⟨S50000, .f32⟩
  | 30 => ⟨S50000, .f32⟩
  | 31 => ⟨S50000, .f32⟩
  | 32 => ⟨S_, .f32⟩
  | 33 => ⟨S_, .f32⟩
  | 34 => ⟨S50000, .f32⟩
  | 35 => ⟨S50000, .f32⟩
  | 36 => ⟨S_, .i32⟩
  | 37 => ⟨S250000, .i32⟩
  | 38 => ⟨S250000, .i1⟩
  | 39 => ⟨S_, .i32⟩
  | 40 => ⟨S250000, .i32⟩
  | 41 => ⟨S250000, .i32⟩
  | 42 => ⟨S250000, .i32⟩
  | 43 => ⟨S250000x1, .i32⟩
  | 44 => ⟨S250000, .f32⟩
  | 45 => ⟨S_, .i32⟩
  | 46 => ⟨S250000, .i32⟩
  | 47 => ⟨S250000, .i1⟩
  | 48 => ⟨S_, .i32⟩
  | 49 => ⟨S250000, .i32⟩
  | 50 => ⟨S250000, .i32⟩
  | 51 => ⟨S250000, .i32⟩
  | 52 => ⟨S250000x1, .i32⟩
  | 53 => ⟨S250000, .f32⟩
  | 54 => ⟨S250000, .f32⟩
  | 55 => ⟨S50000x1024, .f32⟩
  | 56 => ⟨S_, .i32⟩
  | 57 => ⟨S250000, .i32⟩
  | 58 => ⟨S250000, .i1⟩
  | 59 => ⟨S_, .i32⟩
  | 60 => ⟨S250000, .i32⟩
  | 61 => ⟨S250000, .i32⟩
  | 62 => ⟨S250000, .i32⟩
  | 63 => ⟨S250000x1, .i32⟩
  | 64 => ⟨S250000x1024, .f32⟩
  | 65 => ⟨S250000x1, .f32⟩
  | 66 => ⟨S250000x1024, .f32⟩
  | 67 => ⟨S250000x1024, .f32⟩
  | 68 => ⟨S_, .f32⟩
  | 69 => ⟨S50000x1024, .f32⟩
  | 70 => ⟨S250000x1, .i32⟩
  | 71 => ⟨S50000x1024, .f32⟩
  | 72 => ⟨S1x1024, .f32⟩
  | 73 => ⟨S50000x1024, .f32⟩
  | 74 => ⟨S50000x1024, .f32⟩
  | 75 => ⟨S_, .f32⟩
  | 76 => ⟨S50000x1024, .f32⟩
  | 77 => ⟨S50000x1024, .f32⟩
  | 78 => ⟨S50000x1024, .f32⟩
  | 79 => ⟨S_, .i32⟩
  | 80 => ⟨S250000, .i32⟩
  | 81 => ⟨S250000, .i1⟩
  | 82 => ⟨S_, .i32⟩
  | 83 => ⟨S250000, .i32⟩
  | 84 => ⟨S250000, .i32⟩
  | 85 => ⟨S250000, .i32⟩
  | 86 => ⟨S250000x1, .i32⟩
  | 87 => ⟨S250000x1024, .f32⟩
  | 88 => ⟨S250000x1, .f32⟩
  | 89 => ⟨S250000x1024, .f32⟩
  | 90 => ⟨S250000x1024, .f32⟩
  | 91 => ⟨S_, .f32⟩
  | 92 => ⟨S50000x1024, .f32⟩
  | 93 => ⟨S250000x1, .i32⟩
  | 94 => ⟨S50000x1024, .f32⟩
  | 95 => ⟨S1x1024, .f32⟩
  | 96 => ⟨S50000x1024, .f32⟩
  | 97 => ⟨S50000x1024, .f32⟩
  | 98 => ⟨S_, .f32⟩
  | 99 => ⟨S50000x1024, .f32⟩
  | 100 => ⟨S50000x1024, .f32⟩
  | 101 => ⟨S_, .f32⟩
  | 102 => ⟨S50000, .f32⟩
  | 103 => ⟨S_, .f32⟩
  | 104 => ⟨S64, .f32⟩
  | 105 => ⟨S50000x1, .i32⟩
  | 106 => ⟨S64, .f32⟩
  | 107 => ⟨S_, .f32⟩
  | 108 => ⟨S64x1024, .f32⟩
  | 109 => ⟨S50000x1, .i32⟩
  | 110 => ⟨S64x1024, .f32⟩
  | 111 => ⟨S_, .f32⟩
  | 112 => ⟨S64, .f32⟩
  | 113 => ⟨S64, .f32⟩
  | 114 => ⟨S64x1, .f32⟩
  | 115 => ⟨S64x1024, .f32⟩
  | 116 => ⟨S64x1024, .f32⟩
  | 117 => ⟨S64x2560, .f32⟩
  | 118 => ⟨S64x1024, .f32⟩
  | 119 => ⟨S1x1024, .f32⟩
  | 120 => ⟨S64x1024, .f32⟩
  | 121 => ⟨S64x1024, .f32⟩
  | 122 => ⟨S_, .f32⟩
  | 123 => ⟨S64x1024, .f32⟩
  | 124 => ⟨S64x1024, .f32⟩
  | 125 => ⟨S64x80, .f32⟩
  | 126 => ⟨S1x80, .f32⟩
  | 127 => ⟨S64x80, .f32⟩
  | _ => ⟨S64x1536, .f32⟩

abbrev hbmTy0_1 (i : Nat) : BufTy := match i % 128 with
  | 0 => ⟨S64x80, .f32⟩
  | _ => ⟨S64x1536, .f32⟩

abbrev hbmTy (i : Nat) : BufTy := match i / 128 with
  | 0 => hbmTy0_0 i
  | 1 => hbmTy0_1 i
  | _ => ⟨S64x1536, .f32⟩

abbrev bufTy : (tb : Table) → Fin (tcTables nBuf tb) → BufTy
  | .hbm, ⟨i, _⟩ => hbmTy i
  | _, _ => ⟨S64x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v16 : Ref sig .tc := ⟨.hbm, 35, rfl⟩
abbrev main_c : Ref sig .tc := ⟨.hbm, 36, rfl⟩
abbrev main_v17 : Ref sig .tc := ⟨.hbm, 37, rfl⟩
abbrev main_v18 : Ref sig .tc := ⟨.hbm, 38, rfl⟩
abbrev main_c_4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_c_6 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_c_8 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_9 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_call1_cst : Ref sig .tc := ⟨.hbm, 75, rfl⟩
abbrev main_call1_v0 : Ref sig .tc := ⟨.hbm, 76, rfl⟩
abbrev main_v49 : Ref sig .tc := ⟨.hbm, 77, rfl⟩
abbrev main_v50 : Ref sig .tc := ⟨.hbm, 78, rfl⟩
abbrev main_c_10 : Ref sig .tc := ⟨.hbm, 79, rfl⟩
abbrev main_v51 : Ref sig .tc := ⟨.hbm, 80, rfl⟩
abbrev main_v52 : Ref sig .tc := ⟨.hbm, 81, rfl⟩
abbrev main_c_11 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_12 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_call2_cst : Ref sig .tc := ⟨.hbm, 98, rfl⟩
abbrev main_call2_v0 : Ref sig .tc := ⟨.hbm, 99, rfl⟩
abbrev main_v67 : Ref sig .tc := ⟨.hbm, 100, rfl⟩
abbrev main_cst_13 : Ref sig .tc := ⟨.hbm, 101, rfl⟩
abbrev main_v68 : Ref sig .tc := ⟨.hbm, 102, rfl⟩
abbrev main_cst_14 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_15 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_16 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_call3_cst : Ref sig .tc := ⟨.hbm, 122, rfl⟩
abbrev main_call3_v0 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩

abbrev nD : Nat := 1
abbrev τ : Topo := Topo.v7x

variable {F : FTy → Type} [FloatOps F]

class Facts₀ : Prop where
  slices_S2x200000_S1x200000_0_0 : S2x200000.Slices ![0, 0] S1x200000
  shapeCasts_S1x200000_S200000 : S1x200000.ShapeCasts S200000
  concatenates_S200000_S50000_S250000_d0 : Shape.Concatenates [S200000, S50000] S250000 0
  slices_S2x200000_S1x200000_1_0 : S2x200000.Slices ![1, 0] S1x200000
  bcast_S_S250000 : S_.BroadcastsInDim S250000 (![] : Fin 0 → Fin S250000.rank)
  bcast_S_S50000 : S_.BroadcastsInDim S50000 (![] : Fin 0 → Fin S50000.rank)
  bcast_S250000_S250000x1_0 : S250000.BroadcastsInDim S250000x1 (![0] : Fin 1 → Fin S250000x1.rank)
  bcast_S250000x1_S250000x1024_0_1 : S250000x1.BroadcastsInDim S250000x1024 (![0, 1] : Fin 2 → Fin S250000x1024.rank)
  bcast_S_S50000x1024 : S_.BroadcastsInDim S50000x1024 (![] : Fin 0 → Fin S50000x1024.rank)
  bcast_S1024_S1x1024_1 : S1024.BroadcastsInDim S1x1024 (![1] : Fin 1 → Fin S1x1024.rank)
  bcast_S1x1024_S50000x1024_0_1 : S1x1024.BroadcastsInDim S50000x1024 (![0, 1] : Fin 2 → Fin S50000x1024.rank)
  bcast_S_S64 : S_.BroadcastsInDim S64 (![] : Fin 0 → Fin S64.rank)
  bcast_S50000_S50000x1_0 : S50000.BroadcastsInDim S50000x1 (![0] : Fin 1 → Fin S50000x1.rank)
  bcast_S_S64x1024 : S_.BroadcastsInDim S64x1024 (![] : Fin 0 → Fin S64x1024.rank)
  bcast_S64_S64x1_0 : S64.BroadcastsInDim S64x1 (![0] : Fin 1 → Fin S64x1.rank)
  bcast_S64x1_S64x1024_0_1 : S64x1.BroadcastsInDim S64x1024 (![0, 1] : Fin 2 → Fin S64x1024.rank)
  concatenates_S64x1536_S64x1024_S64x2560_d1 : Shape.Concatenates [S64x1536, S64x1024] S64x2560 1
  bcast_S1x1024_S64x1024_0_1 : S1x1024.BroadcastsInDim S64x1024 (![0, 1] : Fin 2 → Fin S64x1024.rank)
  bcast_S80_S1x80_1 : S80.BroadcastsInDim S1x80 (![1] : Fin 1 → Fin S1x80.rank)
  bcast_S1x80_S64x80_0_1 : S1x80.BroadcastsInDim S64x80 (![0, 1] : Fin 2 → Fin S64x80.rank)
  scatter_S50000_S250000x1_S250000_n_0_0_1_wf : ScatterDims.WF S50000 S250000x1 S250000 [] [0] [0] 1
  gather_S50000_S250000x1_S250000_n_0_n_n_0_1_1_wf : GatherDims.WF S50000 S250000x1 S250000 [] [0] [] [0] [] 1 ![1]
  dot_S50000x1536_S1536x1024_S50000x1024_1_0_0_1_n_n_wf : DotDims.WF S50000x1536 S1536x1024 S50000x1024 [1] [0] [0] [1] [] []
  gather_S50000x1024_S250000x1_S250000x1024_1_0_n_n_0_1_11024_wf : GatherDims.WF S50000x1024 S250000x1 S250000x1024 [1] [0] [] [0] [] 1 ![1, 1024]
  scatter_S50000x1024_S250000x1_S250000x1024_1_0_0_1_wf : ScatterDims.WF S50000x1024 S250000x1 S250000x1024 [1] [0] [0] 1
  dot_S50000x1024_S1024x1024_S50000x1024_1_0_0_1_n_n_wf : DotDims.WF S50000x1024 S1024x1024 S50000x1024 [1] [0] [0] [1] [] []
  scatter_S64_S50000x1_S50000_n_0_0_1_wf : ScatterDims.WF S64 S50000x1 S50000 [] [0] [0] 1
  scatter_S64x1024_S50000x1_S50000x1024_1_0_0_1_wf : ScatterDims.WF S64x1024 S50000x1 S50000x1024 [1] [0] [0] 1
  dot_S64x2560_S2560x1024_S64x1024_1_0_0_1_n_n_wf : DotDims.WF S64x2560 S2560x1024 S64x1024 [1] [0] [0] [1] [] []
  dot_S64x1024_S1024x80_S64x80_1_0_0_1_n_n_wf : DotDims.WF S64x1024 S1024x80 S64x80 [1] [0] [0] [1] [] []

variable [Facts₀]

def scatter_S50000_S250000x1_S250000_n_0_0_1 : ScatterDims S50000 S250000x1 S250000 where
  updateWindowDims := []
  insertedWindowDims := [0]
  scatterDimsToOperandDims := [0]
  indexVectorDim := 1
  wf := scatter_S50000_S250000x1_S250000_n_0_0_1_wf
def gather_S50000_S250000x1_S250000_n_0_n_n_0_1_1 : GatherDims S50000 S250000x1 S250000 where
  offsetDims := []
  collapsedSliceDims := [0]
  operandBatchingDims := []
  startIndicesBatchingDims := []
  startIndexMap := [0]
  indexVectorDim := 1
  sliceSizes := ![1]
  wf := gather_S50000_S250000x1_S250000_n_0_n_n_0_1_1_wf
def dot_S50000x1536_S1536x1024_S50000x1024_1_0_0_1_n_n : DotDims S50000x1536 S1536x1024 S50000x1024 where
  lhsContracting := [1]
  rhsContracting := [0]
  lhsNonContracting := [0]
  rhsNonContracting := [1]
  lhsBatch := []
  rhsBatch := []
  wf := dot_S50000x1536_S1536x1024_S50000x1024_1_0_0_1_n_n_wf
def gather_S50000x1024_S250000x1_S250000x1024_1_0_n_n_0_1_11024 : GatherDims S50000x1024 S250000x1 S250000x1024 where
  offsetDims := [1]
  collapsedSliceDims := [0]
  operandBatchingDims := []
  startIndicesBatchingDims := []
  startIndexMap := [0]
  indexVectorDim := 1
  sliceSizes := ![1, 1024]
  wf := gather_S50000x1024_S250000x1_S250000x1024_1_0_n_n_0_1_11024_wf
def scatter_S50000x1024_S250000x1_S250000x1024_1_0_0_1 : ScatterDims S50000x1024 S250000x1 S250000x1024 where
  updateWindowDims := [1]
  insertedWindowDims := [0]
  scatterDimsToOperandDims := [0]
  indexVectorDim := 1
  wf := scatter_S50000x1024_S250000x1_S250000x1024_1_0_0_1_wf
def dot_S50000x1024_S1024x1024_S50000x1024_1_0_0_1_n_n : DotDims S50000x1024 S1024x1024 S50000x1024 where
  lhsContracting := [1]
  rhsContracting := [0]
  lhsNonContracting := [0]
  rhsNonContracting := [1]
  lhsBatch := []
  rhsBatch := []
  wf := dot_S50000x1024_S1024x1024_S50000x1024_1_0_0_1_n_n_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x1024_S50000x1_S50000x1024_1_0_0_1 : ScatterDims S64x1024 S50000x1 S50000x1024 where
  updateWindowDims := [1]
  insertedWindowDims := [0]
  scatterDimsToOperandDims := [0]
  indexVectorDim := 1
  wf := scatter_S64x1024_S50000x1_S50000x1024_1_0_0_1_wf
def dot_S64x2560_S2560x1024_S64x1024_1_0_0_1_n_n : DotDims S64x2560 S2560x1024 S64x1024 where
  lhsContracting := [1]
  rhsContracting := [0]
  lhsNonContracting := [0]
  rhsNonContracting := [1]
  lhsBatch := []
  rhsBatch := []
  wf := dot_S64x2560_S2560x1024_S64x1024_1_0_0_1_n_n_wf
def dot_S64x1024_S1024x80_S64x80_1_0_0_1_n_n : DotDims S64x1024 S1024x80 S64x80 where
  lhsContracting := [1]
  rhsContracting := [0]
  lhsNonContracting := [0]
  rhsNonContracting := [1]
  lhsBatch := []
  rhsBatch := []
  wf := dot_S64x1024_S1024x80_S64x80_1_0_0_1_n_n_wf

class Facts : Prop extends Facts₀ where

variable [Facts]
-- ==== Proof.KStages.lean ====
/-
  The kernel's computation as pure functions of its argument arrays, stage by stage.

  A graph of 50000 nodes and 200000 directed edges (row 0 of the edge list holds each edge's source, row 1 its
  destination) carries a feature row per node. One graph-convolution layer sends the features h to
      relu ( dis ⊙ ( A (h·W ⊙ dis) + h·W ⊙ dis ) + b ),
  where dis_i = (1 + number of edges into i)^(-1/2), ⊙ scales row i by dis_i, and A sums over the edges into a node the
  rows of their sources. The product h·W scaled by dis is what each of the first two launches computes, a block of 1000
  rows at a time (`scaledProduct`); the rest of a layer is host arithmetic (`layer`). After two layers the rows are averaged
  per graph (`pooled`: 64 graphs, node i belongs to graph batch_i), joined to the 64 global feature rows
  (`combined`) and sent through a two-layer perceptron, the third launch (`perceptron`).

  Index arithmetic follows the host program: an index that selects a row to READ is wrapped once if negative and then
  clamped into range; an index that selects a row to ADD INTO is taken as it is, and an update whose index is out of
  range is dropped.
-/
import proofs.«104656_j19112604467789_2_alg».proof.Proof.Gen.KernelIdeal
import Idealize.ShloMosaic.PureOps.Ideal
import Idealize.ShloMosaic.Lib.ValueIdx

noncomputable section

namespace Cert.KernelIdeal.Stage

open Cert.KernelIdeal Cert.KernelIdeal.Gen Idealize.ShloMosaic Idealize.ShloMosaic.ValueIdx
open scoped BigOperators

variable {F : FTy → Type} [FloatOps F]

/-- Each edge's source node: row 0 of the edge list. -/
def src (ei : (⟨S2x200000, .i32⟩ : BufTy).Contents (Elt F)) : (⟨S200000, .i32⟩ : BufTy).Contents (Elt F) :=
  shapeCast _ (extractStridedSlice S1x200000 ![0, 0] ei slices_S2x200000_S1x200000_0_0) shapeCasts_S1x200000_S200000

/-- Each edge's destination node: row 1 of the edge list. -/
def dst (ei : (⟨S2x200000, .i32⟩ : BufTy).Contents (Elt F)) : (⟨S200000, .i32⟩ : BufTy).Contents (Elt F) :=
  shapeCast _ (extractStridedSlice S1x200000 ![1, 0] ei slices_S2x200000_S1x200000_1_0) shapeCasts_S1x200000_S200000

/-- A node's degree: one for each edge into it, plus one. -/
def deg (ei : (⟨S2x200000, .i32⟩ : BufTy).Contents (Elt F)) : (⟨S50000, .f32⟩ : BufTy).Contents (Elt F) :=
  addf (Host.scatterAdd scatter_S50000_S200000x1_S200000_n_0_0_1
      (broadcastInDim S50000 ![] bcast_S_S50000 (constant S_ .f32 0x00000000#32))
      (broadcastInDim S200000x1 ![0] bcast_S200000_S200000x1_0 (dst (F := F) ei))
      (broadcastInDim S200000 ![] bcast_S_S200000 (constant S_ .f32 0x3F800000#32)))
    (broadcastInDim S50000 ![] bcast_S_S50000 (constant S_ .f32 0x3F800000#32))

/-- The scaling dis = deg^(-1/2), as a column. -/
def disCol (ei : (⟨S2x200000, .i32⟩ : BufTy).Contents (Elt F)) : (⟨S50000x1, .f32⟩ : BufTy).Contents (Elt F) :=
  shapeCast _ (Host.rsqrt (deg (F := F) ei)) shapeCasts_S50000_S50000x1

/-- The row each edge reads: its source, wrapped once if negative (the read clamps it afterwards), as a column. -/
def srcRead (ei : (⟨S2x200000, .i32⟩ : BufTy).Contents (Elt F)) : (⟨S200000x1, .i32⟩ : BufTy).Contents (Elt F) :=
  broadcastInDim S200000x1 ![0] bcast_S200000_S200000x1_0
    (select (cmpi .slt (src (F := F) ei) (broadcastInDim S200000 ![] bcast_S_S200000 (constantI S_ 32 0#32)))
      (addi (src (F := F) ei) (broadcastInDim S200000 ![] bcast_S_S200000 (constantI S_ 32 50000#32)))
      (src (F := F) ei))

/-- The host half of a layer, from the scaled product `hp` = h·W ⊙ dis: relu (dis ⊙ (A hp + hp) + b). -/
def layer (ei : (⟨S2x200000, .i32⟩ : BufTy).Contents (Elt F)) (hp : (⟨S50000x1024, .f32⟩ : BufTy).Contents (Elt F))
    (b : (⟨S1024, .f32⟩ : BufTy).Contents (Elt F)) : (⟨S50000x1024, .f32⟩ : BufTy).Contents (Elt F) :=
  maximumf
    (addf
      (mulf (broadcastInDim S50000x1024 ![0, 1] bcast_S50000x1_S50000x1024_0_1 (disCol (F := F) ei))
        (addf
          (Host.scatterAdd scatter_S50000x1024_S200000x1_S200000x1024_1_0_0_1
            (broadcastInDim S50000x1024 ![] bcast_S_S50000x1024 (constant S_ .f32 0x00000000#32))
            (broadcastInDim S200000x1 ![0] bcast_S200000_S200000x1_0 (dst (F := F) ei))
            (Host.gather gather_S50000x1024_S200000x1_S200000x1024_1_0_n_n_0_1_11024 hp (srcRead (F := F) ei)))
          hp))
      (broadcastInDim S50000x1024 ![0, 1] bcast_S1x1024_S50000x1024_0_1 (broadcastInDim S1x1024 ![1] bcast_S1024_S1x1024_1 b)))
    (broadcastInDim S50000x1024 ![] bcast_S_S50000x1024 (constant S_ .f32 0x00000000#32))

/-- The per-graph mean of the node rows (a graph with no node divides by one). -/
def pooled (bt : (⟨S50000, .i32⟩ : BufTy).Contents (Elt F)) (h : (⟨S50000x1024, .f32⟩ : BufTy).Contents (Elt F)) :
    (⟨S64x1024, .f32⟩ : BufTy).Contents (Elt F) :=
  Host.divf
    (Host.scatterAdd scatter_S64x1024_S50000x1_S50000x1024_1_0_0_1
      (broadcastInDim S64x1024 ![] bcast_S_S64x1024 (constant S_ .f32 0x00000000#32))
      (broadcastInDim S50000x1 ![0] bcast_S50000_S50000x1_0 bt) h)
    (broadcastInDim S64x1024 ![0, 1] bcast_S64x1_S64x1024_0_1
      (broadcastInDim S64x1 ![0] bcast_S64_S64x1_0
        (maximumf
          (Host.scatterAdd scatter_S64_S50000x1_S50000_n_0_0_1
            (broadcastInDim S64 ![] bcast_S_S64 (constant S_ .f32 0x00000000#32))
            (broadcastInDim S50000x1 ![0] bcast_S50000_S50000x1_0 bt)
            (broadcastInDim S50000 ![] bcast_S_S50000 (constant S_ .f32 0x3F800000#32)))
          (broadcastInDim S64 ![] bcast_S_S64 (constant S_ .f32 0x3F800000#32)))))

/-- The global feature rows and the pooled rows side by side. -/
def combined (g : (⟨S64x1536, .f32⟩ : BufTy).Contents (Elt F)) (bt : (⟨S50000, .i32⟩ : BufTy).Contents (Elt F))
    (h : (⟨S50000x1024, .f32⟩ : BufTy).Contents (Elt F)) : (⟨S64x2560, .f32⟩ : BufTy).Contents (Elt F) :=
  concatenate S64x2560 1 [⟨S64x1536, g⟩, ⟨S64x1024, pooled (F := F) bt h⟩] concatenates_S64x1536_S64x1024_S64x2560_d1

/-! ## The three launches as whole-array functions, at the exact instance -/

/-- The first launch: entry (i, j) is (Σ_k x[i,k]·w[k,j]) · d[i]. -/
def scaledProduct0 (x : FVec Ideal S50000x1536 .f32) (w : FVec Ideal S1536x1024 .bf16) (d : FVec Ideal S50000x1 .f32) :
    FVec Ideal S50000x1024 .f32 :=
  fun j => (∑ k : Fin 1536, x (ix2 (j 0) k) * w (ix2 k (j 1))) * d (ix2 (j 0) (0 : Fin 1))

/-- The second launch: entry (i, j) is (Σ_k x[i,k]·w[k,j]) · d[i]. -/
def scaledProduct1 (x : FVec Ideal S50000x1024 .f32) (w : FVec Ideal S1024x1024 .bf16) (d : FVec Ideal S50000x1 .f32) :
    FVec Ideal S50000x1024 .f32 :=
  fun j => (∑ k : Fin 1024, x (ix2 (j 0) k) * w (ix2 k (j 1))) * d (ix2 (j 0) (0 : Fin 1))

/-- The third launch: entry (i, j) is Σ_l max (Σ_k x[i,k]·w1[k,l] + b1[l]) 0 · w2[l,j] + b2[j]. -/
def perceptron (x : FVec Ideal S64x2560 .f32) (w1 : FVec Ideal S2560x1024 .bf16) (b1 : FVec Ideal S1x1024 .f32)
    (w2 : FVec Ideal S1024x80 .bf16) (b2 : FVec Ideal S1x80 .f32) : FVec Ideal S64x80 .f32 :=
  fun j => (∑ l : Fin 1024,
      max ((∑ k : Fin 2560, x (ix2 (j 0) k) * w1 (ix2 k l)) + b1 (ix2 (0 : Fin 1) l)) (Ideal.ofBits .f32 0x00000000#32)
        * w2 (ix2 l (j 1)))
    + b2 (ix2 (0 : Fin 1) (j 1))

/-- The kernel's result as one function of its twelve argument arrays. -/
def result (g : (⟨S64x1536, .f32⟩ : BufTy).Contents (Elt Ideal)) (x : (⟨S50000x1536, .f32⟩ : BufTy).Contents (Elt Ideal))
    (ei : (⟨S2x200000, .i32⟩ : BufTy).Contents (Elt Ideal)) (bt : (⟨S50000, .i32⟩ : BufTy).Contents (Elt Ideal))
    (w1 : (⟨S1536x1024, .f32⟩ : BufTy).Contents (Elt Ideal)) (b1 : (⟨S1024, .f32⟩ : BufTy).Contents (Elt Ideal))
    (w2 : (⟨S1024x1024, .f32⟩ : BufTy).Contents (Elt Ideal)) (b2 : (⟨S1024, .f32⟩ : BufTy).Contents (Elt Ideal))
    (fw1 : (⟨S2560x1024, .f32⟩ : BufTy).Contents (Elt Ideal)) (fb1 : (⟨S1024, .f32⟩ : BufTy).Contents (Elt Ideal))
    (fw2 : (⟨S1024x80, .f32⟩ : BufTy).Contents (Elt Ideal)) (fb2 : (⟨S80, .f32⟩ : BufTy).Contents (Elt Ideal)) :
    (⟨S64x80, .f32⟩ : BufTy).Contents (Elt Ideal) :=
  perceptron
    (combined (F := Ideal) g bt
      (layer (F := Ideal) ei
        (scaledProduct1
          (layer (F := Ideal) ei (scaledProduct0 x (truncf .bf16 w1 bitsLt_bf16_f32) (disCol (F := Ideal) ei)) b1)
          (truncf .bf16 w2 bitsLt_bf16_f32) (disCol (F := Ideal) ei))
        b2))
    (truncf .bf16 fw1 bitsLt_bf16_f32) (shapeCast _ fb1 shapeCasts_S1024_S1x1024)
    (truncf .bf16 fw2 bitsLt_bf16_f32) (shapeCast _ fb2 shapeCasts_S80_S1x80)

end Cert.KernelIdeal.Stage

end
-- ==== Proof.LibMatmulBlock.lean ====
/-
  One block of a matrix product, entry by entry.

  A product of an m×k array by a k×n array, contracted over the left operand's second axis and the right operand's
  first, and accumulated into the all-zero array, has at entry (a, b) the value ∑_c A[a, c] · B[c, b] over the
  extended reals. The contraction's index set has one axis of extent k, so the sum over it is re-indexed by that
  axis's coordinate.
-/
import Idealize.ShloMosaic.PureOps.Ideal
import Idealize.ShloMosaic.PureOps.Ideal.Laws
import Idealize.ShloMosaic.Lib.ValueIdx

noncomputable section

namespace Cert.LibMatmulBlock

open Idealize.ShloMosaic Idealize.ShloMosaic.ValueIdx

/-- The product of an m×k block by a k×n block accumulated into the zero splat, read at entry (a, b), is the sum over
    the contracted coordinate c of A[a, c] · B[c, b]. At the ideal values; `w` is the dimension numbers'
    well-formedness, which a program states. -/
theorem matmul_zero_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibMatmulBlock

end
-- ==== Proof.LibBroadcastRowCol.lean ====
/-
  A column broadcast read at an index.

  An array with `a` rows and ONE column, broadcast to `a` rows and `b` columns, holds at entry (p, c) the operand's
  entry (p, 0): every column of the result is the operand's one column. This is the keepdims column form of a
  broadcast; the companion row form (one row broadcast over many, entry (p, c) is the operand's (0, c)) is the
  library's `broadcastTo_1b_ab_apply`. Both are instances of `broadcastTo_apply`: on an axis where the operand's
  extent is 1 the operand's coordinate is 0, elsewhere it is the result's coordinate.
-/
import Idealize.ShloMosaic.Lib.ValueLayout

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KRegion0.lean ====
/-
  The first launch's output array as one function of its three input arrays.

  The launch runs over 50 grid points. At point t its row windows hold rows 1000·t … 1000·t + 999 of the 50000×1536
  input, of the 50000×1 scaling column and of the 50000×1024 output, and its weight window holds the whole 1536×1024
  weight array. The body stores, over the whole output block, the product of the input block by the weights accumulated
  from zero, with row p multiplied by the p-th entry of the scaling block. Over the extended reals the changes of float
  format are the identity and a product entry is the plain sum over the contracted coordinate, so entry (p, q) of the
  block is (Σ_k x[1000·t + p, k]·w[k, q]) · d[1000·t + p]: the block is the restriction to its rows of one function of
  the whole arrays. Row r of the output is written by point r / 1000, so the 50 write-backs cover the array.
-/
import proofs.«104656_j19112604467789_2_alg».proof.Proof.Gen.KernelIdeal.Frame
import proofs.«104656_j19112604467789_2_alg».proof.Proof.KStages
import proofs.«104656_j19112604467789_2_alg».proof.Proof.LibMatmulBlock
import proofs.«104656_j19112604467789_2_alg».proof.Proof.LibBroadcastRowCol
import Idealize.ShloMosaic.Lib.Pipeline.Value
import Idealize.ShloMosaic.Lib.ValueLayout

noncomputable section

namespace Cert.KernelIdeal.Regions

open Cert.KernelIdeal Cert.KernelIdeal.Gen Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

namespace R0

/-- Offsets spelt as a literal pair of zeros are the zero function. -/
theorem hz : (![0, 0] : Fin 2 → Nat) = fun _ => 0 := funext fun a => by fin_cases a <;> rfl

/-- The body's arithmetic read at entry (p, q) of a block: the product of the 1000×1536 block by the 1536×1024 weights
    accumulated from zero, every row p scaled by the p-th entry of the 1000×1 column. Format changes are the identity on
    extended reals. -/
theorem pay_apply (x : Vec Ideal S1000x1536 .f32) (w : Vec Ideal S1536x1024 .bf16) (d : Vec Ideal S1000x1 .f32)
    (p : Fin 1000) (q : Fin 1024) :
    k0_pay1 (F := Ideal) x w d (ix2 p q) = (∑ k : Fin 1536, x (ix2 p k) * w (ix2 k q)) * d (ix2 p (0 : Fin 1)) := by
  unfold k0_pay1
  simp only [shapeCast_self]
  refine (mulf_apply (φ := .f32) _ _ _).trans ?_
  refine congrArg₂ (· * ·) ?_ (broadcastTo_a1_ab_apply d _ p q)
  exact Cert.LibMatmulBlock.matmul_zero_apply (φ₁ := .bf16) (φ₂ := .bf16) dot_S1000x1536_S1536x1024_S1000x1024_1_0_0_1_n_n_wf none _ _ p q

/-- The index maps over the 50 grid points: at point t the row windows (input rows, scaling column, output rows) are at
    block (t, 0) and the weight window is at block (0, 0). -/
theorem idx : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0) :=
  (by decide +kernel : ∀ t : Fin grid0.N, _)

/-- Row p of the input block at point t is row 1000·t + p of the input array. -/
theorem iblk_0_apply (c : Dev nD) (t : Fin cfg0.N) (p : Fin 1000) (k : Fin 1536) (i : Fin 50000)
    (hi : i.val = 1000 * t.val + p.val) :
    (iblk0 (F := Ideal) V c 0 t : Vec Ideal S1000x1536 .f32) (ix2 p k) = (V c main_arg1 : Vec Ideal S50000x1536 .f32) (ix2 i k) := by
  have e0 : win0_0.index t (0 : Fin 2) = t.val := (idx t).1.1
  have e1 : win0_0.index t (1 : Fin 2) = 0 := (idx t).1.2
  unfold iblk0
  rw [View.read_apply]
  show V c main_arg1 _ = V c main_arg1 (ix2 i k)
  refine congrArg _ (funext fun a => Fin.ext ?_)
  match a with
  | ⟨0, _⟩ => show win0_0.index t (0 : Fin 2) * 1000 + 1 * p.val = i.val; rw [e0, hi]; omega
  | ⟨1, _⟩ => show win0_0.index t (1 : Fin 2) * 1536 + 1 * k.val = k.val; rw [e1]; omega

/-- The weight block at every point is the whole weight array. -/
theorem iblk_1_apply (c : Dev nD) (t : Fin cfg0.N) (k : Fin 1536) (q : Fin 1024) :
    (iblk0 (F := Ideal) V c 1 t : Vec Ideal S1536x1024 .bf16) (ix2 k q) = (V c main_v12 : Vec Ideal S1536x1024 .bf16) (ix2 k q) := by
  have e0 : win0_1.index t (0 : Fin 2) = 0 := (idx t).2.1.1
  have e1 : win0_1.index t (1 : Fin 2) = 0 := (idx t).2.1.2
  unfold iblk0
  rw [View.read_apply]
  show V c main_v12 _ = V c main_v12 (ix2 k q)
  refine congrArg _ (funext fun a => Fin.ext ?_)
  match a with
  | ⟨0, _⟩ => show win0_1.index t (0 : Fin 2) * 1536 + 1 * k.val = k.val; rw [e0]; omega
  | ⟨1, _⟩ => show win0_1.index t (1 : Fin 2) * 1024 + 1 * q.val = q.val; rw [e1]; omega

/-- Entry p of the scaling block at point t is entry 1000·t + p of the scaling column. -/
theorem iblk_2_apply (c : Dev nD) (t : Fin cfg0.N) (p : Fin 1000) (i : Fin 50000)
    (hi : i.val = 1000 * t.val + p.val) :
    (iblk0 (F := Ideal) V c 2 t : Vec Ideal S1000x1 .f32) (ix2 p (0 : Fin 1))
      = (V c main_v11 : Vec Ideal S50000x1 .f32) (ix2 i (0 : Fin 1)) := by
  have e0 : win0_2.index t (0 : Fin 2) = t.val := (idx t).2.2.1.1
  have e1 : win0_2.index t (1 : Fin 2) = 0 := (idx t).2.2.1.2
  unfold iblk0
  rw [View.read_apply]
  show V c main_v11 _ = V c main_v11 (ix2 i (0 : Fin 1))
  refine congrArg _ (funext fun a => Fin.ext ?_)
  match a with
  | ⟨0, _⟩ => show win0_2.index t (0 : Fin 2) * 1000 + 1 * p.val = i.val; rw [e0, hi]; omega
  | ⟨1, _⟩ => show win0_2.index t (1 : Fin 2) * 1 + 1 * (0 : Fin 1).val = (0 : Fin 1).val; rw [e1]; rfl

/-- Entry (p, q) of the output block at point t sits at (1000·t + p, q) in the output array. -/
theorem emb_3 (t : Fin cfg0.N) (p : Fin 1000) (q : Fin 1024) (i : Fin 50000) (hi : i.val = 1000 * t.val + p.val) :
    ((cfg0.win 3).blk t).view.emb (ix2 p q) = (ix2 i q : S50000x1024.Idx) := by
  have e0 : win0_3.index t (0 : Fin 2) = t.val := (idx t).2.2.2.1
  have e1 : win0_3.index t (1 : Fin 2) = 0 := (idx t).2.2.2.2
  refine funext fun a => Fin.ext ?_
  match a with
  | ⟨0, _⟩ => show win0_3.index t (0 : Fin 2) * 1000 + 1 * p.val = i.val; rw [e0, hi]; omega
  | ⟨1, _⟩ => show win0_3.index t (1 : Fin 2) * 1024 + 1 * q.val = q.val; rw [e1]; omega

/-- What point t writes back is rows 1000·t … 1000·t + 999 of the scaled product of the whole arrays. -/
theorem flushed_eq (c : Dev nD) (t : Fin cfg0.N) :
    (dat0 (F := Ideal) V c).flushed 3 t = ((cfg0.win 3).blk t).view.read (Elt Ideal)
      (Stage.scaledProduct0 (V c main_arg1) (V c main_v12) (V c main_v11)) := by
  show (cfg0.win 3).cut (grid0.coords t) ((dat0 V c).after 3 t) = _
  rw [after0_3]
  unfold out0_3
  rw [View.canon_unit_zero hz]
  simp only [View.ld_unit_zero (S := S1000x1536) hz, View.ld_unit_zero (S := S1536x1024) hz, View.ld_unit_zero (S := S1000x1) hz]
  funext j
  obtain ⟨p, q, rfl⟩ : ∃ (p : Fin 1000) (q : Fin 1024), j = ix2 p q := ⟨j 0, j 1, eq_ix2 j⟩
  refine (pay_apply (iblk0 V c 0 t) (iblk0 V c 1 t) (iblk0 V c 2 t) p q).trans ?_
  have ht : t.val < 50 := lt_of_lt_of_eq t.isLt (show cfg0.N = 50 from N_0)
  obtain ⟨i, hi⟩ : ∃ i : Fin 50000, i.val = 1000 * t.val + p.val := ⟨⟨1000 * t.val + p.val, by have := p.isLt; omega⟩, rfl⟩
  rw [View.read_apply]
  show _ = Stage.scaledProduct0 (V c main_arg1) (V c main_v12) (V c main_v11) (((cfg0.win 3).blk t).view.emb (ix2 p q))
  rw [emb_3 t p q i hi]
  unfold Stage.scaledProduct0
  exact congrArg₂ (· * ·)
    (Finset.sum_congr rfl fun k _ => congrArg₂ (· * ·) (iblk_0_apply V c t p k i hi) (iblk_1_apply V c t k q))
    (iblk_2_apply V c t p i hi)

end R0

/-- The first launch: 50 blocks of 1000 rows; block t of the output is the scaled product of rows 1000t … 1000t+999. -/
theorem region0 (c : Dev nD) :
    ((dat0 (F := Ideal) V c).arrAt 3 cfg0.N : S50000x1024.Idx → EReal)
      = Stage.scaledProduct0 (V c main_arg1) (V c main_v12) (V c main_v11) :=
  (dat0 (F := Ideal) V c).arrAt_eq_of_cover 3 _ (fun t _ => R0.flushed_eq V c t) fun i => by
    have h0 : (i 0).val < 50000 := (i 0).isLt
    have h1 : (i 1).val < 1024 := (i 1).isLt
    refine ⟨⟨(i 0).val / 1000, by rw [show cfg0.N = 50 from N_0]; omega⟩, flush0_3 _, ?_⟩
    generalize ht : (⟨(i 0).val / 1000, by rw [show cfg0.N = 50 from N_0]; omega⟩ : Fin cfg0.N) = t
    have hv : t.val = (i 0).val / 1000 := by rw [← ht]
    have e0 : win0_3.index t (0 : Fin 2) = t.val := (R0.idx t).2.2.2.1
    have e1 : win0_3.index t (1 : Fin 2) = 0 := (R0.idx t).2.2.2.2
    show i ∈ ((View.whole main_v16).slice (win0_3.rect t)).set
    rw [View.set_slice_whole, Rect.mem_set_unit]
    intro a
    match a with
    | ⟨0, _⟩ => show win0_3.index t (0 : Fin 2) * 1000 ≤ (i 0).val ∧ (i 0).val < win0_3.index t (0 : Fin 2) * 1000 + 1000; rw [e0, hv]; omega
    | ⟨1, _⟩ => show win0_3.index t (1 : Fin 2) * 1024 ≤ (i 1).val ∧ (i 1).val < win0_3.index t (1 : Fin 2) * 1024 + 1024; rw [e1]; omega

end Cert.KernelIdeal.Regions

end
-- ==== Proof.KRegion1.lean ====
/-
  The second launch's output array as one function of its three input arrays.

  The launch runs over 50 grid points. At point t its row windows hold rows 1000·t … 1000·t + 999 of the 50000×1024
  input, of the 50000×1 scaling column and of the 50000×1024 output, and its weight window holds the whole 1024×1024
  weight array. The body stores, over the whole output block, the product of the input block by the weights accumulated
  from zero, with row p multiplied by the p-th entry of the scaling block. Over the extended reals the changes of float
  format are the identity and a product entry is the plain sum over the contracted coordinate, so entry (p, q) of the
  block is (Σ_k x[1000·t + p, k]·w[k, q]) · d[1000·t + p]: the block is the restriction to its rows of one function of
  the whole arrays. Row r of the output is written by point r / 1000, so the 50 write-backs cover the array.
-/
import proofs.«104656_j19112604467789_2_alg».proof.Proof.Gen.KernelIdeal.Frame
import proofs.«104656_j19112604467789_2_alg».proof.Proof.KStages
import proofs.«104656_j19112604467789_2_alg».proof.Proof.LibMatmulBlock
import proofs.«104656_j19112604467789_2_alg».proof.Proof.LibBroadcastRowCol
import Idealize.ShloMosaic.Lib.Pipeline.Value
import Idealize.ShloMosaic.Lib.ValueLayout

noncomputable section

namespace Cert.KernelIdeal.Regions

open Cert.KernelIdeal Cert.KernelIdeal.Gen Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

namespace R1

/-- Offsets spelt as a literal pair of zeros are the zero function. -/
theorem hz : (![0, 0] : Fin 2 → Nat) = fun _ => 0 := funext fun a => by fin_cases a <;> rfl

/-- The body's arithmetic read at entry (p, q) of a block: the product of the 1000×1024 block by the 1024×1024 weights
    accumulated from zero, every row p scaled by the p-th entry of the 1000×1 column. Format changes are the identity on
    extended reals. -/
theorem pay_apply (x : Vec Ideal S1000x1024 .f32) (w : Vec Ideal S1024x1024 .bf16) (d : Vec Ideal S1000x1 .f32)
    (p : Fin 1000) (q : Fin 1024) :
    k1_pay1 (F := Ideal) x w d (ix2 p q) = (∑ k : Fin 1024, x (ix2 p k) * w (ix2 k q)) * d (ix2 p (0 : Fin 1)) := by
  unfold k1_pay1
  simp only [shapeCast_self]
  refine (mulf_apply (φ := .f32) _ _ _).trans ?_
  refine congrArg₂ (· * ·) ?_ (broadcastTo_a1_ab_apply d _ p q)
  exact Cert.LibMatmulBlock.matmul_zero_apply (φ₁ := .bf16) (φ₂ := .bf16) dot_S1000x1024_S1024x1024_S1000x1024_1_0_0_1_n_n_wf none _ _ p q

/-- The index maps over the 50 grid points: at point t the row windows (input rows, scaling column, output rows) are at
    block (t, 0) and the weight window is at block (0, 0). -/
theorem idx : ∀ t : Fin cfg1.N, (win1_0.index t (0 : Fin 2) = t.val ∧ win1_0.index t (1 : Fin 2) = 0)
    ∧ (win1_1.index t (0 : Fin 2) = 0 ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0) :=
  (by decide +kernel : ∀ t : Fin grid1.N, _)

/-- Row p of the input block at point t is row 1000·t + p of the input array. -/
theorem iblk_0_apply (c : Dev nD) (t : Fin cfg1.N) (p : Fin 1000) (k : Fin 1024) (i : Fin 50000)
    (hi : i.val = 1000 * t.val + p.val) :
    (iblk1 (F := Ideal) V c 0 t : Vec Ideal S1000x1024 .f32) (ix2 p k) = (V c main_v33 : Vec Ideal S50000x1024 .f32) (ix2 i k) := by
  have e0 : win1_0.index t (0 : Fin 2) = t.val := (idx t).1.1
  have e1 : win1_0.index t (1 : Fin 2) = 0 := (idx t).1.2
  unfold iblk1
  rw [View.read_apply]
  show V c main_v33 _ = V c main_v33 (ix2 i k)
  refine congrArg _ (funext fun a => Fin.ext ?_)
  match a with
  | ⟨0, _⟩ => show win1_0.index t (0 : Fin 2) * 1000 + 1 * p.val = i.val; rw [e0, hi]; omega
  | ⟨1, _⟩ => show win1_0.index t (1 : Fin 2) * 1024 + 1 * k.val = k.val; rw [e1]; omega

/-- The weight block at every point is the whole weight array. -/
theorem iblk_1_apply (c : Dev nD) (t : Fin cfg1.N) (k : Fin 1024) (q : Fin 1024) :
    (iblk1 (F := Ideal) V c 1 t : Vec Ideal S1024x1024 .bf16) (ix2 k q) = (V c main_v13 : Vec Ideal S1024x1024 .bf16) (ix2 k q) := by
  have e0 : win1_1.index t (0 : Fin 2) = 0 := (idx t).2.1.1
  have e1 : win1_1.index t (1 : Fin 2) = 0 := (idx t).2.1.2
  unfold iblk1
  rw [View.read_apply]
  show V c main_v13 _ = V c main_v13 (ix2 k q)
  refine congrArg _ (funext fun a => Fin.ext ?_)
  match a with
  | ⟨0, _⟩ => show win1_1.index t (0 : Fin 2) * 1024 + 1 * k.val = k.val; rw [e0]; omega
  | ⟨1, _⟩ => show win1_1.index t (1 : Fin 2) * 1024 + 1 * q.val = q.val; rw [e1]; omega

/-- Entry p of the scaling block at point t is entry 1000·t + p of the scaling column. -/
theorem iblk_2_apply (c : Dev nD) (t : Fin cfg1.N) (p : Fin 1000) (i : Fin 50000)
    (hi : i.val = 1000 * t.val + p.val) :
    (iblk1 (F := Ideal) V c 2 t : Vec Ideal S1000x1 .f32) (ix2 p (0 : Fin 1))
      = (V c main_v11 : Vec Ideal S50000x1 .f32) (ix2 i (0 : Fin 1)) := by
  have e0 : win1_2.index t (0 : Fin 2) = t.val := (idx t).2.2.1.1
  have e1 : win1_2.index t (1 : Fin 2) = 0 := (idx t).2.2.1.2
  unfold iblk1
  rw [View.read_apply]
  show V c main_v11 _ = V c main_v11 (ix2 i (0 : Fin 1))
  refine congrArg _ (funext fun a => Fin.ext ?_)
  match a with
  | ⟨0, _⟩ => show win1_2.index t (0 : Fin 2) * 1000 + 1 * p.val = i.val; rw [e0, hi]; omega
  | ⟨1, _⟩ => show win1_2.index t (1 : Fin 2) * 1 + 1 * (0 : Fin 1).val = (0 : Fin 1).val; rw [e1]; rfl

/-- Entry (p, q) of the output block at point t sits at (1000·t + p, q) in the output array. -/
theorem emb_3 (t : Fin cfg1.N) (p : Fin 1000) (q : Fin 1024) (i : Fin 50000) (hi : i.val = 1000 * t.val + p.val) :
    ((cfg1.win 3).blk t).view.emb (ix2 p q) = (ix2 i q : S50000x1024.Idx) := by
  have e0 : win1_3.index t (0 : Fin 2) = t.val := (idx t).2.2.2.1
  have e1 : win1_3.index t (1 : Fin 2) = 0 := (idx t).2.2.2.2
  refine funext fun a => Fin.ext ?_
  match a with
  | ⟨0, _⟩ => show win1_3.index t (0 : Fin 2) * 1000 + 1 * p.val = i.val; rw [e0, hi]; omega
  | ⟨1, _⟩ => show win1_3.index t (1 : Fin 2) * 1024 + 1 * q.val = q.val; rw [e1]; omega

/-- What point t writes back is rows 1000·t … 1000·t + 999 of the scaled product of the whole arrays. -/
theorem flushed_eq (c : Dev nD) (t : Fin cfg1.N) :
    (dat1 (F := Ideal) V c).flushed 3 t = ((cfg1.win 3).blk t).view.read (Elt Ideal)
      (Stage.scaledProduct1 (V c main_v33) (V c main_v13) (V c main_v11)) := by
  show (cfg1.win 3).cut (grid1.coords t) ((dat1 V c).after 3 t) = _
  rw [after1_3]
  unfold out1_3
  rw [View.canon_unit_zero hz]
  simp only [View.ld_unit_zero (S := S1000x1024) hz, View.ld_unit_zero (S := S1024x1024) hz, View.ld_unit_zero (S := S1000x1) hz]
  funext j
  obtain ⟨p, q, rfl⟩ : ∃ (p : Fin 1000) (q : Fin 1024), j = ix2 p q := ⟨j 0, j 1, eq_ix2 j⟩
  refine (pay_apply (iblk1 V c 0 t) (iblk1 V c 1 t) (iblk1 V c 2 t) p q).trans ?_
  have ht : t.val < 50 := lt_of_lt_of_eq t.isLt (show cfg1.N = 50 from N_1)
  obtain ⟨i, hi⟩ : ∃ i : Fin 50000, i.val = 1000 * t.val + p.val := ⟨⟨1000 * t.val + p.val, by have := p.isLt; omega⟩, rfl⟩
  rw [View.read_apply]
  show _ = Stage.scaledProduct1 (V c main_v33) (V c main_v13) (V c main_v11) (((cfg1.win 3).blk t).view.emb (ix2 p q))
  rw [emb_3 t p q i hi]
  unfold Stage.scaledProduct1
  exact congrArg₂ (· * ·)
    (Finset.sum_congr rfl fun k _ => congrArg₂ (· * ·) (iblk_0_apply V c t p k i hi) (iblk_1_apply V c t k q))
    (iblk_2_apply V c t p i hi)

end R1

/-- The second launch, the same on the first layer's output. -/
theorem region1 (c : Dev nD) :
    ((dat1 (F := Ideal) V c).arrAt 3 cfg1.N : S50000x1024.Idx → EReal)
      = Stage.scaledProduct1 (V c main_v33) (V c main_v13) (V c main_v11) :=
  (dat1 (F := Ideal) V c).arrAt_eq_of_cover 3 _ (fun t _ => R1.flushed_eq V c t) fun i => by
    have h0 : (i 0).val < 50000 := (i 0).isLt
    have h1 : (i 1).val < 1024 := (i 1).isLt
    refine ⟨⟨(i 0).val / 1000, by rw [show cfg1.N = 50 from N_1]; omega⟩, flush1_3 _, ?_⟩
    generalize ht : (⟨(i 0).val / 1000, by rw [show cfg1.N = 50 from N_1]; omega⟩ : Fin cfg1.N) = t
    have hv : t.val = (i 0).val / 1000 := by rw [← ht]
    have e0 : win1_3.index t (0 : Fin 2) = t.val := (R1.idx t).2.2.2.1
    have e1 : win1_3.index t (1 : Fin 2) = 0 := (R1.idx t).2.2.2.2
    show i ∈ ((View.whole main_v34).slice (win1_3.rect t)).set
    rw [View.set_slice_whole, Rect.mem_set_unit]
    intro a
    match a with
    | ⟨0, _⟩ => show win1_3.index t (0 : Fin 2) * 1000 ≤ (i 0).val ∧ (i 0).val < win1_3.index t (0 : Fin 2) * 1000 + 1000; rw [e0, hv]; omega
    | ⟨1, _⟩ => show win1_3.index t (1 : Fin 2) * 1024 ≤ (i 1).val ∧ (i 1).val < win1_3.index t (1 : Fin 2) * 1024 + 1024; rw [e1]; omega

end Cert.KernelIdeal.Regions

end
-- ==== Proof.KRegion2.lean ====
/-
  The third launch's output array as one function of its five input arrays.

  The launch has a single grid point at which every window's block is its whole array. Its body stores, over the
  whole 64×80 output block, the value  relu (x·w1 + b1)·w2 + b2 : the product of the 64×2560 input by the 2560×1024
  weights accumulated from zero, the 1×1024 bias row added to every row, the maximum with zero, the product by the
  1024×80 weights accumulated from zero, and the 1×80 bias row added to every row. Over the extended reals the
  changes of float format are the identity and each product entry is the plain sum over the contracted coordinate, so
  entry (p, q) is  Σ_l max (Σ_k x[p,k]·w1[k,l] + b1[0,l]) 0 · w2[l,q] + b2[0,q].  The one write-back covers the array.
-/
import proofs.«104656_j19112604467789_2_alg».proof.Proof.Gen.KernelIdeal.Frame
import proofs.«104656_j19112604467789_2_alg».proof.Proof.KStages
import proofs.«104656_j19112604467789_2_alg».proof.Proof.LibMatmulBlock
import proofs.«104656_j19112604467789_2_alg».proof.Proof.LibBroadcastRowCol
import Idealize.ShloMosaic.Lib.Pipeline.Value
import Idealize.ShloMosaic.Lib.ValueLayout

noncomputable section

namespace Cert.KernelIdeal.Regions

open Cert.KernelIdeal Cert.KernelIdeal.Gen Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

namespace R2

/-- Offsets spelt as a literal pair of zeros are the zero function. -/
theorem hz : (![0, 0] : Fin 2 → Nat) = fun _ => 0 := funext fun a => by fin_cases a <;> rfl

/-- The third launch's arithmetic read at entry (p, q): two matrix products, each into a zero accumulator, the first
    followed by adding a row and taking the maximum with zero, the second by adding a row. Format changes are the
    identity on extended reals. -/
theorem pay2_apply (x : Vec Ideal S64x2560 .f32) (w1 : Vec Ideal S2560x1024 .bf16) (b1 : Vec Ideal S1x1024 .f32)
    (w2 : Vec Ideal S1024x80 .bf16) (b2 : Vec Ideal S1x80 .f32) (p : Fin 64) (q : Fin 80) :
    k2_pay1 (F := Ideal) x w1 b1 w2 b2 (ix2 p q)
      = (∑ l : Fin 1024, max ((∑ k : Fin 2560, x (ix2 p k) * w1 (ix2 k l)) + b1 (ix2 (0 : Fin 1) l))
            (Ideal.ofBits .f32 0x00000000#32) * w2 (ix2 l q)) + b2 (ix2 (0 : Fin 1) q) := by
  unfold k2_pay1
  simp only [shapeCast_self]
  refine (addf_apply _ _ _).trans ?_
  refine congrArg₂ (· + ·) ?_ (broadcastTo_1b_ab_apply b2 _ p q)
  refine (Cert.LibMatmulBlock.matmul_zero_apply (φ₁ := .bf16) (φ₂ := .bf16) dot_S64x1024_S1024x80_S64x80_1_0_0_1_n_n_wf none _ _ p q).trans ?_
  refine Finset.sum_congr rfl fun l _ => ?_
  refine congrArg (· * w2 (ix2 l q)) ?_
  refine (maximumf_apply (φ := .f32) _ _ _).trans ?_
  refine congrArg₂ max ?_ rfl
  refine (addf_apply (φ := .f32) _ _ _).trans ?_
  refine congrArg₂ (· + ·) ?_ (broadcastTo_1b_ab_apply b1 _ p l)
  exact Cert.LibMatmulBlock.matmul_zero_apply (φ₁ := .bf16) (φ₂ := .bf16) dot_S64x2560_S2560x1024_S64x1024_1_0_0_1_n_n_wf none _ _ p l

/-- The third launch has one grid point, and there every window's block index is (0, 0): each block is its whole array. -/
theorem idx2 : ∀ t : Fin cfg2.N, (win2_0.index t (0 : Fin 2) = 0 ∧ win2_0.index t (1 : Fin 2) = 0)
    ∧ (win2_1.index t (0 : Fin 2) = 0 ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0) :=
  (by decide +kernel : ∀ t : Fin grid2.N, _)

theorem iblk2_0_eq (c : Dev nD) (t : Fin cfg2.N) :
    (iblk2 (F := Ideal) V c 0 t : Vec Ideal S64x2560 .f32) = V c main_v64 := by
  have e0 : win2_0.index t (0 : Fin 2) = 0 := (idx2 t).1.1
  have e1 : win2_0.index t (1 : Fin 2) = 0 := (idx2 t).1.2
  funext j
  unfold iblk2
  rw [View.read_apply]
  show V c main_v64 _ = V c main_v64 j
  refine congrArg _ (funext fun a => Fin.ext ?_)
  match a with
  | ⟨0, _⟩ => show win2_0.index t (0 : Fin 2) * 64 + 1 * (j 0).val = (j 0).val; rw [e0]; omega
  | ⟨1, _⟩ => show win2_0.index t (1 : Fin 2) * 2560 + 1 * (j 1).val = (j 1).val; rw [e1]; omega

theorem iblk2_1_eq (c : Dev nD) (t : Fin cfg2.N) :
    (iblk2 (F := Ideal) V c 1 t : Vec Ideal S2560x1024 .bf16) = V c main_v14 := by
  have e0 : win2_1.index t (0 : Fin 2) = 0 := (idx2 t).2.1.1
  have e1 : win2_1.index t (1 : Fin 2) = 0 := (idx2 t).2.1.2
  funext j
  unfold iblk2
  rw [View.read_apply]
  show V c main_v14 _ = V c main_v14 j
  refine congrArg _ (funext fun a => Fin.ext ?_)
  match a with
  | ⟨0, _⟩ => show win2_1.index t (0 : Fin 2) * 2560 + 1 * (j 0).val = (j 0).val; rw [e0]; omega
  | ⟨1, _⟩ => show win2_1.index t (1 : Fin 2) * 1024 + 1 * (j 1).val = (j 1).val; rw [e1]; omega

theorem iblk2_2_eq (c : Dev nD) (t : Fin cfg2.N) :
    (iblk2 (F := Ideal) V c 2 t : Vec Ideal S1x1024 .f32) = V c main_v65 := by
  have e0 : win2_2.index t (0 : Fin 2) = 0 := (idx2 t).2.2.1.1
  have e1 : win2_2.index t (1 : Fin 2) = 0 := (idx2 t).2.2.1.2
  funext j
  unfold iblk2
  rw [View.read_apply]
  show V c main_v65 _ = V c main_v65 j
  refine congrArg _ (funext fun a => Fin.ext ?_)
  match a with
  | ⟨0, _⟩ => show win2_2.index t (0 : Fin 2) * 1 + 1 * (j 0).val = (j 0).val; rw [e0]; omega
  | ⟨1, _⟩ => show win2_2.index t (1 : Fin 2) * 1024 + 1 * (j 1).val = (j 1).val; rw [e1]; omega

theorem iblk2_3_eq (c : Dev nD) (t : Fin cfg2.N) :
    (iblk2 (F := Ideal) V c 3 t : Vec Ideal S1024x80 .bf16) = V c main_v15 := by
  have e0 : win2_3.index t (0 : Fin 2) = 0 := (idx2 t).2.2.2.1.1
  have e1 : win2_3.index t (1 : Fin 2) = 0 := (idx2 t).2.2.2.1.2
  funext j
  unfold iblk2
  rw [View.read_apply]
  show V c main_v15 _ = V c main_v15 j
  refine congrArg _ (funext fun a => Fin.ext ?_)
  match a with
  | ⟨0, _⟩ => show win2_3.index t (0 : Fin 2) * 1024 + 1 * (j 0).val = (j 0).val; rw [e0]; omega
  | ⟨1, _⟩ => show win2_3.index t (1 : Fin 2) * 80 + 1 * (j 1).val = (j 1).val; rw [e1]; omega

theorem iblk2_4_eq (c : Dev nD) (t : Fin cfg2.N) :
    (iblk2 (F := Ideal) V c 4 t : Vec Ideal S1x80 .f32) = V c main_v66 := by
  have e0 : win2_4.index t (0 : Fin 2) = 0 := (idx2 t).2.2.2.2.1.1
  have e1 : win2_4.index t (1 : Fin 2) = 0 := (idx2 t).2.2.2.2.1.2
  funext j
  unfold iblk2
  rw [View.read_apply]
  show V c main_v66 _ = V c main_v66 j
  refine congrArg _ (funext fun a => Fin.ext ?_)
  match a with
  | ⟨0, _⟩ => show win2_4.index t (0 : Fin 2) * 1 + 1 * (j 0).val = (j 0).val; rw [e0]; omega
  | ⟨1, _⟩ => show win2_4.index t (1 : Fin 2) * 80 + 1 * (j 1).val = (j 1).val; rw [e1]; omega

/-- The output window's block at the one point is the whole result array: a block coordinate is its own array coordinate. -/
theorem emb2_5 (t : Fin cfg2.N) (j : S64x80.Idx) : ((cfg2.win 5).blk t).view.emb j = j := by
  have e0 : win2_5.index t (0 : Fin 2) = 0 := (idx2 t).2.2.2.2.2.1
  have e1 : win2_5.index t (1 : Fin 2) = 0 := (idx2 t).2.2.2.2.2.2
  refine funext fun a => Fin.ext ?_
  match a with
  | ⟨0, _⟩ => show win2_5.index t (0 : Fin 2) * 64 + 1 * (j 0).val = (j 0).val; rw [e0]; omega
  | ⟨1, _⟩ => show win2_5.index t (1 : Fin 2) * 80 + 1 * (j 1).val = (j 1).val; rw [e1]; omega

/-- What the one point writes back is the perceptron of the five input arrays, read through the output block. -/
theorem flushed2_eq (c : Dev nD) (t : Fin cfg2.N) :
    (dat2 (F := Ideal) V c).flushed 5 t = ((cfg2.win 5).blk t).view.read (Elt Ideal)
      (Stage.perceptron (V c main_v64) (V c main_v14) (V c main_v65) (V c main_v15) (V c main_v66)) := by
  show (cfg2.win 5).cut (grid2.coords t) ((dat2 V c).after 5 t) = _
  rw [after2_5]
  unfold out2_5
  rw [View.canon_unit_zero hz]
  simp only [View.ld_unit_zero (S := S64x2560) hz, View.ld_unit_zero (S := S2560x1024) hz, View.ld_unit_zero (S := S1x1024) hz,
    View.ld_unit_zero (S := S1024x80) hz, View.ld_unit_zero (S := S1x80) hz]
  rw [iblk2_0_eq V c t, iblk2_1_eq V c t, iblk2_2_eq V c t, iblk2_3_eq V c t, iblk2_4_eq V c t]
  funext j
  obtain ⟨p, q, rfl⟩ : ∃ (p : Fin 64) (q : Fin 80), j = ix2 p q := ⟨j 0, j 1, eq_ix2 j⟩
  refine (pay2_apply (V c main_v64) (V c main_v14) (V c main_v65) (V c main_v15) (V c main_v66) p q).trans ?_
  rw [View.read_apply]
  show _ = Stage.perceptron (V c main_v64) (V c main_v14) (V c main_v65) (V c main_v15) (V c main_v66)
    (((cfg2.win 5).blk t).view.emb (ix2 p q))
  rw [emb2_5 t (ix2 p q)]
  rfl

end R2

/-- The third launch: one grid point, every window the whole array. -/
theorem region2 (c : Dev nD) :
    ((dat2 (F := Ideal) V c).arrAt 5 cfg2.N : S64x80.Idx → EReal)
      = Stage.perceptron (V c main_v64) (V c main_v14) (V c main_v65) (V c main_v15) (V c main_v66) :=
  (dat2 (F := Ideal) V c).arrAt_eq_of_cover 5 _ (fun t _ => R2.flushed2_eq V c t) fun i =>
    ⟨t2_0, flush2_5 t2_0, by
      have e0 : win2_5.index t2_0 (0 : Fin 2) = 0 := (R2.idx2 t2_0).2.2.2.2.2.1
      have e1 : win2_5.index t2_0 (1 : Fin 2) = 0 := (R2.idx2 t2_0).2.2.2.2.2.2
      show i ∈ ((View.whole main_v67).slice (win2_5.rect t2_0)).set
      rw [View.set_slice_whole, Rect.mem_set_unit]
      intro a
      have h0 : (i 0).val < 64 := (i 0).isLt
      have h1 : (i 1).val < 80 := (i 1).isLt
      match a with
      | ⟨0, _⟩ => show win2_5.index t2_0 (0 : Fin 2) * 64 ≤ (i 0).val ∧ (i 0).val < win2_5.index t2_0 (0 : Fin 2) * 64 + 64; rw [e0]; omega
      | ⟨1, _⟩ => show win2_5.index t2_0 (1 : Fin 2) * 80 ≤ (i 1).val ∧ (i 1).val < win2_5.index t2_0 (1 : Fin 2) * 80 + 80; rw [e1]; omega⟩

end Cert.KernelIdeal.Regions

end
-- ==== Proof.KRegions.lean ====
/-
  What each launch leaves in its output array, as ONE function of the arrays it finds in its input windows.

  One module per launch: the first and second launches' outputs are the row-scaled matrix products
  (`Cert.KernelIdeal.Regions.region0`, `region1`), the third launch's output is the two-layer perceptron
  (`region2`). Each is read off the launch's proof data: the body's one store at an entry, each window's block as
  the rows of its array that the point's index map selects, and the write-backs covering the output array.
-/
import proofs.«104656_j19112604467789_2_alg».proof.Proof.KRegion0
import proofs.«104656_j19112604467789_2_alg».proof.Proof.KRegion1
import proofs.«104656_j19112604467789_2_alg».proof.Proof.KRegion2
-- ==== Proof.KValue.lean ====
/-
  The kernel's result as a function of its argument arrays.

  The run of the program passes ten boundaries: the start, the end of each of the six stretches of host operations and
  the exit of each of the three launches. The contents of every buffer at every boundary are a fold from the start
  memory (the generated frame module's `W0 … W9`). This module reads the fold at the result's buffer, boundary by
  boundary from the last to the first:
    * at a launch's exit its output array holds the launch's whole-array function of the arrays it read at entry;
    * at the end of a stretch a buffer holds its operation's value of the operand buffers at the stretch's start,
      and a buffer the stretch does not write holds what it held;
    * a launch changes no array but its output.
  Composed, the result array holds `Stage.result` of the twelve argument arrays. The program's run, read at the result's
  buffer and at the arguments' buffers, then gives the statement `run` at the end of this module.
-/
import proofs.«104656_j19112604467789_2_alg».proof.Proof.KRegions
import proofs.«104656_j19112604467789_2_alg».proof.Proof.KStages

set_option maxRecDepth 16384

noncomputable section

namespace Cert.KernelIdeal.KValue

open Cert.KernelIdeal Cert.KernelIdeal.Gen Idealize.ShloMosaic Idealize.ShloMosaic.TcCoe Idealize.SL.Sem

/-! ## The run ends at the fold's last boundary

  The run of the nine segments (six stretches of host operations, three launches) ends with every unscoped buffer at
  the last boundary's contents `W9`. Read at the result's buffer this names the result; read at an argument's buffer,
  which no segment writes, it walks back to the start memory. -/

section RawRun
open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)
variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the whole program ends with the result array at the last boundary's contents and the arguments as
    launched. -/
theorem rawRun : θ_run defs (onTc (τ := τ) (main (F := F))) ⟨m, fun _ => 0, ρ⟩ (fun r => ∀ c : Dev nD,
      r.2.mem ((c.tc : Thread nD τ).loc main_v67) = W9 m ρ c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v67 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c)⟩)

end RawRun

/-! ## The stretches of host operations, from any contents `X` -/

section Stretches

variable {F : FTy → Type} [FloatOps F]

/-- The buffers the first stretch writes. -/
abbrev wr0 : List (Ref sig .tc) :=
  [main_v0, main_v1, main_v2, main_v3, main_cst, main_v4, main_cst_0, main_v5, main_v6, main_v7, main_cst_1, main_v8,
   main_v9, main_v10, main_v11, main_v12, main_v13, main_v14, main_v15]
/-- The buffers the host half of the first layer writes, before its relu … -/
abbrev wr1 : List (Ref sig .tc) :=
  [main_c, main_v17, main_v18, main_c_2, main_v19, main_v20, main_v21, main_v22, main_v23, main_cst_3, main_v24, main_v25,
   main_v26, main_v27, main_v28, main_v29, main_v30, main_v31, main_v32]
/-- … and its relu. -/
abbrev wr1r : List (Ref sig .tc) := [main_call0_cst, main_call0_v0, main_v33]
/-- The buffers the host half of the second layer writes, before its relu … -/
abbrev wr2 : List (Ref sig .tc) :=
  [main_c_4, main_v35, main_v36, main_c_5, main_v37, main_v38, main_v39, main_v40, main_v41, main_cst_6, main_v42, main_v43,
   main_v44, main_v45, main_v46, main_v47, main_v48, main_v49, main_v50]
/-- … and its relu. -/
abbrev wr2r : List (Ref sig .tc) := [main_call1_cst, main_call1_v0, main_v51]
/-- The buffers the pooling stretch writes. -/
abbrev wr3 : List (Ref sig .tc) :=
  [main_cst_7, main_v52, main_cst_8, main_v53, main_v54, main_v55, main_cst_9, main_v56, main_v57, main_v58, main_cst_10,
   main_v59, main_v60, main_v61, main_v62, main_v63, main_v64, main_v65, main_v66]

/-- Every operation of a stretch writes one of the listed buffers. -/
theorem writes0 : (hostOps0 : List (HloOp τ sig (Elt F))).Forall fun op => op.writes ⊆ (wr0.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)
theorem writes1 : (hostOps1 : List (HloOp τ sig (Elt F))).Forall fun op => op.writes ⊆ (wr1.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)
theorem writes1r : (hostOps1_1 : List (HloOp τ sig (Elt F))).Forall fun op => op.writes ⊆ (wr1r.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)
theorem writes2 : (hostOps2 : List (HloOp τ sig (Elt F))).Forall fun op => op.writes ⊆ (wr2.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)
theorem writes2r : (hostOps2_1 : List (HloOp τ sig (Elt F))).Forall fun op => op.writes ⊆ (wr2r.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)
theorem writes3 : (hostOps2_2 : List (HloOp τ sig (Elt F))).Forall fun op => op.writes ⊆ (wr3.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)

/-- A stretch leaves a buffer it does not write as it was. -/
theorem keep0 (X : Valuation τ sig (Elt F)) {r : Ref sig .tc} (h : r ∉ wr0) :
    StableHlo.after hostOps0 X (Proc.devRef .tc r) = X (Proc.devRef .tc r) :=
  StableHlo.after_of_writes_sub hostOps0 X writes0 h
theorem keep1 (X : Valuation τ sig (Elt F)) {r : Ref sig .tc} (h : r ∉ wr1) :
    StableHlo.after hostOps1 X (Proc.devRef .tc r) = X (Proc.devRef .tc r) :=
  StableHlo.after_of_writes_sub hostOps1 X writes1 h
theorem keep1r (X : Valuation τ sig (Elt F)) {r : Ref sig .tc} (h : r ∉ wr1r) :
    StableHlo.after hostOps1_1 X (Proc.devRef .tc r) = X (Proc.devRef .tc r) :=
  StableHlo.after_of_writes_sub hostOps1_1 X writes1r h
theorem keep2 (X : Valuation τ sig (Elt F)) {r : Ref sig .tc} (h : r ∉ wr2) :
    StableHlo.after hostOps2 X (Proc.devRef .tc r) = X (Proc.devRef .tc r) :=
  StableHlo.after_of_writes_sub hostOps2 X writes2 h
theorem keep2r (X : Valuation τ sig (Elt F)) {r : Ref sig .tc} (h : r ∉ wr2r) :
    StableHlo.after hostOps2_1 X (Proc.devRef .tc r) = X (Proc.devRef .tc r) :=
  StableHlo.after_of_writes_sub hostOps2_1 X writes2r h
theorem keep3 (X : Valuation τ sig (Elt F)) {r : Ref sig .tc} (h : r ∉ wr3) :
    StableHlo.after hostOps2_2 X (Proc.devRef .tc r) = X (Proc.devRef .tc r) :=
  StableHlo.after_of_writes_sub hostOps2_2 X writes3 h

/-! ### What each stretch computes -/

/-- A layer's host half before its relu, from the edge sources `s`, the edge destinations `d`, the scaling column
    `dis`, the scaled product `hp` and the bias `b`: dis ⊙ (A hp + hp) + b. -/
def layerPre (s d : (⟨S200000, .i32⟩ : BufTy).Contents (Elt F)) (dis : (⟨S50000x1, .f32⟩ : BufTy).Contents (Elt F))
    (hp : (⟨S50000x1024, .f32⟩ : BufTy).Contents (Elt F)) (b : (⟨S1024, .f32⟩ : BufTy).Contents (Elt F)) :
    (⟨S50000x1024, .f32⟩ : BufTy).Contents (Elt F) :=
  addf
    (mulf (broadcastInDim S50000x1024 ![0, 1] bcast_S50000x1_S50000x1024_0_1 dis)
      (addf
        (Host.scatterAdd scatter_S50000x1024_S200000x1_S200000x1024_1_0_0_1
          (broadcastInDim S50000x1024 ![] bcast_S_S50000x1024 (constant S_ .f32 0x00000000#32))
          (broadcastInDim S200000x1 ![0] bcast_S200000_S200000x1_0 d)
          (Host.gather gather_S50000x1024_S200000x1_S200000x1024_1_0_n_n_0_1_11024 hp
            (broadcastInDim S200000x1 ![0] bcast_S200000_S200000x1_0
              (select (cmpi .slt s (broadcastInDim S200000 ![] bcast_S_S200000 (constantI S_ 32 0#32)))
                (addi s (broadcastInDim S200000 ![] bcast_S_S200000 (constantI S_ 32 50000#32)))
                s))))
        hp))
    (broadcastInDim S50000x1024 ![0, 1] bcast_S1x1024_S50000x1024_0_1 (broadcastInDim S1x1024 ![1] bcast_S1024_S1x1024_1 b))

/-- A layer is the relu of its host half at the graph's sources, destinations and scaling. -/
theorem layer_eq (ei : (⟨S2x200000, .i32⟩ : BufTy).Contents (Elt F)) (hp : (⟨S50000x1024, .f32⟩ : BufTy).Contents (Elt F))
    (b : (⟨S1024, .f32⟩ : BufTy).Contents (Elt F)) :
    Stage.layer (F := F) ei hp b
      = maximumf (layerPre (Stage.src (F := F) ei) (Stage.dst (F := F) ei) (Stage.disCol (F := F) ei) hp b)
          (broadcastInDim S50000x1024 ![] bcast_S_S50000x1024 (constant S_ .f32 0x00000000#32)) := rfl

/-- The first stretch: the edge sources, … -/
theorem src0 (X : Valuation τ sig (Elt F)) :
    StableHlo.after hostOps0 X (Proc.devRef .tc main_v1) = Stage.src (F := F) (X (Proc.devRef .tc main_arg2)) := by
  after_results; rfl
/-- … the edge destinations, … -/
theorem dst0 (X : Valuation τ sig (Elt F)) :
    StableHlo.after hostOps0 X (Proc.devRef .tc main_v3) = Stage.dst (F := F) (X (Proc.devRef .tc main_arg2)) := by
  after_results; rfl
/-- … the scaling column, … -/
theorem dis0 (X : Valuation τ sig (Elt F)) :
    StableHlo.after hostOps0 X (Proc.devRef .tc main_v11) = Stage.disCol (F := F) (X (Proc.devRef .tc main_arg2)) := by
  after_results; rfl
/-- … and the four weight matrices in the shorter format. -/
theorem w1_0 (X : Valuation τ sig (Elt F)) :
    StableHlo.after hostOps0 X (Proc.devRef .tc main_v12) = truncf .bf16 (X (Proc.devRef .tc main_arg4)) bitsLt_bf16_f32 := by
  after_results
theorem w2_0 (X : Valuation τ sig (Elt F)) :
    StableHlo.after hostOps0 X (Proc.devRef .tc main_v13) = truncf .bf16 (X (Proc.devRef .tc main_arg6)) bitsLt_bf16_f32 := by
  after_results
theorem fw1_0 (X : Valuation τ sig (Elt F)) :
    StableHlo.after hostOps0 X (Proc.devRef .tc main_v14) = truncf .bf16 (X (Proc.devRef .tc main_arg8)) bitsLt_bf16_f32 := by
  after_results
theorem fw2_0 (X : Valuation τ sig (Elt F)) :
    StableHlo.after hostOps0 X (Proc.devRef .tc main_v15) = truncf .bf16 (X (Proc.devRef .tc main_arg10)) bitsLt_bf16_f32 := by
  after_results

/-- The first layer's host half before its relu, from the first launch's output `main_v16`. -/
theorem pre1 (X : Valuation τ sig (Elt F)) :
    StableHlo.after hostOps1 X (Proc.devRef .tc main_v32)
      = layerPre (X (Proc.devRef .tc main_v1)) (X (Proc.devRef .tc main_v3)) (X (Proc.devRef .tc main_v11))
          (X (Proc.devRef .tc main_v16)) (X (Proc.devRef .tc main_arg5)) := by
  after_results_simp; rfl
/-- Its relu. -/
theorem relu1 (X : Valuation τ sig (Elt F)) :
    StableHlo.after hostOps1_1 X (Proc.devRef .tc main_v33)
      = maximumf (X (Proc.devRef .tc main_v32))
          (broadcastInDim S50000x1024 ![] bcast_S_S50000x1024 (constant S_ .f32 0x00000000#32)) := by
  after_results; rfl

/-- The second layer's host half before its relu, from the second launch's output `main_v34`. -/
theorem pre2 (X : Valuation τ sig (Elt F)) :
    StableHlo.after hostOps2 X (Proc.devRef .tc main_v50)
      = layerPre (X (Proc.devRef .tc main_v1)) (X (Proc.devRef .tc main_v3)) (X (Proc.devRef .tc main_v11))
          (X (Proc.devRef .tc main_v34)) (X (Proc.devRef .tc main_arg7)) := by
  after_results_simp; rfl
/-- Its relu. -/
theorem relu2 (X : Valuation τ sig (Elt F)) :
    StableHlo.after hostOps2_1 X (Proc.devRef .tc main_v51)
      = maximumf (X (Proc.devRef .tc main_v50))
          (broadcastInDim S50000x1024 ![] bcast_S_S50000x1024 (constant S_ .f32 0x00000000#32)) := by
  after_results; rfl

/-- The pooling stretch: the global rows beside the per-graph means, … -/
theorem comb3 (X : Valuation τ sig (Elt F)) :
    StableHlo.after hostOps2_2 X (Proc.devRef .tc main_v64)
      = Stage.combined (F := F) (X (Proc.devRef .tc main_arg0)) (X (Proc.devRef .tc main_arg3)) (X (Proc.devRef .tc main_v51)) := by
  after_results_simp; rfl
/-- … and the perceptron's two biases as rows. -/
theorem fb1_3 (X : Valuation τ sig (Elt F)) :
    StableHlo.after hostOps2_2 X (Proc.devRef .tc main_v65)
      = shapeCast _ (X (Proc.devRef .tc main_arg9)) shapeCasts_S1024_S1x1024 := by
  after_results; rfl
theorem fb2_3 (X : Valuation τ sig (Elt F)) :
    StableHlo.after hostOps2_2 X (Proc.devRef .tc main_v66)
      = shapeCast _ (X (Proc.devRef .tc main_arg11)) shapeCasts_S80_S1x80 := by
  after_results; rfl

end Stretches

/-! ## The fold read back, boundary by boundary -/

section Fold

variable (m : (ℓ : Loc nD τ sig) → Buf (Elt Ideal) ℓ) (ρ : Dev nD → PrngReg) (c : Dev nD)

/-! ### Buffers carried unchanged -/

/-- Across the first stretch, from the start memory. -/
theorem W1_keep (r : Ref sig .tc) (h : r ∉ wr0 := by decide) :
    W1 m ρ c (Proc.devRef .tc r) = m ((c : Thread nD τ).loc r) := keep0 (W0 m ρ c) h
/-- Across the first layer's host half and its relu. -/
theorem W3_W2 (r : Ref sig .tc) (h : r ∉ wr1 := by decide) :
    W3 m ρ c (Proc.devRef .tc r) = W2 m ρ c (Proc.devRef .tc r) := keep1 (W2 m ρ c) h
theorem W4_W2 (r : Ref sig .tc) (hr : r ∉ wr1r := by decide) (h : r ∉ wr1 := by decide) :
    W4 m ρ c (Proc.devRef .tc r) = W2 m ρ c (Proc.devRef .tc r) := (keep1r (W3 m ρ c) hr).trans (keep1 (W2 m ρ c) h)
/-- Across the second layer's host half, its relu, and the pooling stretch. -/
theorem W6_W5 (r : Ref sig .tc) (h : r ∉ wr2 := by decide) :
    W6 m ρ c (Proc.devRef .tc r) = W5 m ρ c (Proc.devRef .tc r) := keep2 (W5 m ρ c) h
theorem W7_W5 (r : Ref sig .tc) (hr : r ∉ wr2r := by decide) (h : r ∉ wr2 := by decide) :
    W7 m ρ c (Proc.devRef .tc r) = W5 m ρ c (Proc.devRef .tc r) := (keep2r (W6 m ρ c) hr).trans (keep2 (W5 m ρ c) h)
theorem W8_W5 (r : Ref sig .tc) (h3 : r ∉ wr3 := by decide) (hr : r ∉ wr2r := by decide) (h : r ∉ wr2 := by decide) :
    W8 m ρ c (Proc.devRef .tc r) = W5 m ρ c (Proc.devRef .tc r) := (keep3 (W7 m ρ c) h3).trans (W7_W5 m ρ c r hr h)

/-- The scaling column is an input of the first two launches: each leaves it as it found it. -/
theorem W2_dis : W2 m ρ c (Proc.devRef .tc main_v11) = W1 m ρ c (Proc.devRef .tc main_v11) :=
  (W2_arr m ρ c 2).trans (((dat0 (V1 m ρ) c).arrAt_in 2 rfl _).trans (A_eq0 (V1 m ρ) c 2))
theorem W5_dis : W5 m ρ c (Proc.devRef .tc main_v11) = W4 m ρ c (Proc.devRef .tc main_v11) :=
  (W5_arr m ρ c 2).trans (((dat1 (V4 m ρ) c).arrAt_in 2 rfl _).trans (A_eq1 (V4 m ρ) c 2))

/-- An argument array at the first launch's exit, at the second's, and at the pooling stretch's start. -/
theorem arg_W2 (r : Ref sig .tc) (h0 : r ∉ wr0 := by decide) (hw0 : ∀ w, Pipeline.arrRef spec0 w ≠ r := by decide) :
    W2 m ρ c (Proc.devRef .tc r) = m ((c : Thread nD τ).loc r) := (W2_of_ne m ρ c r hw0).trans (W1_keep m ρ c r h0)
theorem arg_W5 (r : Ref sig .tc) (h0 : r ∉ wr0 := by decide) (hw0 : ∀ w, Pipeline.arrRef spec0 w ≠ r := by decide)
    (h1 : r ∉ wr1 := by decide) (h1r : r ∉ wr1r := by decide) (hw1 : ∀ w, Pipeline.arrRef spec1 w ≠ r := by decide) :
    W5 m ρ c (Proc.devRef .tc r) = m ((c : Thread nD τ).loc r) :=
  (W5_of_ne m ρ c r hw1).trans ((W4_W2 m ρ c r h1r h1).trans (arg_W2 m ρ c r h0 hw0))
theorem arg_W7 (r : Ref sig .tc) (h0 : r ∉ wr0 := by decide) (hw0 : ∀ w, Pipeline.arrRef spec0 w ≠ r := by decide)
    (h1 : r ∉ wr1 := by decide) (h1r : r ∉ wr1r := by decide) (hw1 : ∀ w, Pipeline.arrRef spec1 w ≠ r := by decide)
    (h2 : r ∉ wr2 := by decide) (h2r : r ∉ wr2r := by decide) :
    W7 m ρ c (Proc.devRef .tc r) = m ((c : Thread nD τ).loc r) :=
  (W7_W5 m ρ c r h2r h2).trans (arg_W5 m ρ c r h0 hw0 h1 h1r hw1)

/-! ### The first stretch's values, carried to where they are read -/

theorem src_W1 : W1 m ρ c (Proc.devRef .tc main_v1) = Stage.src (F := Ideal) (m ((c : Thread nD τ).loc main_arg2)) := src0 (W0 m ρ c)
theorem dst_W1 : W1 m ρ c (Proc.devRef .tc main_v3) = Stage.dst (F := Ideal) (m ((c : Thread nD τ).loc main_arg2)) := dst0 (W0 m ρ c)
theorem dis_W1 : W1 m ρ c (Proc.devRef .tc main_v11) = Stage.disCol (F := Ideal) (m ((c : Thread nD τ).loc main_arg2)) := dis0 (W0 m ρ c)
theorem w1_W1 : W1 m ρ c (Proc.devRef .tc main_v12) = (truncf .bf16 (m ((c : Thread nD τ).loc main_arg4)) bitsLt_bf16_f32 : FVec Ideal S1536x1024 .bf16) := w1_0 (W0 m ρ c)
theorem w2_W1 : W1 m ρ c (Proc.devRef .tc main_v13) = (truncf .bf16 (m ((c : Thread nD τ).loc main_arg6)) bitsLt_bf16_f32 : FVec Ideal S1024x1024 .bf16) := w2_0 (W0 m ρ c)
theorem fw1_W1 : W1 m ρ c (Proc.devRef .tc main_v14) = (truncf .bf16 (m ((c : Thread nD τ).loc main_arg8)) bitsLt_bf16_f32 : FVec Ideal S2560x1024 .bf16) := fw1_0 (W0 m ρ c)
theorem fw2_W1 : W1 m ρ c (Proc.devRef .tc main_v15) = (truncf .bf16 (m ((c : Thread nD τ).loc main_arg10)) bitsLt_bf16_f32 : FVec Ideal S1024x80 .bf16) := fw2_0 (W0 m ρ c)

theorem src_W2 : W2 m ρ c (Proc.devRef .tc main_v1) = Stage.src (F := Ideal) (m ((c : Thread nD τ).loc main_arg2)) :=
  (W2_of_ne m ρ c main_v1 (by decide)).trans (src_W1 m ρ c)
theorem dst_W2 : W2 m ρ c (Proc.devRef .tc main_v3) = Stage.dst (F := Ideal) (m ((c : Thread nD τ).loc main_arg2)) :=
  (W2_of_ne m ρ c main_v3 (by decide)).trans (dst_W1 m ρ c)
theorem dis_W2 : W2 m ρ c (Proc.devRef .tc main_v11) = Stage.disCol (F := Ideal) (m ((c : Thread nD τ).loc main_arg2)) :=
  (W2_dis m ρ c).trans (dis_W1 m ρ c)
theorem dis_W4 : W4 m ρ c (Proc.devRef .tc main_v11) = Stage.disCol (F := Ideal) (m ((c : Thread nD τ).loc main_arg2)) :=
  (W4_W2 m ρ c main_v11).trans (dis_W2 m ρ c)
theorem w2_W4 : W4 m ρ c (Proc.devRef .tc main_v13) = (truncf .bf16 (m ((c : Thread nD τ).loc main_arg6)) bitsLt_bf16_f32 : FVec Ideal S1024x1024 .bf16) :=
  (W4_W2 m ρ c main_v13).trans ((W2_of_ne m ρ c main_v13 (by decide)).trans (w2_W1 m ρ c))
theorem src_W5 : W5 m ρ c (Proc.devRef .tc main_v1) = Stage.src (F := Ideal) (m ((c : Thread nD τ).loc main_arg2)) :=
  (W5_of_ne m ρ c main_v1 (by decide)).trans ((W4_W2 m ρ c main_v1).trans (src_W2 m ρ c))
theorem dst_W5 : W5 m ρ c (Proc.devRef .tc main_v3) = Stage.dst (F := Ideal) (m ((c : Thread nD τ).loc main_arg2)) :=
  (W5_of_ne m ρ c main_v3 (by decide)).trans ((W4_W2 m ρ c main_v3).trans (dst_W2 m ρ c))
theorem dis_W5 : W5 m ρ c (Proc.devRef .tc main_v11) = Stage.disCol (F := Ideal) (m ((c : Thread nD τ).loc main_arg2)) :=
  (W5_dis m ρ c).trans (dis_W4 m ρ c)
theorem fw1_W8 : W8 m ρ c (Proc.devRef .tc main_v14) = (truncf .bf16 (m ((c : Thread nD τ).loc main_arg8)) bitsLt_bf16_f32 : FVec Ideal S2560x1024 .bf16) :=
  (W8_W5 m ρ c main_v14).trans ((W5_of_ne m ρ c main_v14 (by decide)).trans ((W4_W2 m ρ c main_v14).trans
    ((W2_of_ne m ρ c main_v14 (by decide)).trans (fw1_W1 m ρ c))))
theorem fw2_W8 : W8 m ρ c (Proc.devRef .tc main_v15) = (truncf .bf16 (m ((c : Thread nD τ).loc main_arg10)) bitsLt_bf16_f32 : FVec Ideal S1024x80 .bf16) :=
  (W8_W5 m ρ c main_v15).trans ((W5_of_ne m ρ c main_v15 (by decide)).trans ((W4_W2 m ρ c main_v15).trans
    ((W2_of_ne m ρ c main_v15 (by decide)).trans (fw2_W1 m ρ c))))

/-! ### The first layer -/

/-- The first launch's output at its exit: the scaled product of the node features and the first weights. -/
theorem out0_W2 : W2 m ρ c (Proc.devRef .tc main_v16) = (Stage.scaledProduct0 (m ((c : Thread nD τ).loc main_arg1)) (truncf .bf16 (m ((c : Thread nD τ).loc main_arg4)) bitsLt_bf16_f32) (Stage.disCol (F := Ideal) (m ((c : Thread nD τ).loc main_arg2)))) := by
  refine (W2_arr m ρ c 3).trans ((Regions.region0 (V1 m ρ) c).trans ?_)
  show Stage.scaledProduct0 (W1 m ρ c (Proc.devRef .tc main_arg1)) (W1 m ρ c (Proc.devRef .tc main_v12)) (W1 m ρ c (Proc.devRef .tc main_v11)) = _
  rw [W1_keep m ρ c main_arg1, w1_W1, dis_W1]

/-- The first layer's output, as the second launch finds it. -/
theorem layer1_W4 : W4 m ρ c (Proc.devRef .tc main_v33) = (Stage.layer (F := Ideal) (m ((c : Thread nD τ).loc main_arg2)) (Stage.scaledProduct0 (m ((c : Thread nD τ).loc main_arg1)) (truncf .bf16 (m ((c : Thread nD τ).loc main_arg4)) bitsLt_bf16_f32) (Stage.disCol (F := Ideal) (m ((c : Thread nD τ).loc main_arg2)))) (m ((c : Thread nD τ).loc main_arg5))) := by
  refine (relu1 (W3 m ρ c)).trans ?_
  rw [layer_eq]
  refine congrArg (fun z => maximumf z _) ?_
  refine (pre1 (W2 m ρ c)).trans ?_
  rw [src_W2, dst_W2, dis_W2, out0_W2, arg_W2 m ρ c main_arg5]

/-! ### The second layer -/

/-- The second launch's output at its exit. -/
theorem out1_W5 : W5 m ρ c (Proc.devRef .tc main_v34) = (Stage.scaledProduct1 (Stage.layer (F := Ideal) (m ((c : Thread nD τ).loc main_arg2)) (Stage.scaledProduct0 (m ((c : Thread nD τ).loc main_arg1)) (truncf .bf16 (m ((c : Thread nD τ).loc main_arg4)) bitsLt_bf16_f32) (Stage.disCol (F := Ideal) (m ((c : Thread nD τ).loc main_arg2)))) (m ((c : Thread nD τ).loc main_arg5))) (truncf .bf16 (m ((c : Thread nD τ).loc main_arg6)) bitsLt_bf16_f32) (Stage.disCol (F := Ideal) (m ((c : Thread nD τ).loc main_arg2)))) := by
  refine (W5_arr m ρ c 3).trans ((Regions.region1 (V4 m ρ) c).trans ?_)
  show Stage.scaledProduct1 (W4 m ρ c (Proc.devRef .tc main_v33)) (W4 m ρ c (Proc.devRef .tc main_v13)) (W4 m ρ c (Proc.devRef .tc main_v11)) = _
  rw [layer1_W4, w2_W4, dis_W4]

/-- The second layer's output, as the pooling stretch finds it. -/
theorem layer2_W7 : W7 m ρ c (Proc.devRef .tc main_v51) = (Stage.layer (F := Ideal) (m ((c : Thread nD τ).loc main_arg2)) (Stage.scaledProduct1 (Stage.layer (F := Ideal) (m ((c : Thread nD τ).loc main_arg2)) (Stage.scaledProduct0 (m ((c : Thread nD τ).loc main_arg1)) (truncf .bf16 (m ((c : Thread nD τ).loc main_arg4)) bitsLt_bf16_f32) (Stage.disCol (F := Ideal) (m ((c : Thread nD τ).loc main_arg2)))) (m ((c : Thread nD τ).loc main_arg5))) (truncf .bf16 (m ((c : Thread nD τ).loc main_arg6)) bitsLt_bf16_f32) (Stage.disCol (F := Ideal) (m ((c : Thread nD τ).loc main_arg2)))) (m ((c : Thread nD τ).loc main_arg7))) := by
  refine (relu2 (W6 m ρ c)).trans ?_
  rw [layer_eq]
  refine congrArg (fun z => maximumf z _) ?_
  refine (pre2 (W5 m ρ c)).trans ?_
  rw [src_W5, dst_W5, dis_W5, out1_W5, arg_W5 m ρ c main_arg7]

/-! ### Pooling and the perceptron -/

theorem comb_W8 : W8 m ρ c (Proc.devRef .tc main_v64) = Stage.combined (F := Ideal) (m ((c : Thread nD τ).loc main_arg0)) (m ((c : Thread nD τ).loc main_arg3)) (Stage.layer (F := Ideal) (m ((c : Thread nD τ).loc main_arg2)) (Stage.scaledProduct1 (Stage.layer (F := Ideal) (m ((c : Thread nD τ).loc main_arg2)) (Stage.scaledProduct0 (m ((c : Thread nD τ).loc main_arg1)) (truncf .bf16 (m ((c : Thread nD τ).loc main_arg4)) bitsLt_bf16_f32) (Stage.disCol (F := Ideal) (m ((c : Thread nD τ).loc main_arg2)))) (m ((c : Thread nD τ).loc main_arg5))) (truncf .bf16 (m ((c : Thread nD τ).loc main_arg6)) bitsLt_bf16_f32) (Stage.disCol (F := Ideal) (m ((c : Thread nD τ).loc main_arg2)))) (m ((c : Thread nD τ).loc main_arg7))) := by
  refine (comb3 (W7 m ρ c)).trans ?_
  rw [arg_W7 m ρ c main_arg0, arg_W7 m ρ c main_arg3, layer2_W7]
theorem fb1_W8 : W8 m ρ c (Proc.devRef .tc main_v65) = shapeCast _ (m ((c : Thread nD τ).loc main_arg9)) shapeCasts_S1024_S1x1024 := by
  refine (fb1_3 (W7 m ρ c)).trans ?_
  rw [arg_W7 m ρ c main_arg9]
theorem fb2_W8 : W8 m ρ c (Proc.devRef .tc main_v66) = shapeCast _ (m ((c : Thread nD τ).loc main_arg11)) shapeCasts_S80_S1x80 := by
  refine (fb2_3 (W7 m ρ c)).trans ?_
  rw [arg_W7 m ρ c main_arg11]

/-- The result array at the last boundary: the third launch's output, the perceptron of the arrays it found. -/
theorem result_W9 : W9 m ρ c (Proc.devRef .tc main_v67)
    = Stage.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W9_arr m ρ c 5).trans ((Regions.region2 (V8 m ρ) c).trans ?_)
  show Stage.perceptron (W8 m ρ c (Proc.devRef .tc main_v64)) (W8 m ρ c (Proc.devRef .tc main_v14)) (W8 m ρ c (Proc.devRef .tc main_v65))
    (W8 m ρ c (Proc.devRef .tc main_v15)) (W8 m ρ c (Proc.devRef .tc main_v66)) = _
  rw [comb_W8, fw1_W8, fb1_W8, fw2_W8, fb2_W8]
  rfl

end Fold

/-! ## The run -/

/-- Every execution of the program from any memory terminates with the result array at `Stage.result` of the twelve
    argument arrays, and the argument arrays unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v67)
        = Stage.result (m ((c.tc : Thread nD τ).loc main_arg0)) (m ((c.tc : Thread nD τ).loc main_arg1)) (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6)) (m ((c.tc : Thread nD τ).loc main_arg7))
            (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c).1.trans (result_W9 m ρ c), (h c).2⟩) (rawRun m ρ)

end Cert.KernelIdeal.KValue

end
-- ==== Proof.RStages.lean ====
/-
  The reference's computation as pure functions, stage by stage.

  The reference lists the graph's 200000 edges followed by one self-loop per node (250000 entries), counts a node's degree
  over that list, scales each entry's message by dis[source]·dis[destination], and adds the messages into their
  destinations: one graph-convolution layer is
      relu ( Σ_{entries into i} (h·W)[source] · (dis[source] · dis[destination]) + b ).
  Pooling and the perceptron follow as host operations.
-/
import proofs.«104656_j19112604467789_2_alg».proof.Proof.Gen.ReferenceIdeal
import Idealize.ShloMosaic.PureOps.Ideal
import Idealize.ShloMosaic.Lib.ValueIdx

noncomputable section

namespace Cert.ReferenceIdeal.Stage

open Cert.ReferenceIdeal Cert.ReferenceIdeal.Gen Idealize.ShloMosaic Idealize.ShloMosaic.ValueIdx

variable {F : FTy → Type} [FloatOps F]

/-- The sources of the 250000 entries: the edges' sources, then every node (its own self-loop). -/
def srcAll (ei : (⟨S2x200000, .i32⟩ : BufTy).Contents (Elt F)) : (⟨S250000, .i32⟩ : BufTy).Contents (Elt F) :=
  concatenate S250000 0 [⟨S200000, shapeCast _ (extractStridedSlice S1x200000 ![0, 0] ei slices_S2x200000_S1x200000_0_0) shapeCasts_S1x200000_S200000⟩,
    ⟨S50000, iotaInDim S50000 32 0⟩] concatenates_S200000_S50000_S250000_d0

/-- The destinations of the 250000 entries. -/
def dstAll (ei : (⟨S2x200000, .i32⟩ : BufTy).Contents (Elt F)) : (⟨S250000, .i32⟩ : BufTy).Contents (Elt F) :=
  concatenate S250000 0 [⟨S200000, shapeCast _ (extractStridedSlice S1x200000 ![1, 0] ei slices_S2x200000_S1x200000_1_0) shapeCasts_S1x200000_S200000⟩,
    ⟨S50000, iotaInDim S50000 32 0⟩] concatenates_S200000_S50000_S250000_d0

/-- A node's degree: one for each entry into it. -/
def deg (ei : (⟨S2x200000, .i32⟩ : BufTy).Contents (Elt F)) : (⟨S50000, .f32⟩ : BufTy).Contents (Elt F) :=
  Host.scatterAdd scatter_S50000_S250000x1_S250000_n_0_0_1
    (broadcastInDim S50000 ![] bcast_S_S50000 (constant S_ .f32 0x00000000#32))
    (broadcastInDim S250000x1 ![0] bcast_S250000_S250000x1_0 (dstAll (F := F) ei))
    (broadcastInDim S250000 ![] bcast_S_S250000 (constant S_ .f32 0x3F800000#32))

/-- dis = (max deg 1)^(-1/2) where deg > 0, else 0. -/
def dis (ei : (⟨S2x200000, .i32⟩ : BufTy).Contents (Elt F)) : (⟨S50000, .f32⟩ : BufTy).Contents (Elt F) :=
  select (cmpf (F := F) .ogt (deg (F := F) ei) (broadcastInDim S50000 ![] bcast_S_S50000 (constant S_ .f32 0x00000000#32)))
    (Host.rsqrt (maximumf (deg (F := F) ei) (broadcastInDim S50000 ![] bcast_S_S50000 (constant S_ .f32 0x3F800000#32))))
    (broadcastInDim S50000 ![] bcast_S_S50000 (constant S_ .f32 0x00000000#32))

/-- An index list made ready for a read: wrapped once where negative, as a column. -/
def readIdx (v : (⟨S250000, .i32⟩ : BufTy).Contents (Elt F)) : (⟨S250000x1, .i32⟩ : BufTy).Contents (Elt F) :=
  broadcastInDim S250000x1 ![0] bcast_S250000_S250000x1_0
    (select (cmpi .slt v (broadcastInDim S250000 ![] bcast_S_S250000 (constantI S_ 32 0#32)))
      (addi v (broadcastInDim S250000 ![] bcast_S_S250000 (constantI S_ 32 50000#32)))
      v)

/-- Each entry's weight dis[source] · dis[destination]. -/
def norm (ei : (⟨S2x200000, .i32⟩ : BufTy).Contents (Elt F)) : (⟨S250000, .f32⟩ : BufTy).Contents (Elt F) :=
  mulf (Host.gather gather_S50000_S250000x1_S250000_n_0_n_n_0_1_1 (dis (F := F) ei) (readIdx (F := F) (srcAll (F := F) ei)))
    (Host.gather gather_S50000_S250000x1_S250000_n_0_n_n_0_1_1 (dis (F := F) ei) (readIdx (F := F) (dstAll (F := F) ei)))

/-- One layer from the product `h` = (features)·W: relu (Σ_{entries into i} h[source]·weight + b). -/
def layer (ei : (⟨S2x200000, .i32⟩ : BufTy).Contents (Elt F)) (h : (⟨S50000x1024, .f32⟩ : BufTy).Contents (Elt F)) (b : (⟨S1024, .f32⟩ : BufTy).Contents (Elt F)) : (⟨S50000x1024, .f32⟩ : BufTy).Contents (Elt F) :=
  maximumf
    (addf
      (Host.scatterAdd scatter_S50000x1024_S250000x1_S250000x1024_1_0_0_1
        (broadcastInDim S50000x1024 ![] bcast_S_S50000x1024 (constant S_ .f32 0x00000000#32))
        (broadcastInDim S250000x1 ![0] bcast_S250000_S250000x1_0 (dstAll (F := F) ei))
        (mulf (Host.gather gather_S50000x1024_S250000x1_S250000x1024_1_0_n_n_0_1_11024 h (readIdx (F := F) (srcAll (F := F) ei)))
          (broadcastInDim S250000x1024 ![0, 1] bcast_S250000x1_S250000x1024_0_1
            (broadcastInDim S250000x1 ![0] bcast_S250000_S250000x1_0 (norm (F := F) ei)))))
      (broadcastInDim S50000x1024 ![0, 1] bcast_S1x1024_S50000x1024_0_1 (broadcastInDim S1x1024 ![1] bcast_S1024_S1x1024_1 b)))
    (broadcastInDim S50000x1024 ![] bcast_S_S50000x1024 (constant S_ .f32 0x00000000#32))

/-- The two-layer perceptron on the combined rows. -/
def mlp (comb : (⟨S64x2560, .f32⟩ : BufTy).Contents (Elt F)) (fw1 : (⟨S2560x1024, .f32⟩ : BufTy).Contents (Elt F)) (fb1 : (⟨S1024, .f32⟩ : BufTy).Contents (Elt F))
    (fw2 : (⟨S1024x80, .f32⟩ : BufTy).Contents (Elt F)) (fb2 : (⟨S80, .f32⟩ : BufTy).Contents (Elt F)) : (⟨S64x80, .f32⟩ : BufTy).Contents (Elt F) :=
  addf
    (Host.dotGeneral dot_S64x1024_S1024x80_S64x80_1_0_0_1_n_n none
      (maximumf
        (addf (Host.dotGeneral dot_S64x2560_S2560x1024_S64x1024_1_0_0_1_n_n none comb fw1)
          (broadcastInDim S64x1024 ![0, 1] bcast_S1x1024_S64x1024_0_1 (broadcastInDim S1x1024 ![1] bcast_S1024_S1x1024_1 fb1)))
        (broadcastInDim S64x1024 ![] bcast_S_S64x1024 (constant S_ .f32 0x00000000#32)))
      fw2)
    (broadcastInDim S64x80 ![0, 1] bcast_S1x80_S64x80_0_1 (broadcastInDim S1x80 ![1] bcast_S80_S1x80_1 fb2))

end Cert.ReferenceIdeal.Stage

end
-- ==== Proof.LibRowIndex.lean ====
/-
  Two index notions for a row gather followed by an accumulating row scatter.

  A list of E updates carries, per update e, one integer index (an [E, 1] array of words). Read as a
  GATHER index into an operand of N rows it is taken as a signed integer and clamped into [0, N - 1]:
  `gatherRow`. Read as a SCATTER index it is taken as a signed integer and NOT clamped: update e lands
  on row n exactly when that integer is n, and the updates landing on row n form the finite set
  `hits idx n` (an index outside [0, N) lands nowhere).
-/
import Idealize.ShloMosaic.Lib.ValueIdx

namespace Cert.Lib

open Idealize.ShloMosaic Idealize.ShloMosaic.ValueIdx

variable {N E w : Nat}

/-- The operand row an update row reads: its start index read as a signed integer and clamped into [0, N-1]. -/
def gatherRow (hN : 0 < N) (idx : IVec ⟨2, ![E, 1]⟩ w) (e : Fin E) : Fin N :=
  ⟨min (idx (ix2 e (0 : Fin 1))).toInt.toNat (N - 1), by omega⟩

/-- The update rows that land on operand row n: those whose scatter index, read signed and not clamped, is n. -/
def hits (idx : IVec ⟨2, ![E, 1]⟩ w) (n : Nat) : Finset (Fin E) :=
  Finset.univ.filter fun e => (idx (ix2 e (0 : Fin 1))).toInt = (n : Int)

end Cert.Lib
-- ==== Proof.LibEdgeSum.lean ====
/-
  Scaling a sum of extended reals by a nonnegative real, and a sum over a list that is two lists end to end.

  On the extended reals multiplication does not distribute over addition in general (∞ − ∞), but a factor that is a
  nonnegative real does. That is all a degree-normalised neighbourhood sum needs: with d the (real, nonnegative) scaling
  of the receiving node,
      d · ( (0 + Σ_e h_e · d_e) + h_n · d )  =  0 + ( Σ_e h_e · (d_e · d)  +  h_n · (d · d) ),
  whatever extended reals the features h are.
-/
import Mathlib.Data.EReal.Inv
import Mathlib.Algebra.BigOperators.Fin

namespace Cert.Lib

open scoped BigOperators

/-- A nonnegative real factor distributes over a finite sum of extended reals. -/
theorem coe_mul_sum {ι : Type*} (r : ℝ) (hr : 0 ≤ r) (s : Finset ι) (a : ι → EReal) :
    (r : EReal) * ∑ e ∈ s, a e = ∑ e ∈ s, (r : EReal) * a e := by
  classical
  induction s using Finset.induction_on with
  | empty => simp
  | insert x s hx ih =>
    rw [Finset.sum_insert hx, Finset.sum_insert hx,
      EReal.left_distrib_of_nonneg_of_ne_top (EReal.coe_nonneg.mpr hr) (EReal.coe_ne_top r), ih]

/-- The normalised neighbourhood sum, scaled on the outside by the receiving node's factor or edge by edge by the
    product of the two ends' factors: one value. -/
theorem scale_neighbourhood {ι : Type*} (r : ℝ) (hr : 0 ≤ r) (s : Finset ι) (h d : ι → EReal) (hn : EReal) :
    (r : EReal) * ((0 + ∑ e ∈ s, h e * d e) + hn * (r : EReal))
      = 0 + (∑ e ∈ s, h e * (d e * (r : EReal)) + hn * ((r : EReal) * (r : EReal))) := by
  rw [zero_add, zero_add,
    EReal.left_distrib_of_nonneg_of_ne_top (EReal.coe_nonneg.mpr hr) (EReal.coe_ne_top r), coe_mul_sum r hr]
  congr 1
  · exact Finset.sum_congr rfl fun e _ => by rw [mul_comm (r : EReal), mul_assoc]
  · rw [mul_comm (r : EReal), mul_assoc]

/-- A sum over the positions of a list of a + b entries selected by a predicate, when on the last b entries the
    predicate picks exactly position `n`: the selected part of the first a entries, plus the entry at a + n. -/
theorem sum_filter_append {M : Type*} [AddCommMonoid M] {a b : ℕ} (p : Fin (a + b) → Prop) [DecidablePred p]
    (f : Fin (a + b) → M) (n : Fin b) (hp : ∀ i : Fin b, p (Fin.natAdd a i) ↔ i = n) :
    ∑ e ∈ Finset.univ.filter p, f e
      = ∑ e ∈ Finset.univ.filter (fun e : Fin a => p (Fin.castAdd b e)), f (Fin.castAdd b e) + f (Fin.natAdd a n) := by
  classical
  rw [Finset.sum_filter, Fin.sum_univ_add, Finset.sum_filter]
  congr 1
  rw [Finset.sum_congr rfl (fun i _ => by rw [if_congr (hp i) rfl rfl] : ∀ i ∈ Finset.univ,
    (if p (Fin.natAdd a i) then f (Fin.natAdd a i) else 0) = if i = n then f (Fin.natAdd a i) else 0)]
  rw [Finset.sum_ite_eq' Finset.univ n]
  simp

/-- The same over a list of c = a + b entries whose first a and last b positions are named by two embeddings. -/
theorem sum_filter_split {M : Type*} [AddCommMonoid M] {a b c : ℕ} (hc : a + b = c) (p : Fin c → Prop) [DecidablePred p]
    (f : Fin c → M) (n : Fin b) (L : Fin a → Fin c) (R : Fin b → Fin c) (hL : ∀ e, (L e).val = e.val)
    (hR : ∀ i, (R i).val = a + i.val) (hp : ∀ i : Fin b, p (R i) ↔ i = n) :
    ∑ e ∈ Finset.univ.filter p, f e = ∑ e ∈ Finset.univ.filter (fun e : Fin a => p (L e)), f (L e) + f (R n) := by
  subst hc
  obtain rfl : L = Fin.castAdd b := funext fun e => Fin.ext (hL e)
  obtain rfl : R = Fin.natAdd a := funext fun i => Fin.ext (hR i)
  exact sum_filter_append p f n hp

/-- A sum of ones over a finite set is its size. -/
theorem sum_one {ι : Type*} (s : Finset ι) : ∑ _e ∈ s, (1 : EReal) = ((s.card : ℝ) : EReal) := by
  classical
  induction s using Finset.induction_on with
  | empty => simp
  | insert x s hx ih =>
    rw [Finset.sum_insert hx, Finset.card_insert_of_notMem hx, ih, Nat.cast_succ, EReal.coe_add, EReal.coe_one, add_comm]

end Cert.Lib
-- ==== Proof.BridgeIndex.lean ====
/-
  Index arithmetic shared by the degree and the layer: which row an index word reads, which entries land on a node, and
  how the reference's list of 250000 entries (the 200000 edges, then one self-loop per node) splits.

  A word a read as a row of a 50000-row array is first wrapped (a + 50000 if a < 0 as a signed integer), then clamped
  into [0, 49999]: `rowOf a`. A word whose signed value is already a row number n < 50000 reads row n. An entry lands
  on node n exactly when its destination word, as a signed integer and unwrapped, is n; among the self-loops that is
  the n-th one alone.
-/
import proofs.«104656_j19112604467789_2_alg».proof.Proof.KStages
import proofs.«104656_j19112604467789_2_alg».proof.Proof.RStages
import proofs.«104656_j19112604467789_2_alg».proof.Proof.LibRowIndex
import proofs.«104656_j19112604467789_2_alg».proof.Proof.LibEdgeSum
import Idealize.ShloMosaic.Lib.Pipeline.Value
import Idealize.ShloMosaic.Lib.IdealHost

noncomputable section

namespace Cert.Bridge

open Idealize.ShloMosaic Idealize.ShloMosaic.ValueIdx Cert.Lib
open scoped BigOperators

/-! ## Column forms read at an index -/

/-- A list [E] laid out as a column [E, 1] reads, at (e, 0), the list's entry e. -/
theorem col_apply {α : Type} {E : ℕ} (h : (⟨1, ![E]⟩ : Shape).BroadcastsInDim ⟨2, ![E, 1]⟩ ![0])
    (v : (⟨1, ![E]⟩ : Shape).Idx → α) (e : Fin E) :
    broadcastInDim ⟨2, ![E, 1]⟩ ![0] h v (ix2 e (0 : Fin 1)) = v (ix1 e) := by
  refine broadcastInDim_apply _ h v _ (ix1 e) fun a => ?_
  match a with
  | ⟨0, _⟩ =>
    show e.val = if E = 1 then 0 else e.val
    split
    · have := e.isLt; omega
    · rfl

/-- A column [E, 1] repeated over C columns reads, at (e, k), the column's entry e. -/
theorem colRepeat_apply {α : Type} {E C : ℕ} (h : (⟨2, ![E, 1]⟩ : Shape).BroadcastsInDim ⟨2, ![E, C]⟩ ![0, 1])
    (v : (⟨2, ![E, 1]⟩ : Shape).Idx → α) (e : Fin E) (k : Fin C) :
    broadcastInDim ⟨2, ![E, C]⟩ ![0, 1] h v (ix2 e k) = v (ix2 e (0 : Fin 1)) := by
  refine broadcastInDim_apply _ h v _ (ix2 e (0 : Fin 1)) fun a => ?_
  match a with
  | ⟨0, _⟩ =>
    show e.val = if E = 1 then 0 else e.val
    split
    · have := e.isLt; omega
    · rfl
  | ⟨1, _⟩ => rfl

/-! ## The row a word reads -/

/-- A word wrapped once if negative: a + 50000 when a < 0 as a signed integer, else a. -/
def wrap (a : BitVec 32) : BitVec 32 :=
  Scalar.select (IntOp.cmpi .slt a 0#32) (IntOp.addi a 50000#32) a

/-- The row of a 50000-row array a word reads: wrapped, then clamped into [0, 49999]. -/
def rowOf (a : BitVec 32) : Fin 50000 := ⟨min (wrap a).toInt.toNat (50000 - 1), by omega⟩

/-- A word that is not negative is not wrapped. -/
theorem wrap_of_nonneg (a : BitVec 32) (h : 0 ≤ a.toInt) : wrap a = a := by
  unfold wrap IntOp.cmpi
  have : a.slt 0#32 = false := by
    rw [BitVec.slt_eq_decide]
    simp only [BitVec.toInt_zero, decide_eq_false_iff_not, not_lt]
    exact h
  simp only [this, BitVec.ofBool_false]
  exact if_neg (by decide)

/-- A word whose signed value is a row number reads that row. -/
theorem rowOf_of_toInt (a : BitVec 32) (n : Fin 50000) (h : a.toInt = (n.val : Int)) : rowOf a = n := by
  refine Fin.ext ?_
  show min (wrap a).toInt.toNat (50000 - 1) = n.val
  rw [wrap_of_nonneg a (by rw [h]; exact Int.natCast_nonneg _), h, Int.toNat_natCast]
  have := n.isLt
  omega

/-- The n-th node's own number, as a word, has signed value n. -/
theorem toInt_ofNat_node (i : Fin 50000) : (BitVec.ofNat 32 i.val).toInt = (i.val : Int) := by
  have hi := i.isLt
  have hn : (BitVec.ofNat 32 i.val).toNat = i.val := by
    rw [BitVec.toNat_ofNat]; exact Nat.mod_eq_of_lt (by omega)
  rw [BitVec.toInt_eq_toNat_of_lt (by rw [hn]; omega), hn]

/-! ## The two index lists and their halves -/

/-- Position e of the edge list inside the reference's list of 250000 entries. -/
def edgeEntry (e : Fin 200000) : Fin 250000 := ⟨e.val, by have := e.isLt; omega⟩
/-- Position of node i's self-loop inside the reference's list of 250000 entries. -/
def loopEntry (i : Fin 50000) : Fin 250000 := ⟨200000 + i.val, by have := i.isLt; omega⟩

section Lists

variable (ei : IVec ⟨2, ![2, 200000]⟩ 32)

/-- The reference's destination list on its first 200000 entries is the edges' destinations. -/
theorem dstAll_left (e : Fin 200000) :
    Cert.ReferenceIdeal.Stage.dstAll (F := Ideal) ei (ix1 (edgeEntry e))
      = Cert.KernelIdeal.Stage.dst (F := Ideal) ei (ix1 e) := by
  unfold Cert.ReferenceIdeal.Stage.dstAll
  exact concatenate_pair_apply_left (s₁ := ⟨1, ![200000]⟩) (s₂ := ⟨1, ![50000]⟩) (0 : Fin 1) _ _ _ (ix1 (edgeEntry e)) rfl (ix1 e)
    (fun b => by match b with | ⟨0, _⟩ => rfl)

/-- The reference's destination list on its last 50000 entries is the node's own number. -/
theorem dstAll_right (i : Fin 50000) :
    Cert.ReferenceIdeal.Stage.dstAll (F := Ideal) ei (ix1 (loopEntry i)) = BitVec.ofNat 32 i.val := by
  unfold Cert.ReferenceIdeal.Stage.dstAll
  exact concatenate_pair_apply_right (s₁ := ⟨1, ![200000]⟩) (s₂ := ⟨1, ![50000]⟩) (0 : Fin 1) _ _ _ (ix1 (loopEntry i)) rfl rfl (ix1 i)
    (fun b hb => absurd (Subsingleton.elim _ _) hb) (by show i.val + 200000 = 200000 + i.val; omega)

/-- The reference's source list on its first 200000 entries is the edges' sources. -/
theorem srcAll_left (e : Fin 200000) :
    Cert.ReferenceIdeal.Stage.srcAll (F := Ideal) ei (ix1 (edgeEntry e))
      = Cert.KernelIdeal.Stage.src (F := Ideal) ei (ix1 e) := by
  unfold Cert.ReferenceIdeal.Stage.srcAll
  exact concatenate_pair_apply_left (s₁ := ⟨1, ![200000]⟩) (s₂ := ⟨1, ![50000]⟩) (0 : Fin 1) _ _ _ (ix1 (edgeEntry e)) rfl (ix1 e)
    (fun b => by match b with | ⟨0, _⟩ => rfl)

/-- The reference's source list on its last 50000 entries is the node's own number. -/
theorem srcAll_right (i : Fin 50000) :
    Cert.ReferenceIdeal.Stage.srcAll (F := Ideal) ei (ix1 (loopEntry i)) = BitVec.ofNat 32 i.val := by
  unfold Cert.ReferenceIdeal.Stage.srcAll
  exact concatenate_pair_apply_right (s₁ := ⟨1, ![200000]⟩) (s₂ := ⟨1, ![50000]⟩) (0 : Fin 1) _ _ _ (ix1 (loopEntry i)) rfl rfl (ix1 i)
    (fun b hb => absurd (Subsingleton.elim _ _) hb) (by show i.val + 200000 = 200000 + i.val; omega)

/-- The reference's read index of entry e is the list's word, wrapped. -/
theorem readIdx_apply (v : IVec ⟨1, ![250000]⟩ 32) (e : Fin 250000) :
    Cert.ReferenceIdeal.Stage.readIdx (F := Ideal) v (ix2 e (0 : Fin 1)) = wrap (v (ix1 e)) := by
  unfold Cert.ReferenceIdeal.Stage.readIdx
  rw [col_apply]
  rfl

/-- The kernel's read index of edge e is its source word, wrapped. -/
theorem srcRead_apply (e : Fin 200000) :
    Cert.KernelIdeal.Stage.srcRead (F := Ideal) ei (ix2 e (0 : Fin 1))
      = wrap (Cert.KernelIdeal.Stage.src (F := Ideal) ei (ix1 e)) := by
  unfold Cert.KernelIdeal.Stage.srcRead
  rw [col_apply]
  rfl

/-- The reference's destination column, and the kernel's. -/
def dstColR : IVec ⟨2, ![250000, 1]⟩ 32 :=
  broadcastInDim Cert.ReferenceIdeal.S250000x1 ![0] Cert.ReferenceIdeal.Gen.bcast_S250000_S250000x1_0
    (Cert.ReferenceIdeal.Stage.dstAll (F := Ideal) ei)
def dstColK : IVec ⟨2, ![200000, 1]⟩ 32 :=
  broadcastInDim Cert.KernelIdeal.S200000x1 ![0] Cert.KernelIdeal.Gen.bcast_S200000_S200000x1_0
    (Cert.KernelIdeal.Stage.dst (F := Ideal) ei)

theorem dstColR_apply (e : Fin 250000) :
    dstColR ei (ix2 e (0 : Fin 1)) = Cert.ReferenceIdeal.Stage.dstAll (F := Ideal) ei (ix1 e) := col_apply _ _ e
theorem dstColK_apply (e : Fin 200000) :
    dstColK ei (ix2 e (0 : Fin 1)) = Cert.KernelIdeal.Stage.dst (F := Ideal) ei (ix1 e) := col_apply _ _ e

/-- An edge lands on node n exactly when its destination word, read signed, is n. -/
theorem mem_hitsK (n : Fin 50000) (e : Fin 200000) :
    e ∈ hits (dstColK ei) n.val ↔ (Cert.KernelIdeal.Stage.dst (F := Ideal) ei (ix1 e)).toInt = (n.val : Int) := by
  unfold hits
  rw [Finset.mem_filter, dstColK_apply]
  exact and_iff_right (Finset.mem_univ e)

/-- A sum over the entries that land on node n: over the edges that land on n, plus the n-th self-loop. -/
theorem sum_hits_all {M : Type*} [AddCommMonoid M] (n : Fin 50000) (f : Fin 250000 → M) :
    ∑ e ∈ hits (dstColR ei) n.val, f e
      = ∑ e ∈ hits (dstColK ei) n.val, f (edgeEntry e) + f (loopEntry n) := by
  unfold hits
  refine (sum_filter_split (a := 200000) (b := 50000) (c := 250000) (by norm_num) _ f n edgeEntry loopEntry
    (fun _ => rfl) (fun _ => rfl) ?_).trans ?_
  · intro i
    show ((dstColR ei) (ix2 (loopEntry i) (0 : Fin 1))).toInt = ((n.val : ℕ) : Int) ↔ i = n
    rw [dstColR_apply, dstAll_right, toInt_ofNat_node]
    constructor
    · intro h; exact Fin.ext (Int.ofNat_inj.mp h)
    · intro h; rw [h]
  · refine congrArg (· + f (loopEntry n)) ?_
    refine Finset.sum_congr (Finset.filter_congr fun e _ => ?_) fun _ _ => rfl
    show ((dstColR ei) (ix2 (edgeEntry e) (0 : Fin 1))).toInt = ((n.val : ℕ) : Int)
      ↔ ((dstColK ei) (ix2 e (0 : Fin 1))).toInt = ((n.val : ℕ) : Int)
    rw [dstColR_apply, dstColK_apply, dstAll_left]

end Lists

end Cert.Bridge

end
-- ==== Proof.LibRowGatherScatter.lean ====
/-
  A row gather and an accumulating scatter, read at one index.

  An operand has N rows (of C columns, or of one scalar each); a list of E updates carries one integer index per
  update, an [E, 1] array of words of width w. Everything here is generic in the extents N, C, E and in w.

    • GATHER of rows: result element (e, k) is the operand's element (gatherRow e, k), where gatherRow e is update
      e's index read as a signed integer and clamped into [0, N - 1] (`gather_rows_apply`).
    • ACCUMULATING SCATTER of rows, at the ideal float instance (exact sums on the extended reals): result element
      (n, k) is the operand's element plus the sum of the updates' elements (e, k) over the updates e in
      `hits idx n`, those whose index read signed — and not clamped — is n (`scatterAdd_rows_apply`); an update
      whose index is outside [0, N) lands nowhere.
    • The same scatter with scalar updates into a vector of N entries (`scatterAdd_vec_apply`).

  The route for the scatter: an update lands on operand index i exactly when start plus window coordinate equals
  i's coordinate on every axis; for these dimension numbers the start is the update's index on the row axis and 0
  on the column axis, the window coordinate 0 on the row axis and the update's column on the column axis; the sum
  over the updates landing on (n, k) is then re-indexed along e ↦ (e, k).
-/
import Idealize.ShloMosaic.Lib.ValueIdx
import Idealize.ShloMosaic.PureOps.Ideal
import Idealize.ShloMosaic.PureOps.Contract
import proofs.«104656_j19112604467789_2_alg».proof.Proof.LibRowIndex

noncomputable section

namespace Cert.Lib

open Idealize.ShloMosaic Idealize.ShloMosaic.ValueIdx
open scoped BigOperators

variable {N C E w : Nat}

/-- Update row e lands on operand row n exactly when its scatter index, read signed, is n. -/
private theorem mem_hits (idx : IVec ⟨2, ![E, 1]⟩ w) (n : Nat) (e : Fin E) :
    e ∈ hits idx n ↔ (idx (ix2 e (0 : Fin 1))).toInt = (n : Int) := by
  unfold hits
  exact Finset.mem_filter.trans (and_iff_right (Finset.mem_univ e))

/-- An update lands on operand index i exactly when, on every axis, start plus window coordinate is i's coordinate. -/
private theorem resultIdx?_eq_some_iff {s si u : Shape} (d : ScatterDims s si u) (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro hi a
      have hi' := Option.some.inj hi
      have := congrArg (fun f => (f a).val) hi'
      simp only at this
      have h0 := (h a).1
      omega
    · intro hi
      congr 1
      funext a
      refine Fin.ext ?_
      have := hi a
      simp only
      omega
  · rename_i h
    constructor
    · intro hi; exact absurd hi (by simp)
    · intro hi
      exfalso
      apply h
      intro a
      have := hi a
      have := (i a).isLt
      omega

section Rows
variable (uw : ScatterDims.WF ⟨2, ![N, C]⟩ ⟨2, ![E, 1]⟩ ⟨2, ![E, C]⟩ [1] [0] [0] 1)

/-- The literal dimension numbers of a row scatter. -/
private abbrev rowsDims : ScatterDims ⟨2, ![N, C]⟩ ⟨2, ![E, 1]⟩ ⟨2, ![E, C]⟩ := ⟨[1], [0], [0], 1, uw⟩

/-- The scatter index update (e, k') reads is the index array's entry (e, 0). -/
private theorem rows_siIdx (j : (⟨2, ![E, C]⟩ : Shape).Idx) :
    (rowsDims uw).siIdx j ⟨List.idxOf (0 : Fin 2) (rowsDims uw).scatterDimsToOperandDims,
      List.idxOf_lt_length_iff.2 (List.mem_singleton.mpr rfl)⟩ = ix2 (j 0) (0 : Fin 1) := by
  funext b; refine Fin.ext ?_
  match b with
  | ⟨0, _⟩ => rfl
  | ⟨1, _⟩ => rfl

/-- On the row axis the window starts at update row e's index, read signed. -/
private theorem rows_start0 (j : (⟨2, ![E, C]⟩ : Shape).Idx) (idx : IVec ⟨2, ![E, 1]⟩ w) :
    (rowsDims uw).start j idx 0 = (idx (ix2 (j 0) (0 : Fin 1))).toInt := by
  unfold ScatterDims.start
  rw [dif_pos (show (0 : Fin 2) ∈ (rowsDims uw).scatterDimsToOperandDims from List.mem_singleton.mpr rfl)]
  rw [rows_siIdx]
  rfl

/-- On the column axis the window starts at 0. -/
private theorem rows_start1 (j : (⟨2, ![E, C]⟩ : Shape).Idx) (idx : IVec ⟨2, ![E, 1]⟩ w) :
    (rowsDims uw).start j idx 1 = 0 := by
  unfold ScatterDims.start
  rw [dif_neg (show (1 : Fin 2) ∉ ([0] : List (Fin 2)) by decide)]

/-- The row axis is inserted: its window coordinate is 0. -/
private theorem rows_window0 (j : (⟨2, ![E, C]⟩ : Shape).Idx) : (rowsDims uw).window j 0 = 0 := by
  unfold ScatterDims.window
  rw [dif_neg (by simp [ScatterDims.sKept, Shape.kept])]

/-- On the column axis the window coordinate is the update's column. -/
private theorem rows_window1 (j : (⟨2, ![E, C]⟩ : Shape).Idx) : (rowsDims uw).window j 1 = (j 1).val := by
  unfold ScatterDims.window
  rw [dif_pos (by simp [ScatterDims.sKept, Shape.kept])]
  rfl

end Rows

section Rows
variable (uw : ScatterDims.WF ⟨2, ![N, C]⟩ ⟨2, ![E, 1]⟩ ⟨2, ![E, C]⟩ [1] [0] [0] 1)

/-- For a row scatter, update (e, k') lands on (n, k) exactly when e's index, read signed, is n and k' = k. -/
private theorem rows_resultIdx?_iff (j : (⟨2, ![E, C]⟩ : Shape).Idx) (idx : IVec ⟨2, ![E, 1]⟩ w) (n : Fin N) (k : Fin C) :
    (rowsDims uw).resultIdx? j idx = some (ix2 n k) ↔
      (idx (ix2 (j 0) (0 : Fin 1))).toInt = (n.val : Int) ∧ j 1 = k := by
  rw [resultIdx?_eq_some_iff]
  constructor
  · intro h
    have h0 : (rowsDims uw).start j idx 0 + ((rowsDims uw).window j 0 : Int) = (n.val : Int) := h 0
    have h1 : (rowsDims uw).start j idx 1 + ((rowsDims uw).window j 1 : Int) = (k.val : Int) := h 1
    rw [rows_start0, rows_window0] at h0
    rw [rows_start1, rows_window1] at h1
    refine ⟨?_, Fin.ext ?_⟩
    · omega
    · omega
  · rintro ⟨h0, h1⟩ a
    match a with
    | ⟨0, _⟩ =>
      show (rowsDims uw).start j idx 0 + ((rowsDims uw).window j 0 : Int) = (n.val : Int)
      rw [rows_start0, rows_window0]
      omega
    | ⟨1, _⟩ =>
      show (rowsDims uw).start j idx 1 + ((rowsDims uw).window j 1 : Int) = (k.val : Int)
      rw [rows_start1, rows_window1, h1]
      omega

end Rows

/-- AN ACCUMULATING ROW SCATTER READ AT (n, k): the operand's element plus the sum, over the update rows whose index read
    signed is n, of the update's element in column k. -/
theorem scatterAdd_rows_apply {φ : FTy} (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (x : FVec Ideal ⟨2, ![N, C]⟩ φ) (idx : IVec ⟨2, ![E, 1]⟩ w)
    (upd : FVec Ideal ⟨2, ![E, C]⟩ φ) (n : Fin N) (k : Fin C) :
    Host.scatterAdd (F := Ideal) d x idx upd (ix2 n k) = x (ix2 n k) + ∑ e ∈ hits idx n.val, upd (ix2 e k) := by
  obtain ⟨uwd, iwd, sd, iv, wf⟩ := d
  dsimp only at h1 h2 h3 h4
  subst h1 h2 h3 h4
  show Ideal.hostScatterAdd (rowsDims wf) x idx upd (ix2 n k) = _
  unfold Ideal.hostScatterAdd
  congr 1
  have key : ∀ j : (⟨2, ![E, C]⟩ : Shape).Idx, (rowsDims wf).resultIdx? j idx = some (ix2 n k) → ix2 (j 0) k = j := by
    intro j hj
    have := ((rows_resultIdx?_iff wf j idx n k).1 hj).2
    rw [← this]; exact (eq_ix2 j).symm
  refine Finset.sum_nbij' (fun j => j 0) (fun e => ix2 e k) ?_ ?_ ?_ ?_ ?_
  · intro j hj
    have := (rows_resultIdx?_iff wf j idx n k).1 (Finset.mem_filter.1 hj).2
    exact (mem_hits idx n.val (j 0)).2 this.1
  · intro e he
    exact Finset.mem_filter.2 ⟨Finset.mem_univ _,
      (rows_resultIdx?_iff wf (ix2 e k) idx n k).2 ⟨(mem_hits idx n.val e).1 he, rfl⟩⟩
  · intro j hj
    exact key j (Finset.mem_filter.1 hj).2
  · intro e _; rfl
  · intro j hj
    exact congrArg upd (key j (Finset.mem_filter.1 hj).2).symm

section Vec
variable (uw : ScatterDims.WF ⟨1, ![N]⟩ ⟨2, ![E, 1]⟩ ⟨1, ![E]⟩ [] [0] [0] 1)

/-- The literal dimension numbers of a scatter of scalars into a vector. -/
private abbrev vecDims : ScatterDims ⟨1, ![N]⟩ ⟨2, ![E, 1]⟩ ⟨1, ![E]⟩ := ⟨[], [0], [0], 1, uw⟩

/-- The scatter index update e reads is the index array's entry (e, 0). -/
private theorem vec_siIdx (j : (⟨1, ![E]⟩ : Shape).Idx) :
    (vecDims uw).siIdx j ⟨List.idxOf (0 : Fin 1) (vecDims uw).scatterDimsToOperandDims,
      List.idxOf_lt_length_iff.2 (List.mem_singleton.mpr rfl)⟩ = ix2 (j 0) (0 : Fin 1) := by
  funext b; refine Fin.ext ?_
  match b with
  | ⟨0, _⟩ => rfl
  | ⟨1, _⟩ => rfl

/-- On the one operand axis the window starts at update e's index, read signed. -/
private theorem vec_start0 (j : (⟨1, ![E]⟩ : Shape).Idx) (idx : IVec ⟨2, ![E, 1]⟩ w) :
    (vecDims uw).start j idx 0 = (idx (ix2 (j 0) (0 : Fin 1))).toInt := by
  unfold ScatterDims.start
  rw [dif_pos (show (0 : Fin 1) ∈ (vecDims uw).scatterDimsToOperandDims from List.mem_singleton.mpr rfl)]
  rw [vec_siIdx]
  rfl

/-- The one operand axis is inserted: its window coordinate is 0. -/
private theorem vec_window0 (j : (⟨1, ![E]⟩ : Shape).Idx) : (vecDims uw).window j 0 = 0 := by
  unfold ScatterDims.window
  rw [dif_neg (by simp [ScatterDims.sKept, Shape.kept])]

/-- For a scatter of scalars into a vector, update e lands on n exactly when e's index, read signed, is n. -/
private theorem vec_resultIdx?_iff (j : (⟨1, ![E]⟩ : Shape).Idx) (idx : IVec ⟨2, ![E, 1]⟩ w) (n : Fin N) :
    (vecDims uw).resultIdx? j idx = some (ix1 n) ↔ (idx (ix2 (j 0) (0 : Fin 1))).toInt = (n.val : Int) := by
  rw [resultIdx?_eq_some_iff]
  constructor
  · intro h
    have h0 : (vecDims uw).start j idx 0 + ((vecDims uw).window j 0 : Int) = (n.val : Int) := h 0
    rw [vec_start0, vec_window0] at h0
    omega
  · intro h0 a
    match a with
    | ⟨0, _⟩ =>
      show (vecDims uw).start j idx 0 + ((vecDims uw).window j 0 : Int) = (n.val : Int)
      rw [vec_start0, vec_window0]
      omega

end Vec

/-- AN ACCUMULATING SCATTER OF SCALARS INTO A VECTOR READ AT n: the operand's element plus the sum of the updates whose
    index read signed is n. -/
theorem scatterAdd_vec_apply {φ : FTy} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (x : FVec Ideal ⟨1, ![N]⟩ φ) (idx : IVec ⟨2, ![E, 1]⟩ w)
    (upd : FVec Ideal ⟨1, ![E]⟩ φ) (n : Fin N) :
    Host.scatterAdd (F := Ideal) d x idx upd (ix1 n) = x (ix1 n) + ∑ e ∈ hits idx n.val, upd (ix1 e) := by
  obtain ⟨uwd, iwd, sd, iv, wf⟩ := d
  dsimp only at h1 h2 h3 h4
  subst h1 h2 h3 h4
  show Ideal.hostScatterAdd (vecDims wf) x idx upd (ix1 n) = _
  unfold Ideal.hostScatterAdd
  congr 1
  refine Finset.sum_nbij' (fun j => j 0) (fun e => ix1 e) ?_ ?_ ?_ ?_ ?_
  · intro j hj
    have := (vec_resultIdx?_iff wf j idx n).1 (Finset.mem_filter.1 hj).2
    exact (mem_hits idx n.val (j 0)).2 this
  · intro e he
    exact Finset.mem_filter.2 ⟨Finset.mem_univ _, (vec_resultIdx?_iff wf (ix1 e) idx n).2 ((mem_hits idx n.val e).1 he)⟩
  · intro j _
    exact (eq_ix1 j).symm
  · intro e _; rfl
  · intro j _
    exact congrArg upd (eq_ix1 j)

section Gather
variable {α : Type}

section Dims
variable (ss : Fin 2 → Nat)
  (gw : GatherDims.WF ⟨2, ![N, C]⟩ ⟨2, ![E, 1]⟩ ⟨2, ![E, C]⟩ [1] [0] [] [0] [] 1 ss)

/-- The literal dimension numbers of a row gather, at any slice sizes. -/
private abbrev gRowsDims : GatherDims ⟨2, ![N, C]⟩ ⟨2, ![E, 1]⟩ ⟨2, ![E, C]⟩ := ⟨[1], [0], [], [], [0], 1, ss, gw⟩

/-- The start index result row e reads is the index array's entry (e, 0). -/
private theorem gRows_siIdx (j : (⟨2, ![E, C]⟩ : Shape).Idx) :
    (gRowsDims ss gw).siIdx j ⟨List.idxOf (0 : Fin 2) (gRowsDims ss gw).startIndexMap,
      List.idxOf_lt_length_iff.2 (List.mem_singleton.mpr rfl)⟩ = ix2 (j 0) (0 : Fin 1) := by
  funext b; refine Fin.ext ?_
  match b with
  | ⟨0, _⟩ => rfl
  | ⟨1, _⟩ => rfl

include gw in
/-- On the row axis the slice has one row. -/
private theorem gRows_slice0 : ss 0 = 1 :=
  (gRowsDims ss gw).slice_collapsed 0 (List.mem_singleton.mpr rfl)

/-- On the row axis the operand coordinate is the start index, read signed and clamped into [0, N - 1]. -/
private theorem gRows_coord0 (j : (⟨2, ![E, C]⟩ : Shape).Idx) (idx : IVec ⟨2, ![E, 1]⟩ w) :
    (gRowsDims ss gw).start j idx 0 + (gRowsDims ss gw).batchCoord j 0 + (gRowsDims ss gw).offCoord j 0
      = min (idx (ix2 (j 0) (0 : Fin 1))).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (gRowsDims ss gw).startIndexMap from List.mem_singleton.mpr rfl)]
  rw [gRows_siIdx]
  show min _ (N - ss 0) = _
  rw [gRows_slice0 ss gw]
  rfl

/-- On the column axis the operand coordinate is the result's column. -/
private theorem gRows_coord1 (j : (⟨2, ![E, C]⟩ : Shape).Idx) (idx : IVec ⟨2, ![E, 1]⟩ w) :
    (gRowsDims ss gw).start j idx 1 + (gRowsDims ss gw).batchCoord j 1 + (gRowsDims ss gw).offCoord j 1
      = (j 1).val := by
  rw [GatherDims.batchCoord_eq_zero _ _ _ List.not_mem_nil]
  unfold GatherDims.start
  rw [dif_neg (show (1 : Fin 2) ∉ ([0] : List (Fin 2)) by decide)]
  unfold GatherDims.offCoord
  rw [dif_pos (by simp [GatherDims.sKept, Shape.kept])]
  simp only [Nat.add_zero, Nat.zero_add]
  rfl

end Dims

/-- A ROW GATHER READ AT (e, k): the operand's element in column k of the row that update row e's start index, read
    signed and clamped into [0, N - 1], names. -/
theorem gather_rows_apply (hN : 0 < N) (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (x : (⟨2, ![N, C]⟩ : Shape).Idx → α) (idx : IVec ⟨2, ![E, 1]⟩ w) (e : Fin E) (k : Fin C) :
    Host.gather d x idx (ix2 e k) = x (ix2 (gatherRow hN idx e) k) := by
  obtain ⟨od, cd, ob, sb, sm, iv, ss, wf⟩ := d
  dsimp only at h1 h2 h3 h4 h5 h6
  subst h1 h2 h3 h4 h5 h6
  show x ((gRowsDims ss wf).operandIdx (ix2 e k) idx) = _
  congr 1
  funext a
  refine Fin.ext ?_
  match a with
  | ⟨0, _⟩ => exact gRows_coord0 ss wf (ix2 e k) idx
  | ⟨1, _⟩ => exact gRows_coord1 ss wf (ix2 e k) idx

end Gather

end Cert.Lib

end
-- ==== Proof.LibColumn.lean ====
/-
  Two layout operations read at an index, for a vector kept as a column: the reshape of an [a] array to an
  [a, 1] column, and the broadcast of an [a, 1] column over b columns.  (The row forms [a] → [1, a] and
  [1, b] → [a, b] are in the library; a sum with keepdims along the last axis produces the column forms.)
-/
import Idealize.ShloMosaic.Lib.Pipeline.Value
import Idealize.ShloMosaic.Lib.ValueIdx

namespace Idealize.ShloMosaic.ColumnLayout

open Idealize.ShloMosaic Idealize.ShloMosaic.ValueIdx

variable {α : Type}

/-- An `[a]` array cast to a column `[a, 1]` reads, at `(i, u)`, the operand at `i`, whatever the unit coordinate `u`:
    both positions have the same row-major rank. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnLayout
-- ==== Proof.DegDis.lean ====
/-
  The degree and the scaling dis = deg^(-1/2) are the same on the two sides, and dis is a nonnegative real.

  The kernel counts the edges into a node and adds one; the reference counts the entries into a node over the list
  "edges, then one self-loop per node". The n-th self-loop is the one extra entry into node n, so both degrees are
  (number of edges into n) + 1, a real number at least 1. Hence the reference's guards (deg > 0, max deg 1) do nothing,
  and both sides' dis_n is the real (√(deg_n))⁻¹ ≥ 0.
-/
import proofs.«104656_j19112604467789_2_alg».proof.Proof.BridgeIndex
import proofs.«104656_j19112604467789_2_alg».proof.Proof.LibRowGatherScatter
import proofs.«104656_j19112604467789_2_alg».proof.Proof.LibColumn
import Idealize.ShloMosaic.PureOps.Ideal.Laws

noncomputable section

namespace Cert.Bridge

open Idealize.ShloMosaic Idealize.ShloMosaic.ValueIdx Cert.Lib
open scoped BigOperators

/-- A float constant broadcast to any shape reads the constant's value everywhere. -/
theorem splat_apply {T : Shape} (h : (⟨0, ![]⟩ : Shape).BroadcastsInDim T ![]) (b : BitVec 32) (j : T.Idx) :
    broadcastInDim T ![] h (constant (F := Ideal) ⟨0, ![]⟩ .f32 b) j = Ideal.ofBits .f32 b := by
  rw [broadcastInDim_scalar_apply]; rfl

/-- The host's reciprocal square root, entry by entry. -/
theorem hostRsqrt_apply {s : Shape} (x : FVec Ideal s .f32) (i : s.Idx) : Host.rsqrt x i = Ideal.rsqrt (x i) := rfl

variable (ei : IVec ⟨2, ![2, 200000]⟩ 32)

/-- The number of edges into node n. -/
def inDeg (n : Fin 50000) : ℕ := (hits (dstColK ei) n.val).card

/-- The real scaling of node n: (√(inDeg n + 1))⁻¹. -/
def disReal (n : Fin 50000) : ℝ := (Real.sqrt ((inDeg ei n : ℝ) + 1))⁻¹

theorem disReal_nonneg (n : Fin 50000) : 0 ≤ disReal ei n := inv_nonneg.mpr (Real.sqrt_nonneg _)

/-- The kernel's degree of node n is the real inDeg n + 1. -/
theorem kdeg_apply (n : Fin 50000) :
    Cert.KernelIdeal.Stage.deg (F := Ideal) ei (ix1 n) = (((inDeg ei n : ℝ) + 1 : ℝ) : EReal) := by
  unfold Cert.KernelIdeal.Stage.deg
  rw [addf_apply, scatterAdd_vec_apply Cert.KernelIdeal.scatter_S50000_S200000x1_S200000_n_0_0_1 rfl rfl rfl rfl,
    splat_apply, splat_apply, Ideal.ofBits_zero_f32, Ideal.ofBits_one_f32, zero_add]
  rw [Finset.sum_congr rfl (fun e _ => (splat_apply _ _ (ix1 e)).trans Ideal.ofBits_one_f32 :
    ∀ e ∈ hits _ n.val, broadcastInDim Cert.KernelIdeal.S200000 ![] Cert.KernelIdeal.Gen.bcast_S_S200000
      (constant (F := Ideal) Cert.KernelIdeal.S_ .f32 0x3F800000#32) (ix1 e) = (1 : EReal))]
  rw [sum_one, EReal.coe_add, EReal.coe_one]
  rfl

/-- The reference's degree of node n is the same real. -/
theorem rdeg_apply (n : Fin 50000) :
    Cert.ReferenceIdeal.Stage.deg (F := Ideal) ei (ix1 n) = (((inDeg ei n : ℝ) + 1 : ℝ) : EReal) := by
  unfold Cert.ReferenceIdeal.Stage.deg
  rw [scatterAdd_vec_apply Cert.ReferenceIdeal.scatter_S50000_S250000x1_S250000_n_0_0_1 rfl rfl rfl rfl,
    splat_apply, Ideal.ofBits_zero_f32, zero_add]
  rw [Finset.sum_congr rfl (fun e _ => (splat_apply _ _ (ix1 e)).trans Ideal.ofBits_one_f32 :
    ∀ e ∈ hits _ n.val, broadcastInDim Cert.ReferenceIdeal.S250000 ![] Cert.ReferenceIdeal.Gen.bcast_S_S250000
      (constant (F := Ideal) Cert.ReferenceIdeal.S_ .f32 0x3F800000#32) (ix1 e) = (1 : EReal))]
  exact ((sum_hits_all ei n (fun _ => (1 : EReal))).trans (by rw [sum_one, EReal.coe_add, EReal.coe_one]; rfl))

/-- A positive real's reciprocal square root, on the extended reals, is the real one. -/
theorem rsqrt_coe_pos (r : ℝ) (hr : 0 < r) : Ideal.rsqrt (r : EReal) = (((Real.sqrt r)⁻¹ : ℝ) : EReal) := by
  rw [Ideal.rsqrt_coe, if_neg (not_lt.mpr hr.le), if_neg hr.ne']

theorem deg_pos (n : Fin 50000) : (0 : ℝ) < (inDeg ei n : ℝ) + 1 := by positivity

/-- The kernel's scaling column at row n is the real disReal n. -/
theorem kdis_apply (n : Fin 50000) :
    Cert.KernelIdeal.Stage.disCol (F := Ideal) ei (ix2 n (0 : Fin 1)) = ((disReal ei n : ℝ) : EReal) := by
  unfold Cert.KernelIdeal.Stage.disCol
  rw [ColumnLayout.shapeCast_a_a1_apply, hostRsqrt_apply, kdeg_apply, rsqrt_coe_pos _ (deg_pos ei n)]
  rfl

/-- The reference's scaling at node n is the same real. -/
theorem rdis_apply (n : Fin 50000) :
    Cert.ReferenceIdeal.Stage.dis (F := Ideal) ei (ix1 n) = ((disReal ei n : ℝ) : EReal) := by
  unfold Cert.ReferenceIdeal.Stage.dis
  rw [select_apply, cmpf_apply, hostRsqrt_apply, maximumf_apply, splat_apply, splat_apply, rdeg_apply,
    Ideal.ofBits_zero_f32, Ideal.ofBits_one_f32]
  have hpos : (0 : EReal) < (((inDeg ei n : ℝ) + 1 : ℝ) : EReal) := EReal.coe_pos.mpr (deg_pos ei n)
  have hone : (1 : EReal) ≤ (((inDeg ei n : ℝ) + 1 : ℝ) : EReal) := by
    rw [← EReal.coe_one]; exact EReal.coe_le_coe_iff.mpr (by have : (0 : ℝ) ≤ (inDeg ei n : ℝ) := Nat.cast_nonneg _; linarith)
  rw [Ideal.cmpf_def, max_eq_left hone, rsqrt_coe_pos _ (deg_pos ei n)]
  unfold Ideal.cmp
  simp only [hpos, decide_true, BitVec.ofBool_true]
  exact if_pos rfl

end Cert.Bridge

end
-- ==== Proof.LibVecGather.lean ====
/-
  A gather of scalars out of a vector, read at an index.

  What `x[idx]` of a flat array x : [N] at a list of E integer indices lowers to: a gather whose start indices are an
  [E, 1] array of words, the operand's one axis collapsed, slice size 1. Result entry e is x at the row the start index
  names once read as a signed integer and clamped into [0, N - 1] (`gatherRow`).
-/
import Idealize.ShloMosaic.Lib.ValueIdx
import Idealize.ShloMosaic.PureOps.Ideal
import proofs.«104656_j19112604467789_2_alg».proof.Proof.LibRowIndex

noncomputable section

namespace Cert.Lib

open Idealize.ShloMosaic Idealize.ShloMosaic.ValueIdx

variable {N E w : Nat} {α : Type}

section Dims
variable (ss : Fin 1 → Nat)
  (gw : GatherDims.WF ⟨1, ![N]⟩ ⟨2, ![E, 1]⟩ ⟨1, ![E]⟩ [] [0] [] [0] [] 1 ss)

/-- The literal dimension numbers of a gather of scalars, at any slice size. -/
private abbrev gVecDims : GatherDims ⟨1, ![N]⟩ ⟨2, ![E, 1]⟩ ⟨1, ![E]⟩ := ⟨[], [0], [], [], [0], 1, ss, gw⟩

/-- The start index result entry e reads is the index array's entry (e, 0). -/
private theorem gVec_siIdx (j : (⟨1, ![E]⟩ : Shape).Idx) :
    (gVecDims ss gw).siIdx j ⟨List.idxOf (0 : Fin 1) (gVecDims ss gw).startIndexMap,
      List.idxOf_lt_length_iff.2 (List.mem_singleton.mpr rfl)⟩ = ix2 (j 0) (0 : Fin 1) := by
  funext b; refine Fin.ext ?_
  match b with
  | ⟨0, _⟩ => rfl
  | ⟨1, _⟩ => rfl

include gw in
/-- The slice has one entry. -/
private theorem gVec_slice0 : ss 0 = 1 :=
  (gVecDims ss gw).slice_collapsed 0 (List.mem_singleton.mpr rfl)

/-- The operand coordinate is the start index, read signed and clamped into [0, N - 1]. -/
private theorem gVec_coord0 (j : (⟨1, ![E]⟩ : Shape).Idx) (idx : IVec ⟨2, ![E, 1]⟩ w) :
    (gVecDims ss gw).start j idx 0 + (gVecDims ss gw).batchCoord j 0 + (gVecDims ss gw).offCoord j 0
      = min (idx (ix2 (j 0) (0 : Fin 1))).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gVecDims ss gw).startIndexMap from List.mem_singleton.mpr rfl)]
  rw [gVec_siIdx]
  show min _ (N - ss 0) = _
  rw [gVec_slice0 ss gw]
  rfl

end Dims

/-- A GATHER OF SCALARS READ AT e: the operand's entry at the row that e's start index, read signed and clamped into
    [0, N - 1], names. -/
theorem gather_vec_apply (hN : 0 < N) (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (x : (⟨1, ![N]⟩ : Shape).Idx → α) (idx : IVec ⟨2, ![E, 1]⟩ w) (e : Fin E) :
    Host.gather d x idx (ix1 e) = x (ix1 (gatherRow hN idx e)) := by
  obtain ⟨od, cd, ob, sb, sm, iv, ss, wf⟩ := d
  dsimp only at h1 h2 h3 h4 h5 h6
  subst h1 h2 h3 h4 h5 h6
  show x ((gVecDims ss wf).operandIdx (ix1 e) idx) = _
  congr 1
  funext a
  refine Fin.ext ?_
  match a with
  | ⟨0, _⟩ => exact gVec_coord0 ss wf (ix1 e) idx

end Cert.Lib

end
-- ==== Proof.Layer.lean ====
/-
  One graph-convolution layer is the same function of the product h = (features)·W on the two sides.

  Kernel:     relu ( dis_n · ( (0 + Σ_{edges e into n} h[src e]·dis[src e]) + h[n]·dis[n] ) + b ).
  Reference:  relu ( (0 + Σ_{entries into n} h[source]·(dis[source]·dis[destination])) + b ),
  the entries being the edges followed by one self-loop per node. The entries into n are the edges into n, whose
  destination reads row n, and the n-th self-loop, whose source and destination both read row n; dis_n is a nonnegative
  real, which distributes over the sum.
-/
import proofs.«104656_j19112604467789_2_alg».proof.Proof.DegDis
import proofs.«104656_j19112604467789_2_alg».proof.Proof.LibVecGather

noncomputable section

namespace Cert.Bridge

open Idealize.ShloMosaic Idealize.ShloMosaic.ValueIdx Cert.Lib
open scoped BigOperators

variable (ei : IVec ⟨2, ![2, 200000]⟩ 32)

/-- The row an index column reads at entry e, when its word there is `wrap a`. -/
theorem gatherRow_eq {E : ℕ} (idx : IVec ⟨2, ![E, 1]⟩ 32) (e : Fin E) (a : BitVec 32)
    (h : idx (ix2 e (0 : Fin 1)) = wrap a) : gatherRow (N := 50000) (by norm_num) idx e = rowOf a := by
  refine Fin.ext ?_
  show min (idx (ix2 e (0 : Fin 1))).toInt.toNat (50000 - 1) = min (wrap a).toInt.toNat (50000 - 1)
  rw [h]

/-- The row edge e reads: its source, wrapped and clamped. -/
def srcRow (e : Fin 200000) : Fin 50000 := rowOf (Cert.KernelIdeal.Stage.src (F := Ideal) ei (ix1 e))

theorem rowK (e : Fin 200000) :
    gatherRow (N := 50000) (by norm_num) (Cert.KernelIdeal.Stage.srcRead (F := Ideal) ei) e = srcRow ei e :=
  gatherRow_eq _ e _ (srcRead_apply ei e)

theorem rowR_src_edge (e : Fin 200000) :
    gatherRow (N := 50000) (by norm_num) (Cert.ReferenceIdeal.Stage.readIdx (F := Ideal) (Cert.ReferenceIdeal.Stage.srcAll (F := Ideal) ei)) (edgeEntry e)
      = srcRow ei e :=
  gatherRow_eq _ _ _ ((readIdx_apply _ _).trans (congrArg wrap (srcAll_left ei e)))

theorem rowR_src_loop (i : Fin 50000) :
    gatherRow (N := 50000) (by norm_num) (Cert.ReferenceIdeal.Stage.readIdx (F := Ideal) (Cert.ReferenceIdeal.Stage.srcAll (F := Ideal) ei)) (loopEntry i) = i :=
  (gatherRow_eq _ _ _ ((readIdx_apply _ _).trans (congrArg wrap (srcAll_right ei i)))).trans
    (rowOf_of_toInt _ i (toInt_ofNat_node i))

theorem rowR_dst_edge (n : Fin 50000) (e : Fin 200000) (he : e ∈ hits (dstColK ei) n.val) :
    gatherRow (N := 50000) (by norm_num) (Cert.ReferenceIdeal.Stage.readIdx (F := Ideal) (Cert.ReferenceIdeal.Stage.dstAll (F := Ideal) ei)) (edgeEntry e) = n :=
  (gatherRow_eq _ _ _ ((readIdx_apply _ _).trans (congrArg wrap (dstAll_left ei e)))).trans
    (rowOf_of_toInt _ n ((mem_hitsK ei n e).mp he))

theorem rowR_dst_loop (i : Fin 50000) :
    gatherRow (N := 50000) (by norm_num) (Cert.ReferenceIdeal.Stage.readIdx (F := Ideal) (Cert.ReferenceIdeal.Stage.dstAll (F := Ideal) ei)) (loopEntry i) = i :=
  (gatherRow_eq _ _ _ ((readIdx_apply _ _).trans (congrArg wrap (dstAll_right ei i)))).trans
    (rowOf_of_toInt _ i (toInt_ofNat_node i))

/-- The reference's weight of entry e': the product of the scalings at the rows its source and destination read. -/
theorem norm_apply (e' : Fin 250000) :
    Cert.ReferenceIdeal.Stage.norm (F := Ideal) ei (ix1 e')
      = ((disReal ei (gatherRow (N := 50000) (by norm_num) (Cert.ReferenceIdeal.Stage.readIdx (F := Ideal) (Cert.ReferenceIdeal.Stage.srcAll (F := Ideal) ei)) e') : ℝ) : EReal)
        * ((disReal ei (gatherRow (N := 50000) (by norm_num) (Cert.ReferenceIdeal.Stage.readIdx (F := Ideal) (Cert.ReferenceIdeal.Stage.dstAll (F := Ideal) ei)) e') : ℝ) : EReal) := by
  unfold Cert.ReferenceIdeal.Stage.norm
  rw [mulf_apply,
    gather_vec_apply (by norm_num) Cert.ReferenceIdeal.gather_S50000_S250000x1_S250000_n_0_n_n_0_1_1 rfl rfl rfl rfl rfl rfl,
    gather_vec_apply (by norm_num) Cert.ReferenceIdeal.gather_S50000_S250000x1_S250000_n_0_n_n_0_1_1 rfl rfl rfl rfl rfl rfl,
    rdis_apply, rdis_apply]

/-- The kernel's neighbourhood term at (n, k). -/
theorem kcore_apply (hp : FVec Ideal ⟨2, ![50000, 1024]⟩ .f32) (n : Fin 50000) (k : Fin 1024) :
    mulf (broadcastInDim Cert.KernelIdeal.S50000x1024 ![0, 1] Cert.KernelIdeal.Gen.bcast_S50000x1_S50000x1024_0_1 (Cert.KernelIdeal.Stage.disCol (F := Ideal) ei))
        (addf
          (Host.scatterAdd Cert.KernelIdeal.scatter_S50000x1024_S200000x1_S200000x1024_1_0_0_1
            (broadcastInDim Cert.KernelIdeal.S50000x1024 ![] Cert.KernelIdeal.Gen.bcast_S_S50000x1024 (constant Cert.KernelIdeal.S_ .f32 0x00000000#32))
            (broadcastInDim Cert.KernelIdeal.S200000x1 ![0] Cert.KernelIdeal.Gen.bcast_S200000_S200000x1_0 (Cert.KernelIdeal.Stage.dst (F := Ideal) ei))
            (Host.gather Cert.KernelIdeal.gather_S50000x1024_S200000x1_S200000x1024_1_0_n_n_0_1_11024 hp (Cert.KernelIdeal.Stage.srcRead (F := Ideal) ei)))
          hp) (ix2 n k)
      = ((disReal ei n : ℝ) : EReal)
        * ((0 + ∑ e ∈ hits (dstColK ei) n.val, hp (ix2 (srcRow ei e) k)) + hp (ix2 n k)) := by
  rw [mulf_apply, colRepeat_apply, kdis_apply, addf_apply,
    scatterAdd_rows_apply Cert.KernelIdeal.scatter_S50000x1024_S200000x1_S200000x1024_1_0_0_1 rfl rfl rfl rfl,
    splat_apply, Ideal.ofBits_zero_f32]
  refine congrArg (fun s => ((disReal ei n : ℝ) : EReal) * ((0 + s) + hp (ix2 n k))) ?_
  refine Finset.sum_congr rfl fun e _ => ?_
  rw [gather_rows_apply (by norm_num) Cert.KernelIdeal.gather_S50000x1024_S200000x1_S200000x1024_1_0_n_n_0_1_11024 rfl rfl rfl rfl rfl rfl, rowK]

/-- The reference's neighbourhood term at (n, k). -/
theorem rcore_apply (h : FVec Ideal ⟨2, ![50000, 1024]⟩ .f32) (n : Fin 50000) (k : Fin 1024) :
    Host.scatterAdd Cert.ReferenceIdeal.scatter_S50000x1024_S250000x1_S250000x1024_1_0_0_1
        (broadcastInDim Cert.ReferenceIdeal.S50000x1024 ![] Cert.ReferenceIdeal.Gen.bcast_S_S50000x1024 (constant Cert.ReferenceIdeal.S_ .f32 0x00000000#32))
        (broadcastInDim Cert.ReferenceIdeal.S250000x1 ![0] Cert.ReferenceIdeal.Gen.bcast_S250000_S250000x1_0 (Cert.ReferenceIdeal.Stage.dstAll (F := Ideal) ei))
        (mulf (Host.gather Cert.ReferenceIdeal.gather_S50000x1024_S250000x1_S250000x1024_1_0_n_n_0_1_11024 h (Cert.ReferenceIdeal.Stage.readIdx (F := Ideal) (Cert.ReferenceIdeal.Stage.srcAll (F := Ideal) ei)))
          (broadcastInDim Cert.ReferenceIdeal.S250000x1024 ![0, 1] Cert.ReferenceIdeal.Gen.bcast_S250000x1_S250000x1024_0_1
            (broadcastInDim Cert.ReferenceIdeal.S250000x1 ![0] Cert.ReferenceIdeal.Gen.bcast_S250000_S250000x1_0 (Cert.ReferenceIdeal.Stage.norm (F := Ideal) ei)))) (ix2 n k)
      = 0 + (∑ e ∈ hits (dstColK ei) n.val, h (ix2 (srcRow ei e) k) * (((disReal ei (srcRow ei e) : ℝ) : EReal) * ((disReal ei n : ℝ) : EReal))
          + h (ix2 n k) * (((disReal ei n : ℝ) : EReal) * ((disReal ei n : ℝ) : EReal))) := by
  rw [scatterAdd_rows_apply Cert.ReferenceIdeal.scatter_S50000x1024_S250000x1_S250000x1024_1_0_0_1 rfl rfl rfl rfl,
    splat_apply, Ideal.ofBits_zero_f32]
  refine congrArg (fun s => (0 : EReal) + s) ?_
  show ∑ e ∈ hits (dstColR ei) n.val, _ = _
  rw [sum_hits_all ei n]
  refine congrArg₂ (· + ·) (Finset.sum_congr rfl fun e he => ?_) ?_
  · rw [mulf_apply, gather_rows_apply (by norm_num) Cert.ReferenceIdeal.gather_S50000x1024_S250000x1_S250000x1024_1_0_n_n_0_1_11024 rfl rfl rfl rfl rfl rfl,
      colRepeat_apply, col_apply, norm_apply, rowR_src_edge, rowR_dst_edge ei n e he]
  · rw [mulf_apply, gather_rows_apply (by norm_num) Cert.ReferenceIdeal.gather_S50000x1024_S250000x1_S250000x1024_1_0_n_n_0_1_11024 rfl rfl rfl rfl rfl rfl,
      colRepeat_apply, col_apply, norm_apply, rowR_src_loop, rowR_dst_loop]

/-- ONE LAYER: the kernel's host half applied to the scaled product is the reference's layer applied to the product. -/
theorem layer_eq (h : FVec Ideal ⟨2, ![50000, 1024]⟩ .f32) (b : FVec Ideal ⟨1, ![1024]⟩ .f32) :
    Cert.KernelIdeal.Stage.layer (F := Ideal) ei (fun j => h j * Cert.KernelIdeal.Stage.disCol (F := Ideal) ei (ix2 (j 0) (0 : Fin 1))) b
      = Cert.ReferenceIdeal.Stage.layer (F := Ideal) ei h b := by
  unfold Cert.KernelIdeal.Stage.layer Cert.ReferenceIdeal.Stage.layer
  refine congrArg₂ maximumf (congrArg₂ addf ?_ rfl) rfl
  funext j
  obtain ⟨n, k, rfl⟩ : ∃ (n : Fin 50000) (k : Fin 1024), j = ix2 n k := ⟨j 0, j 1, eq_ix2 j⟩
  rw [kcore_apply, rcore_apply]
  have hrow : ∀ i : Fin 50000, (fun j : (⟨2, ![50000, 1024]⟩ : Shape).Idx => h j * Cert.KernelIdeal.Stage.disCol (F := Ideal) ei (ix2 (j 0) (0 : Fin 1))) (ix2 i k)
      = h (ix2 i k) * ((disReal ei i : ℝ) : EReal) := fun i => by
    show h (ix2 i k) * Cert.KernelIdeal.Stage.disCol (F := Ideal) ei (ix2 i (0 : Fin 1)) = _
    rw [kdis_apply]
  simp only [hrow]
  exact scale_neighbourhood (disReal ei n) (disReal_nonneg ei n) (hits (dstColK ei) n.val)
    (fun e => h (ix2 (srcRow ei e) k)) (fun e => ((disReal ei (srcRow ei e) : ℝ) : EReal)) (h (ix2 n k))

end Cert.Bridge

end
-- ==== Proof.Products.lean ====
/-
  The three launches against the reference's matrix products.

  At the exact instance a change of float format is the identity and a matrix product is the plain sum over the
  contracted index, so each of the first two launches is the reference's product with row i scaled by d_i, and the third
  is the reference's two products with the bias rows added and the hidden layer clamped at zero.
-/
import proofs.«104656_j19112604467789_2_alg».proof.Proof.KStages
import proofs.«104656_j19112604467789_2_alg».proof.Proof.RefRead

noncomputable section

namespace Cert.Bridge

open Idealize.ShloMosaic Idealize.ShloMosaic.ValueIdx
open scoped BigOperators

/-- Two spellings of the index (a, b) of a matrix. -/
theorem ix2_eq_match {n0 n1 : ℕ} (a : Fin n0) (b : Fin n1) (f : (⟨2, ![n0, n1]⟩ : Shape).Idx)
    (h0 : (f 0).val = a.val) (h1 : (f 1).val = b.val) : f = ix2 a b := by
  funext d
  match d with
  | ⟨0, _⟩ => exact Fin.ext h0
  | ⟨1, _⟩ => exact Fin.ext h1

/-- The first launch is the reference's first product, row i scaled by d_i. -/
theorem product0_eq (x1 : FVec Ideal ⟨2, ![50000, 1536]⟩ .f32) (x4 : FVec Ideal ⟨2, ![1536, 1024]⟩ .f32) (d : FVec Ideal ⟨2, ![50000, 1]⟩ .f32) :
    Cert.KernelIdeal.Stage.scaledProduct0 x1 (truncf .bf16 x4 Cert.KernelIdeal.Gen.bitsLt_bf16_f32) d
      = fun j => Cert.ReferenceIdeal.Read.val_main_v32 (F := Ideal) x1 x4 j * d (ix2 (j 0) (0 : Fin 1)) := by
  funext j
  rw [Cert.ReferenceIdeal.Read.val_main_v32_apply]
  unfold Cert.KernelIdeal.Stage.scaledProduct0
  refine congrArg (· * d (ix2 (j 0) (0 : Fin 1))) (Finset.sum_congr rfl fun k _ => ?_)
  rw [truncf_apply, ix2_eq_match (j 0) k (Cert.ReferenceIdeal.Read.lidx_main_v32 j k) rfl rfl,
    ix2_eq_match k (j 1) (Cert.ReferenceIdeal.Read.ridx_main_v32 j k) rfl rfl]
  rfl

/-- The second launch is the reference's second product, row i scaled by d_i. -/
theorem product1_eq (x1 : FVec Ideal ⟨2, ![50000, 1536]⟩ .f32) (x2 : IVec ⟨2, ![2, 200000]⟩ 32) (x4 : FVec Ideal ⟨2, ![1536, 1024]⟩ .f32) (x5 : FVec Ideal ⟨1, ![1024]⟩ .f32) (x6 : FVec Ideal ⟨2, ![1024, 1024]⟩ .f32) (d : FVec Ideal ⟨2, ![50000, 1]⟩ .f32) :
    Cert.KernelIdeal.Stage.scaledProduct1 (Cert.ReferenceIdeal.Read.val_main_v49 (F := Ideal) x1 x2 x4 x5) (truncf .bf16 x6 Cert.KernelIdeal.Gen.bitsLt_bf16_f32) d
      = fun j => Cert.ReferenceIdeal.Read.val_main_v50 (F := Ideal) x1 x2 x4 x5 x6 j * d (ix2 (j 0) (0 : Fin 1)) := by
  funext j
  rw [Cert.ReferenceIdeal.Read.val_main_v50_apply]
  unfold Cert.KernelIdeal.Stage.scaledProduct1
  refine congrArg (· * d (ix2 (j 0) (0 : Fin 1))) (Finset.sum_congr rfl fun k _ => ?_)
  rw [truncf_apply, ix2_eq_match (j 0) k (Cert.ReferenceIdeal.Read.lidx_main_v50 j k) rfl rfl,
    ix2_eq_match k (j 1) (Cert.ReferenceIdeal.Read.ridx_main_v50 j k) rfl rfl]
  rfl

/-- A vector laid out as one row [1, b] reads, at (0, c), its entry c. -/
theorem row_apply {α : Type} {b : ℕ} (x : (⟨1, ![b]⟩ : Shape).Idx → α) (h : (⟨1, ![b]⟩ : Shape).ShapeCasts ⟨2, ![1, b]⟩)
    (c : Fin b) : shapeCast ⟨2, ![1, b]⟩ x h (ix2 (0 : Fin 1) c) = x (ix1 c) :=
  shapeCast_apply x h _ _ (by
    rw [Shape.rowMajor_val_two, Shape.rowMajor_val_one]
    show c.val = 0 * b + c.val
    rw [Nat.zero_mul, Nat.zero_add])

/-- The third launch is the reference's perceptron on the combined rows. -/
theorem perceptron_eq (x0 : FVec Ideal ⟨2, ![64, 1536]⟩ .f32) (x1 : FVec Ideal ⟨2, ![50000, 1536]⟩ .f32) (x2 : IVec ⟨2, ![2, 200000]⟩ 32) (x3 : IVec ⟨1, ![50000]⟩ 32) (x4 : FVec Ideal ⟨2, ![1536, 1024]⟩ .f32) (x5 : FVec Ideal ⟨1, ![1024]⟩ .f32) (x6 : FVec Ideal ⟨2, ![1024, 1024]⟩ .f32) (x7 : FVec Ideal ⟨1, ![1024]⟩ .f32) (x8 : FVec Ideal ⟨2, ![2560, 1024]⟩ .f32) (x9 : FVec Ideal ⟨1, ![1024]⟩ .f32) (x10 : FVec Ideal ⟨2, ![1024, 80]⟩ .f32) (x11 : FVec Ideal ⟨1, ![80]⟩ .f32) :
    Cert.KernelIdeal.Stage.perceptron (Cert.ReferenceIdeal.Read.val_main_v80 (F := Ideal) x0 x1 x2 x3 x4 x5 x6 x7)
        (truncf .bf16 x8 Cert.KernelIdeal.Gen.bitsLt_bf16_f32) (shapeCast _ x9 Cert.KernelIdeal.Gen.shapeCasts_S1024_S1x1024)
        (truncf .bf16 x10 Cert.KernelIdeal.Gen.bitsLt_bf16_f32) (shapeCast _ x11 Cert.KernelIdeal.Gen.shapeCasts_S80_S1x80)
      = Cert.ReferenceIdeal.Read.val_main_v89 (F := Ideal) x0 x1 x2 x3 x4 x5 x6 x7 x8 x9 x10 x11 := by
  funext j
  obtain ⟨p, q, rfl⟩ : ∃ (p : Fin 64) (q : Fin 80), j = ix2 p q := ⟨j 0, j 1, eq_ix2 j⟩
  show (∑ l : Fin 1024,
      max ((∑ k : Fin 2560, Cert.ReferenceIdeal.Read.val_main_v80 (F := Ideal) x0 x1 x2 x3 x4 x5 x6 x7 (ix2 p k)
              * (truncf .bf16 x8 Cert.KernelIdeal.Gen.bitsLt_bf16_f32 : FVec Ideal ⟨2, ![2560, 1024]⟩ .bf16) (ix2 k l))
            + shapeCast ⟨2, ![1, 1024]⟩ x9 Cert.KernelIdeal.Gen.shapeCasts_S1024_S1x1024 (ix2 (0 : Fin 1) l)) (Ideal.ofBits .f32 0x00000000#32)
        * (truncf .bf16 x10 Cert.KernelIdeal.Gen.bitsLt_bf16_f32 : FVec Ideal ⟨2, ![1024, 80]⟩ .bf16) (ix2 l q))
      + shapeCast ⟨2, ![1, 80]⟩ x11 Cert.KernelIdeal.Gen.shapeCasts_S80_S1x80 (ix2 (0 : Fin 1) q)
    = Cert.ReferenceIdeal.Read.val_main_v89 (F := Ideal) x0 x1 x2 x3 x4 x5 x6 x7 x8 x9 x10 x11 (ix2 p q)
  rw [Cert.ReferenceIdeal.Read.val_main_v89_apply, Cert.ReferenceIdeal.Read.val_main_v86_apply, Cert.ReferenceIdeal.Read.val_main_v88_apply, Cert.ReferenceIdeal.Read.val_main_v87_apply, row_apply]
  refine congrArg₂ (· + ·) (Finset.sum_congr rfl fun l _ => ?_) (congrArg x11 (funext fun a => by match a with | ⟨0, _⟩ => rfl))
  rw [truncf_apply, Cert.ReferenceIdeal.Read.val_main_v85_apply, Cert.ReferenceIdeal.Read.val_main_v84_apply, Cert.ReferenceIdeal.Read.val_main_v81_apply, Cert.ReferenceIdeal.Read.val_main_v83_apply,
    Cert.ReferenceIdeal.Read.val_main_v82_apply, Cert.ReferenceIdeal.Read.val_main_call3_v0_apply, Cert.ReferenceIdeal.Read.val_main_call3_cst_apply, row_apply,
    ix2_eq_match l q (Cert.ReferenceIdeal.Read.ridx_main_v86 (ix2 p q) l) rfl rfl]
  refine congrArg (· * x10 (ix2 l q)) (congrArg₂ max (congrArg₂ (· + ·) (Finset.sum_congr rfl fun k _ => ?_)
    (congrArg x9 (funext fun a => by match a with | ⟨0, _⟩ => rfl))) rfl)
  rw [truncf_apply, ix2_eq_match p k (Cert.ReferenceIdeal.Read.lidx_main_v81 (Cert.ReferenceIdeal.Read.lidx_main_v86 (ix2 p q) l) k) rfl rfl,
    ix2_eq_match k l (Cert.ReferenceIdeal.Read.ridx_main_v81 (Cert.ReferenceIdeal.Read.lidx_main_v86 (ix2 p q) l) k) rfl rfl]

end Cert.Bridge

end
-- ==== Proof.Bridge.lean ====
/-
  The kernel's result and the reference's result are one function of the twelve argument arrays.

  Reading the reference's program stage by stage: its first layer is `layer` of its first product, its second layer is
  `layer` of its second product, its combined rows are the global rows beside the per-graph means of the second
  layer's output, and its result is the perceptron of the combined rows. Each launch of the kernel is the matching
  product scaled by dis (or the perceptron), each host half of a kernel layer applied to a scaled product is the
  reference's layer applied to the product, and pooling is the same host text on both sides.
-/
import proofs.«104656_j19112604467789_2_alg».proof.Proof.Layer
import proofs.«104656_j19112604467789_2_alg».proof.Proof.Products

noncomputable section

namespace Cert.Bridge

open Idealize.ShloMosaic Idealize.ShloMosaic.ValueIdx

/-- The reference's first layer is `layer` of its first product. -/
theorem ref_layer1 (x1 : FVec Ideal ⟨2, ![50000, 1536]⟩ .f32) (x2 : IVec ⟨2, ![2, 200000]⟩ 32) (x4 : FVec Ideal ⟨2, ![1536, 1024]⟩ .f32) (x5 : FVec Ideal ⟨1, ![1024]⟩ .f32) :
    Cert.ReferenceIdeal.Read.val_main_v49 (F := Ideal) x1 x2 x4 x5
      = Cert.ReferenceIdeal.Stage.layer (F := Ideal) x2 (Cert.ReferenceIdeal.Read.val_main_v32 (F := Ideal) x1 x4) x5 := rfl

/-- The reference's second layer is `layer` of its second product. -/
theorem ref_layer2 (x1 : FVec Ideal ⟨2, ![50000, 1536]⟩ .f32) (x2 : IVec ⟨2, ![2, 200000]⟩ 32) (x4 : FVec Ideal ⟨2, ![1536, 1024]⟩ .f32) (x5 : FVec Ideal ⟨1, ![1024]⟩ .f32) (x6 : FVec Ideal ⟨2, ![1024, 1024]⟩ .f32) (x7 : FVec Ideal ⟨1, ![1024]⟩ .f32) :
    Cert.ReferenceIdeal.Read.val_main_v67 (F := Ideal) x1 x2 x4 x5 x6 x7
      = Cert.ReferenceIdeal.Stage.layer (F := Ideal) x2 (Cert.ReferenceIdeal.Read.val_main_v50 (F := Ideal) x1 x2 x4 x5 x6) x7 := rfl

/-- The reference's combined rows are the kernel's `combined` of the reference's second layer. -/
theorem ref_combined (x0 : FVec Ideal ⟨2, ![64, 1536]⟩ .f32) (x1 : FVec Ideal ⟨2, ![50000, 1536]⟩ .f32) (x2 : IVec ⟨2, ![2, 200000]⟩ 32) (x3 : IVec ⟨1, ![50000]⟩ 32) (x4 : FVec Ideal ⟨2, ![1536, 1024]⟩ .f32) (x5 : FVec Ideal ⟨1, ![1024]⟩ .f32) (x6 : FVec Ideal ⟨2, ![1024, 1024]⟩ .f32) (x7 : FVec Ideal ⟨1, ![1024]⟩ .f32) :
    Cert.ReferenceIdeal.Read.val_main_v80 (F := Ideal) x0 x1 x2 x3 x4 x5 x6 x7
      = Cert.KernelIdeal.Stage.combined (F := Ideal) x0 x3 (Cert.ReferenceIdeal.Read.val_main_v67 (F := Ideal) x1 x2 x4 x5 x6 x7) := rfl

/-- THE BRIDGE: the kernel's result is the reference's result. -/
theorem result_eq (x0 : FVec Ideal ⟨2, ![64, 1536]⟩ .f32) (x1 : FVec Ideal ⟨2, ![50000, 1536]⟩ .f32) (x2 : IVec ⟨2, ![2, 200000]⟩ 32) (x3 : IVec ⟨1, ![50000]⟩ 32) (x4 : FVec Ideal ⟨2, ![1536, 1024]⟩ .f32) (x5 : FVec Ideal ⟨1, ![1024]⟩ .f32) (x6 : FVec Ideal ⟨2, ![1024, 1024]⟩ .f32) (x7 : FVec Ideal ⟨1, ![1024]⟩ .f32) (x8 : FVec Ideal ⟨2, ![2560, 1024]⟩ .f32) (x9 : FVec Ideal ⟨1, ![1024]⟩ .f32) (x10 : FVec Ideal ⟨2, ![1024, 80]⟩ .f32) (x11 : FVec Ideal ⟨1, ![80]⟩ .f32) :
    Cert.KernelIdeal.Stage.result x0 x1 x2 x3 x4 x5 x6 x7 x8 x9 x10 x11 = Cert.ReferenceIdeal.Read.val_main_v89 (F := Ideal) x0 x1 x2 x3 x4 x5 x6 x7 x8 x9 x10 x11 := by
  unfold Cert.KernelIdeal.Stage.result
  rw [product0_eq, layer_eq, ← ref_layer1, product1_eq, layer_eq, ← ref_layer2, ← ref_combined, perceptron_eq]

end Cert.Bridge

end
-- ==== Proof.lean ====
/-
  A two-layer graph convolution, mean pooling per graph and a two-layer perceptron, computed two ways, agree at the
  exact instance (floats as extended reals, every operation exact).

  The kernel scales each layer's matrix product by dis = deg^(-1/2) inside the launch, sums over the 200000 real edges
  only, adds the node's own scaled row for its self-loop and scales once more by dis on the outside. The reference
  lists the edges followed by one self-loop per node and scales each entry by dis[source]·dis[destination] before it
  sums. Both degrees are (edges into the node) + 1, so dis is a nonnegative real on both sides, and a nonnegative real
  factor distributes over a sum of extended reals: the two layers are one function (Proof/Layer.lean). The matrix products
  of the launches are the reference's (Proof/Products.lean), pooling is the same host text, and the kernel's run ends with
  its result array at that function of the argument arrays (Proof/KValue.lean over Proof/KRegions.lean). No finiteness of
  the float inputs is used, and the integer inputs are arbitrary: a destination out of range is dropped on both sides,
  a source out of range reads the same clamped row on both sides.

  The frames of the two kernel programs are the generated frame certificates; the reference's frame is its run with the
  result forgotten; the ideal pass rewrote nothing, so the kernel's idealization claim is trivial.
-/
import proofs.«104656_j19112604467789_2_alg».proof.Defs
import proofs.«104656_j19112604467789_2_alg».proof.Proof.Gen.Kernel
import proofs.«104656_j19112604467789_2_alg».proof.Proof.Gen.Kernel.Frame
import proofs.«104656_j19112604467789_2_alg».proof.Proof.Gen.KernelIdeal
import proofs.«104656_j19112604467789_2_alg».proof.Proof.Gen.KernelIdeal.Frame
import proofs.«104656_j19112604467789_2_alg».proof.Proof.Gen.ReferenceIdeal
import proofs.«104656_j19112604467789_2_alg».proof.Proof.Gen.Pre_finite_inputs
import proofs.«104656_j19112604467789_2_alg».proof.Proof.RefRun
import proofs.«104656_j19112604467789_2_alg».proof.Proof.RefRead
import proofs.«104656_j19112604467789_2_alg».proof.Proof.KValue
import proofs.«104656_j19112604467789_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at `Stage.result` of the argument arrays: the kernel's by its value run, the
    reference's by its run, its stage-by-stage reading and the bridge, the arguments agreeing. -/
theorem algebraic : Cert.algebraic_KernelIdeal_ReferenceIdeal := by
  intro m ρ m' ρ' _ hagree
  refine ⟨fun c => Cert.KernelIdeal.Stage.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  rw [Cert.ReferenceIdeal.Read.val_main_v89_eq, h0, h1, h2, h3, h4, h5, h6, h7, h8, h9, h10, h11]
  exact (Cert.Bridge.result_eq _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
